-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2049x8193 : Shape := ⟨2, ![2049, 8193]⟩
abbrev S2049x2049 : Shape := ⟨2, ![2049, 2049]⟩
abbrev S_ : Shape := ⟨0, ![]⟩

class Facts : Prop where
  bcast_S_S2049x8193 : S_.BroadcastsInDim S2049x8193 (![] : Fin 0 → Fin S2049x8193.rank)
  reducesTo_S2049x8193_S_d0_1 : S2049x8193.ReducesTo [0, 1] S_
  h_S_ : 0 < S_.numel
  bcast_S_S2049x2049 : S_.BroadcastsInDim S2049x2049 (![] : Fin 0 → Fin S2049x2049.rank)
  reducesTo_S2049x2049_S_d0_1 : S2049x2049.ReducesTo [0, 1] S_

variable [Facts]

def fn_part1 {F : FTy → Type} [FloatOps F] (main_v13 : IVec S_ 1) (main_v16 : IVec S2049x2049 1) : IVec S_ 1 :=
  let main_c_5 : IVec S_ 1 := constantI S_ 1 1#1
  let main_v17 : IVec S_ 1 := (fun x v => Host.reduce IntOp.andi x v reducesTo_S2049x2049_S_d0_1 h_S_) main_v16 main_c_5
  let main_v18 : IVec S_ 1 := andi main_v13 main_v17
  main_v18

def fn {F : FTy → Type} [FloatOps F] (main_arg0 : FVec F S2049x8193 .f32) (main_arg1 : FVec F S2049x2049 .f32) (main_arg2 : FVec F S2049x2049 .f32) (main_arg3 : FVec F S2049x2049 .f32) : IVec S_ 1 :=
  let main_v0 : FVec F S2049x8193 .f32 := Host.absf main_arg0
  let main_cst : FVec F S_ .f32 := constant S_ .f32 0x7F800000#32
  let main_v1 : FVec F S2049x8193 .f32 := broadcastInDim S2049x8193 ![] bcast_S_S2049x8193 main_cst
  let main_v2 : IVec S2049x8193 1 := cmpf .olt main_v0 main_v1
  let main_c : IVec S_ 1 := constantI S_ 1 1#1
  let main_v3 : IVec S_ 1 := (fun x v => Host.reduce IntOp.andi x v reducesTo_S2049x8193_S_d0_1 h_S_) main_v2 main_c
  let main_v4 : FVec F S2049x2049 .f32 := Host.absf main_arg1
  let main_cst_0 : FVec F S_ .f32 := constant S_ .f32 0x7F800000#32
  let main_v5 : FVec F S2049x2049 .f32 := broadcastInDim S2049x2049 ![] bcast_S_S2049x2049 main_cst_0
  let main_v6 : IVec S2049x2049 1 := cmpf .olt main_v4 main_v5
  let main_c_1 : IVec S_ 1 := constantI S_ 1 1#1
  let main_v7 : IVec S_ 1 := (fun x v => Host.reduce IntOp.andi x v reducesTo_S2049x2049_S_d0_1 h_S_) main_v6 main_c_1
  let main_v8 : IVec S_ 1 := andi main_v3 main_v7
  let main_v9 : FVec F S2049x2049 .f32 := Host.absf main_arg2
  let main_cst_2 : FVec F S_ .f32 := constant S_ .f32 0x7F800000#32
  let main_v10 : FVec F S2049x2049 .f32 := broadcastInDim S2049x2049 ![] bcast_S_S2049x2049 main_cst_2
  let main_v11 : IVec S2049x2049 1 := cmpf .olt main_v9 main_v10
  let main_c_3 : IVec S_ 1 := constantI S_ 1 1#1
  let main_v12 : IVec S_ 1 := (fun x v => Host.reduce IntOp.andi x v reducesTo_S2049x2049_S_d0_1 h_S_) main_v11 main_c_3
  let main_v13 : IVec S_ 1 := andi main_v8 main_v12
  let main_v14 : FVec F S2049x2049 .f32 := Host.absf main_arg3
  let main_cst_4 : FVec F S_ .f32 := constant S_ .f32 0x7F800000#32
  let main_v15 : FVec F S2049x2049 .f32 := broadcastInDim S2049x2049 ![] bcast_S_S2049x2049 main_cst_4
  let main_v16 : IVec S2049x2049 1 := cmpf .olt main_v14 main_v15
  fn_part1 (F := F) main_v13 main_v16
-- ==== Kernel.lean ====
abbrev S2049x8193 : Shape := ⟨2, ![2049, 8193]⟩
abbrev S2049x2049 : Shape := ⟨2, ![2049, 2049]⟩
abbrev S2049x1 : Shape := ⟨2, ![2049, 1]⟩
abbrev S2049 : Shape := ⟨1, ![2049]⟩
abbrev S1x2049 : Shape := ⟨2, ![1, 2049]⟩
abbrev S2x2049 : Shape := ⟨2, ![2, 2049]⟩
abbrev S1x1 : Shape := ⟨2, ![1, 1]⟩
abbrev S1 : Shape := ⟨1, ![1]⟩
abbrev S16x128 : Shape := ⟨2, ![16, 128]⟩
abbrev S2049x1024 : Shape := ⟨2, ![2049, 1024]⟩
abbrev S8x128 : Shape := ⟨2, ![8, 128]⟩
abbrev S2x1024 : Shape := ⟨2, ![2, 1024]⟩
abbrev S1x1024 : Shape := ⟨2, ![1, 1024]⟩
abbrev S_ : Shape := ⟨0, ![]⟩

abbrev nBuf : Space → Nat
  | .hbm => 21
  | .vmem => 15
  | .smem => 0
  | _ => 0

abbrev bufTy : (tb : Table) → Fin (tcTables nBuf tb) → BufTy
  | .hbm, ⟨0, _⟩ => ⟨S2049x8193, .f32⟩
  | .hbm, ⟨1, _⟩ => ⟨S2049x2049, .f32⟩
  | .hbm, ⟨2, _⟩ => ⟨S2049x2049, .f32⟩
  | .hbm, ⟨3, _⟩ => ⟨S2049x2049, .f32⟩
  | .hbm, ⟨4, _⟩ => ⟨S2049x1, .f32⟩
  | .hbm, ⟨5, _⟩ => ⟨S2049, .f32⟩
  | .hbm, ⟨6, _⟩ => ⟨S1x2049, .f32⟩
  | .hbm, ⟨7, _⟩ => ⟨S1x2049, .f32⟩
  | .hbm, ⟨8, _⟩ => ⟨S1x2049, .f32⟩
  | .hbm, ⟨9, _⟩ => ⟨S2x2049, .f32⟩
  | .hbm, ⟨10, _⟩ => ⟨S1x1, .f32⟩
  | .hbm, ⟨11, _⟩ => ⟨S16x128, .f32⟩
  | .hbm, ⟨12, _⟩ => ⟨S1x1, .f32⟩
  | .hbm, ⟨13, _⟩ => ⟨S_, .f32⟩
  | .hbm, ⟨14, _⟩ => ⟨S1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S2049x2049, .f32⟩
  | .local _ .vmem, ⟨1, _⟩ => ⟨S1x2049, .f32⟩
  | .local _ .vmem, ⟨2, _⟩ => ⟨S1x2049, .f32⟩
  | .local _ .vmem, ⟨3, _⟩ => ⟨S2049x2049, .f32⟩
  | .local _ .vmem, ⟨4, _⟩ => ⟨S1x2049, .f32⟩
  | .local _ .vmem, ⟨5, _⟩ => ⟨S1x2049, .f32⟩
  | .local _ .vmem, ⟨6, _⟩ => ⟨S1x2049, .f32⟩
  | .local _ .vmem, ⟨7, _⟩ => ⟨S2x2049, .f32⟩
  | .local _ .vmem, ⟨8, _⟩ => ⟨S1x1, .f32⟩
  | .local _ .vmem, ⟨9, _⟩ => ⟨S2x2049, .f32⟩
  | .local _ .vmem, ⟨10, _⟩ => ⟨S2049x1024, .f32⟩
  | .local _ .vmem, ⟨11, _⟩ => ⟨S2049x1024, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | _, _ => ⟨S2049x8193, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc2_stg0_0 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_scratch0 : Ref sig .tc := ⟨.vmem, 14, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc2_sem0_0 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2049x2049 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2049 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2049 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2049x2049 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2049 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2049 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2049 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x2049 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨2, ![2, 4], ![false, false]⟩

def k2_cond2 (i : grid2.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_9 : BitVec 32 := 0#32
  let v21 : BitVec 1 := Scalar.cmpi .ne v20 c0_i32_9
  v21

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .vmem S2x2049 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S2049x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S8x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

class Facts₀ : Prop where
  slices_S2049x8193_S2049x1_0_8192 : S2049x8193.Slices ![0, 8192] S2049x1
  shapeCasts_S2049x1_S2049 : S2049x1.ShapeCasts S2049
  shapeCasts_S2049_S1x2049 : S2049.ShapeCasts S1x2049
  slices_S2049x2049_S1x2049_2048_0 : S2049x2049.Slices ![2048, 0] S1x2049
  inb_S2049x2049_S2049x2049_0_0 : ∀ a, (![0, 0] : Fin 2 → Nat) a + S2049x2049.size a ≤ S2049x2049.size a
  h_S2049x2049 : 0 < S2049x2049.numel
  bitsLt_bf16_f32 : FTy.bits .bf16 < FTy.bits .f32
  inb_S1x2049_S1x2049_0_0 : ∀ a, (![0, 0] : Fin 2 → Nat) a + S1x2049.size a ≤ S1x2049.size a
  h_S1x2049 : 0 < S1x2049.numel
  shapeCasts_S1x2049_S1x2049 : S1x2049.ShapeCasts S1x2049
  concatenates_S1x2049_S1x2049_S2x2049_d0 : Shape.Concatenates [S1x2049, S1x2049] S2x2049 0
  inb_S2x2049_S2x2049_0_0 : ∀ a, (![0, 0] : Fin 2 → Nat) a + S2x2049.size a ≤ S2x2049.size a
  h_S2x2049 : 0 < S2x2049.numel
  reduces_S1x2049_S1 : S1x2049.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  inb_S8x128_S8x128_0_0 : ∀ a, (![0, 0] : Fin 2 → Nat) a + S8x128.size a ≤ S8x128.size a
  h_S8x128 : 0 < S8x128.numel
  shapeCasts_S8x128_S8x128 : S8x128.ShapeCasts S8x128
  shapeCasts_S2x2049_S2x2049 : S2x2049.ShapeCasts S2x2049
  inb_S2049x1024_S2049x1024_0_0 : ∀ a, (![0, 0] : Fin 2 → Nat) a + S2049x1024.size a ≤ S2049x1024.size a
  h_S2049x1024 : 0 < S2049x1024.numel
  slices_S2x1024_o0_0_S1x1024 : S2x1024.Slices ![0, 0] S1x1024
  slices_S2x1024_o1_0_S1x1024 : S2x1024.Slices ![1, 0] S1x1024
  reduces_S1x1024_S1 : S1x1024.Reduces [1] S1
  inb_S8x128_S1x1_0_0 : ∀ a, (![0, 0] : Fin 2 → Nat) a + S1x1.size a ≤ S8x128.size a
  shapeCasts_S1x1_S1x1 : S1x1.ShapeCasts S1x1
  slices_S16x128_S1x1_0_0 : S16x128.Slices ![0, 0] S1x1
  shapeCasts_S1x1_S_ : S1x1.ShapeCasts S_
  slices_S16x128_S1x1_8_0 : S16x128.Slices ![8, 0] S1x1
  dot_S1x2049_S2049x2049_S1x2049_1_1_0_0_n_n_wf : DotDims.WF S1x2049 S2049x2049 S1x2049 [1] [1] [0] [0] [] []
  dot_S1x2049_S2049x2049_S1x2049_1_0_0_1_n_n_wf : DotDims.WF S1x2049 S2049x2049 S1x2049 [1] [0] [0] [1] [] []
  dot_S2x2049_S2049x1024_S2x1024_1_0_0_1_n_n_wf : DotDims.WF S2x2049 S2049x1024 S2x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2049x2049.size a ≤ S2049x2049.size a
  hwx0_0 : ∀ i : grid0.Coords, EltTy.bits .f32 = 32 ∨ (Rect.block (s := S2049x2049) S2049x2049.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2049.size a ≤ S1x2049.size a
  hwx0_1 : ∀ i : grid0.Coords, EltTy.bits .f32 = 32 ∨ (Rect.block (s := S1x2049) S1x2049.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2049.size a ≤ S1x2049.size a
  hwx0_2 : ∀ i : grid0.Coords, EltTy.bits .f32 = 32 ∨ (Rect.block (s := S1x2049) S1x2049.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2049x2049.size a ≤ S2049x2049.size a
  hwx1_0 : ∀ i : grid1.Coords, EltTy.bits .f32 = 32 ∨ (Rect.block (s := S2049x2049) S2049x2049.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x2049.size a ≤ S1x2049.size a
  hwx1_1 : ∀ i : grid1.Coords, EltTy.bits .f32 = 32 ∨ (Rect.block (s := S1x2049) S1x2049.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x2049.size a ≤ S1x2049.size a
  hwx1_2 : ∀ i : grid1.Coords, EltTy.bits .f32 = 32 ∨ (Rect.block (s := S1x2049) S1x2049.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2049.size a ≤ S1x2049.size a
  hwx1_3 : ∀ i : grid1.Coords, EltTy.bits .f32 = 32 ∨ (Rect.block (s := S1x2049) S1x2049.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2x2049.size a ≤ S2x2049.size a
  hwx1_4 : ∀ i : grid1.Coords, EltTy.bits .f32 = 32 ∨ (Rect.block (s := S2x2049) S2x2049.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1.size a ≤ S1x1.size a
  hwx1_5 : ∀ i : grid1.Coords, EltTy.bits .f32 = 32 ∨ (Rect.block (s := S1x1) S1x1.size (cc1_transform_5 i) (hinb1_5 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2x2049.size a ≤ S2x2049.size a
  hwx2_0 : ∀ i : grid2.Coords, EltTy.bits .f32 = 32 ∨ (Rect.block (s := S2x2049) S2x2049.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S2049x1024.size a < S2049x8193.size a
  hwx2_1 : ∀ i : grid2.Coords, EltTy.bits .f32 = 32 ∨ (Rect.unit (s := S2049x8193) (fun a => cc2_transform_1 i a * S2049x1024.size a) (fun a => (Pipeline.Clip.of (cc2_transform_1 i a) (S2049x1024.size a) (S2049x8193.size a)).extent (S2049x1024.size a)) fun a => Pipeline.Clip.inb (Pipeline.Clip.ok_of (hstart2_1 i a))).WholeWords (EltTy.packing .f32)
  hwxs2_1 : ∀ i : grid2.Coords, EltTy.bits .f32 = 32 ∨ (Rect.unit (s := S2049x1024) (fun _ => 0) (fun a => (Pipeline.Clip.of (cc2_transform_1 i a) (S2049x1024.size a) (S2049x8193.size a)).extent (S2049x1024.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8x128.size a ≤ S16x128.size a
  hwx2_2 : ∀ i : grid2.Coords, EltTy.bits .f32 = 32 ∨ (Rect.block (s := S16x128) S8x128.size (cc2_transform_2 i) (hinb2_2 i)).WholeWords (EltTy.packing .f32)

variable [Facts₀]

def dot_S1x2049_S2049x2049_S1x2049_1_1_0_0_n_n : DotDims S1x2049 S2049x2049 S1x2049 where
  lhsContracting := [1]
  rhsContracting := [1]
  lhsNonContracting := [0]
  rhsNonContracting := [0]
  lhsBatch := []
  rhsBatch := []
  wf := dot_S1x2049_S2049x2049_S1x2049_1_1_0_0_n_n_wf
def dot_S1x2049_S2049x2049_S1x2049_1_0_0_1_n_n : DotDims S1x2049 S2049x2049 S1x2049 where
  lhsContracting := [1]
  rhsContracting := [0]
  lhsNonContracting := [0]
  rhsNonContracting := [1]
  lhsBatch := []
  rhsBatch := []
  wf := dot_S1x2049_S2049x2049_S1x2049_1_0_0_1_n_n_wf
def dot_S2x2049_S2049x1024_S2x1024_1_0_0_1_n_n : DotDims S2x2049 S2049x1024 S2x1024 where
  lhsContracting := [1]
  rhsContracting := [0]
  lhsNonContracting := [0]
  rhsNonContracting := [1]
  lhsBatch := []
  rhsBatch := []
  wf := dot_S2x2049_S2049x1024_S2x1024_1_0_0_1_n_n_wf

abbrev win0_0 : Pipeline.Window sig grid0 :=
  Pipeline.Window.ofSpec (Memref.whole main_arg3) S2049x2049.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x2049.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x2049.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S2049x2049.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x2049.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x2049.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x2049.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5_0) S2x2049.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5_1) S1x1.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v5_0) S2x2049.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg0) S2049x1024.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_v6) S8x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S2049x8193 : Shape := ⟨2, ![2049, 8193]⟩
abbrev S2049x2049 : Shape := ⟨2, ![2049, 2049]⟩
abbrev S8193x2049 : Shape := ⟨2, ![8193, 2049]⟩
abbrev S8193x8193 : Shape := ⟨2, ![8193, 8193]⟩
abbrev S_ : Shape := ⟨0, ![]⟩
abbrev S1x1 : Shape := ⟨2, ![1, 1]⟩

abbrev nBuf : Space → Nat
  | .hbm => 15
  | .vmem => 0
  | .smem => 0
  | _ => 0

abbrev bufTy : (tb : Table) → Fin (tcTables nBuf tb) → BufTy
  | .hbm, ⟨0, _⟩ => ⟨S2049x8193, .f32⟩
  | .hbm, ⟨1, _⟩ => ⟨S2049x2049, .f32⟩
  | .hbm, ⟨2, _⟩ => ⟨S2049x2049, .f32⟩
  | .hbm, ⟨3, _⟩ => ⟨S2049x2049, .f32⟩
  | .hbm, ⟨4, _⟩ => ⟨S2049x8193, .f32⟩
  | .hbm, ⟨5, _⟩ => ⟨S2049x8193, .f32⟩
  | .hbm, ⟨6, _⟩ => ⟨S2049x8193, .f32⟩
  | .hbm, ⟨7, _⟩ => ⟨S8193x2049, .f32⟩
  | .hbm, ⟨8, _⟩ => ⟨S8193x8193, .f32⟩
  | .hbm, ⟨9, _⟩ => ⟨S_, .f32⟩
  | .hbm, ⟨10, _⟩ => ⟨S8193x8193, .f32⟩
  | .hbm, ⟨11, _⟩ => ⟨S8193x8193, .f32⟩
  | .hbm, ⟨12, _⟩ => ⟨S2049x8193, .f32⟩
  | .hbm, ⟨13, _⟩ => ⟨S1x1, .f32⟩
  | .hbm, ⟨14, _⟩ => ⟨S_, .f32⟩
  | _, _ => ⟨S2049x8193, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S2049x8193_S8193x2049_1_0 : S2049x8193.Transposes [1, 0] S8193x2049
  bcast_S_S8193x8193 : S_.BroadcastsInDim S8193x8193 (![] : Fin 0 → Fin S8193x8193.rank)
  slices_S2049x8193_S1x1_2048_8192 : S2049x8193.Slices ![2048, 8192] S1x1
  shapeCasts_S1x1_S_ : S1x1.ShapeCasts S_
  dot_S2049x2049_S2049x8193_S2049x8193_1_0_0_1_n_n_wf : DotDims.WF S2049x2049 S2049x8193 S2049x8193 [1] [0] [0] [1] [] []
  dot_S8193x2049_S2049x8193_S8193x8193_1_0_0_1_n_n_wf : DotDims.WF S8193x2049 S2049x8193 S8193x8193 [1] [0] [0] [1] [] []
  dot_S2049x8193_S8193x8193_S2049x8193_1_0_0_1_n_n_wf : DotDims.WF S2049x8193 S8193x8193 S2049x8193 [1] [0] [0] [1] [] []

variable [Facts₀]

def dot_S2049x2049_S2049x8193_S2049x8193_1_0_0_1_n_n : DotDims S2049x2049 S2049x8193 S2049x8193 where
  lhsContracting := [1]
  rhsContracting := [0]
  lhsNonContracting := [0]
  rhsNonContracting := [1]
  lhsBatch := []
  rhsBatch := []
  wf := dot_S2049x2049_S2049x8193_S2049x8193_1_0_0_1_n_n_wf
def dot_S8193x2049_S2049x8193_S8193x8193_1_0_0_1_n_n : DotDims S8193x2049 S2049x8193 S8193x8193 where
  lhsContracting := [1]
  rhsContracting := [0]
  lhsNonContracting := [0]
  rhsNonContracting := [1]
  lhsBatch := []
  rhsBatch := []
  wf := dot_S8193x2049_S2049x8193_S8193x8193_1_0_0_1_n_n_wf
def dot_S2049x8193_S8193x8193_S2049x8193_1_0_0_1_n_n : DotDims S2049x8193 S8193x8193 S2049x8193 where
  lhsContracting := [1]
  rhsContracting := [0]
  lhsNonContracting := [0]
  rhsNonContracting := [1]
  lhsBatch := []
  rhsBatch := []
  wf := dot_S2049x8193_S8193x8193_S2049x8193_1_0_0_1_n_n_wf

class Facts : Prop extends Facts₀ where

variable [Facts]
-- ==== Proof.R0K.lean ====
/- Region 0 of the program, the call of `cc0__qz_kernel`: one grid point, three windows, each the whole of
   its array. Window 0 is the square matrix, window 1 the row vector, window 2 the row vector the call writes.
   This module states, for any contents `V` the TensorCore's buffers hold when the region is entered, what each
   window's staging buffer holds after the body (the two inputs unchanged, the output the one stored payload
   spread over its buffer), runs the body once on whole staging memrefs, and packages the result as the
   pipeline's proof data together with the obligation that the body honours it. Everything is generic in the
   float interpretation `F`. -/
import proofs.«147252_j55800215109664_2_alg».proof.Proof.Gen.Kernel.Launch
import proofs.«147252_j55800215109664_2_alg».proof.Proof.Gen.Kernel.Skeleton
import proofs.«147252_j55800215109664_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- what the TensorCore's buffers hold when region 0 is entered
variable (V : (c : Dev nD) → (b : Ref sig .tc) → Buf (Elt F) ((c : Thread nD τ).loc b))

/-! ## Blocks -/

/-- The block of window `w` at grid point `t`: the window's rectangle at `t` read out of the window's array as
    the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block when the body is called, whatever the proof data,
    as long as its array is the entry contents and the body leaves the block alone (window 0: the matrix). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for window 1, the row vector the body reads. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each is a whole buffer -/

/-- The whole of a 2049 × 2049 buffer. -/
abbrev r0_sq : Rect S2049x2049 := Rect.unit (s := S2049x2049) ![0, 0] S2049x2049.size inb_S2049x2049_S2049x2049_0_0
/-- The whole of a 1 × 2049 buffer. -/
abbrev r0_row : Rect S1x2049 := Rect.unit (s := S1x2049) ![0, 0] S1x2049.size inb_S1x2049_S1x2049_0_0

/-! ## The output buffer after the body -/

/-- Window 2's staging buffer after the body, as a function of the two input blocks: the body's single store
    writes the payload (the product of the row vector with the matrix) over the whole buffer. -/
def out0_2 (x0 : Vec F S2049x2049 .f32) (x1 : Vec F S1x2049 .f32) : Vec F S1x2049 .f32 :=
  View.canon [⟨r0_row, k0_pay1 (View.ld x0 r0_sq) (View.ld x1 r0_row)⟩]

/-- That one store reaches every index of the buffer. -/
theorem cover0_2 (p0 : Vec F S1x2049 .f32) (y : S1x2049.Idx) :
    ∃ pc ∈ ([⟨r0_row, p0⟩] : List (View.Piece (Elt F) S1x2049 .f32)), y ∈ pc.1.set :=
  View.cover_of_tiled [⟨r0_row, p0⟩] S1x2049.size (by rfl) y

/-! ## Running the body -/

set_option maxHeartbeats 1000000 in
/-- The body on whole staging memrefs. The two inputs hold `x0`, `x1`; the output holds anything (the body does
    load it before the store, but never uses what it loaded). Afterwards the inputs are as they were and the
    output holds `out0_2 x0 x1`. -/
theorem sound_kernel0 (c : Dev nD) (E : Set ℕ) (i : grid0.Coords)
    (arg1 : Memref sig .tc .vmem S2049x2049 .f32) (harg1 : arg1.IsWhole)
    (arg2 : Memref sig .tc .vmem S1x2049 .f32) (harg2 : arg2.IsWhole)
    (arg3 : Memref sig .tc .vmem S1x2049 .f32) (harg3 : arg3.IsWhole)
    (x0 : Vec F S2049x2049 .f32) (x1 : Vec F S1x2049 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__qz_kernel i arg1 harg1 arg2 harg2 arg3 harg3) K := by
  simp only [cc0__qz_kernel_eq_skeleton]; unfold cc0__qz_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- Pipeline 0's proof data on core `c`: the arrays are the entry contents; after the body at point `t` the two
    input buffers hold their blocks and the output buffer holds `out0_2` of them; the invariant is the one of a
    body that touches only its staging buffers; nothing is owed; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input buffer holds its block when the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the pipeline hands the body at point `t`, the windows spelt out one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it expects back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the run above applies; the invariant and
    the debts are not looked at. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline's frame theorem asks of the body, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.R1K.lean ====
/- Region 1 of the program, the call of `cc1__kz_last_kernel`: one grid point, six windows, each the whole
   of its array. Windows 0 to 3 are read (a square matrix and three row vectors); window 4 is a two-row
   matrix and window 5 a single number, both written. For any contents `V` of the TensorCore's buffers at the
   region's entry this module says what every staging buffer holds after the body (inputs unchanged; each
   output the one payload stored into it, spread over the whole buffer), runs the body once on whole staging
   memrefs, and packages this as the pipeline's proof data with the obligation that the body honours it.
   Generic in the float interpretation `F`. -/
import proofs.«147252_j55800215109664_2_alg».proof.Proof.Gen.Kernel.Launch
import proofs.«147252_j55800215109664_2_alg».proof.Proof.Gen.Kernel.Skeleton
import proofs.«147252_j55800215109664_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- what the TensorCore's buffers hold when region 1 is entered
variable (V : (c : Dev nD) → (b : Ref sig .tc) → Buf (Elt F) ((c : Thread nD τ).loc b))

/-! ## Blocks -/

/-- The block of window `w` at grid point `t`: the window's rectangle at `t` read out of the window's array as
    the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block when the body is called, whatever the proof data,
    as long as its array is the entry contents and the body leaves the block alone (window 0: the matrix). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for window 1, the row vector that multiplies the matrix. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for window 2, the row vector both sums are weighted by. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same for window 3, the row vector copied into the second output row. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches: each is a whole buffer -/

/-- The whole of a 2049 × 2049 buffer. -/
abbrev r1_sq : Rect S2049x2049 := Rect.unit (s := S2049x2049) ![0, 0] S2049x2049.size inb_S2049x2049_S2049x2049_0_0
/-- The whole of a 1 × 2049 buffer. -/
abbrev r1_row : Rect S1x2049 := Rect.unit (s := S1x2049) ![0, 0] S1x2049.size inb_S1x2049_S1x2049_0_0
/-- The whole of a 2 × 2049 buffer. -/
abbrev r1_two : Rect S2x2049 := Rect.unit (s := S2x2049) ![0, 0] S2x2049.size inb_S2x2049_S2x2049_0_0
/-- The whole of a 1 × 1 buffer. -/
abbrev r1_one : Rect S1x1 := Rect.unit (s := S1x1) ![0, 0] S1x1.size inb_S1x1_S1x1_0_0

/-! ## The output buffers after the body -/

/-- Window 4's staging buffer after the body, from the blocks of windows 0, 1 and 3: the one store writes the
    two-row payload (row 0 the vector–matrix product, row 1 the copied vector) over the whole buffer. -/
def out1_4 (x0 : Vec F S2049x2049 .f32) (x1 x3 : Vec F S1x2049 .f32) : Vec F S2x2049 .f32 :=
  View.canon [⟨r1_two, k1_pay3 (View.ld x0 r1_sq) (View.ld x1 r1_row) (View.ld x3 r1_row)⟩]

/-- Window 5's staging buffer after the body, from the blocks of windows 0 to 3: the one store writes the
    product of the two weighted sums. -/
def out1_5 (x0 : Vec F S2049x2049 .f32) (x1 x2 x3 : Vec F S1x2049 .f32) : Vec F S1x1 .f32 :=
  View.canon [⟨r1_one, k1_pay4 (View.ld x0 r1_sq) (View.ld x1 r1_row) (View.ld x2 r1_row) (View.ld x3 r1_row)⟩]

/-- Each of the two stores reaches every index of its buffer. -/
theorem cover1_4 (p0 : Vec F S2x2049 .f32) (y : S2x2049.Idx) :
    ∃ pc ∈ ([⟨r1_two, p0⟩] : List (View.Piece (Elt F) S2x2049 .f32)), y ∈ pc.1.set :=
  View.cover_of_tiled [⟨r1_two, p0⟩] S2x2049.size (by rfl) y
theorem cover1_5 (p0 : Vec F S1x1 .f32) (y : S1x1.Idx) :
    ∃ pc ∈ ([⟨r1_one, p0⟩] : List (View.Piece (Elt F) S1x1 .f32)), y ∈ pc.1.set :=
  View.cover_of_tiled [⟨r1_one, p0⟩] S1x1.size (by rfl) y

/-! ## Running the body -/

set_option maxHeartbeats 1000000 in
/-- The body on whole staging memrefs. The four inputs hold `x0 … x3`; the two outputs hold anything (each is
    loaded before it is stored, and what was loaded is never used). Afterwards the inputs are as they were and
    the outputs hold `out1_4 x0 x1 x3` and `out1_5 x0 x1 x2 x3`. -/
theorem sound_kernel1 (c : Dev nD) (E : Set ℕ) (i : grid1.Coords)
    (arg1 : Memref sig .tc .vmem S2049x2049 .f32) (harg1 : arg1.IsWhole)
    (arg2 : Memref sig .tc .vmem S1x2049 .f32) (harg2 : arg2.IsWhole)
    (arg3 : Memref sig .tc .vmem S1x2049 .f32) (harg3 : arg3.IsWhole)
    (arg4 : Memref sig .tc .vmem S1x2049 .f32) (harg4 : arg4.IsWhole)
    (arg5 : Memref sig .tc .vmem S2x2049 .f32) (harg5 : arg5.IsWhole)
    (arg6 : Memref sig .tc .vmem S1x1 .f32) (harg6 : arg6.IsWhole)
    (x0 : Vec F S2049x2049 .f32) (x1 x2 x3 : Vec F S1x2049 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x3)
            ∗ owns (c : Thread nD τ) arg6 fullShare (out1_5 x0 x1 x2 x3)) -∗ K ⟨⟩))
      ⊢ wp frame (wpE (defs₀ (F := F)) Variants.none c none) E
          (cc1__kz_last_kernel i arg1 harg1 arg2 harg2 arg3 harg3 arg4 harg4 arg5 harg5 arg6 harg6) K := by
  simp only [cc1__kz_last_kernel_eq_skeleton]; unfold cc1__kz_last_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The proof data of the pipeline -/

/-- Pipeline 1's proof data on core `c`: the arrays are the entry contents; after the body at point `t` the four
    input buffers hold their blocks and the two output buffers hold `out1_4` and `out1_5` of them; the invariant
    is the one of a body that touches only its staging buffers; nothing is owed; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 3 t) := by dsimp only [dat1]
theorem after1_5 (c : Dev nD) (t : Fin cfg1.N) :
    (dat1 V c).after 5 t = out1_5 (iblk1 V c 0 t) (iblk1 V c 1 t) (iblk1 V c 2 t) (iblk1 V c 3 t) := by dsimp only [dat1]

/-- Each input buffer holds its block when the body is called. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the pipeline hands the body at point `t`, the windows spelt out one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it expects back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the run above applies; the invariant and
    the debts are not looked at. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's frame theorem asks of the body, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.R2FactsK.lean ====
/-
  Region 2 (the tiled reduction over the first 8192 columns of `Z`), the facts decided over its grid of 2 · 4 points:
  the body's two conditionals in closed form (the first tile of a half, the last tile of a half), where the output
  window is left untouched and where it is written back, and that every block of `Z` the grid visits lies inside
  the array (blocks 0 … 7 of 1024 columns each, of 8193 columns).
-/
import proofs.«147252_j55800215109664_2_alg».proof.Proof.Gen.Kernel.Launch
import proofs.«147252_j55800215109664_2_alg».proof.Proof.Gen.Kernel.Skeleton
import proofs.«147252_j55800215109664_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's two conditionals -/

/-- The first conditional: this is the first tile of its half (`k = 0`), where the accumulator is cleared. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional: this is the last tile of its half (`k = 3`), where the accumulator is copied out. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle, fetched, written back -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from a half's last tile the output window is idle and not written back; -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- at a half's last tile it is live. -/
theorem liveAt2_2 : ∀ t : Fin cfg2.N, cond2_1 (grid2.coords t) → cfg2.idle 2 (grid2.coords t) = false := by decide +kernel

/-- Every block of `Z` the grid visits lies inside the array: no transfer of window 1 is cut. -/
theorem clip2_1 : ∀ (t : Fin cfg2.N) (a : Fin 2), (cfg2.win 1).clip (cfg2.grid.coords t) a = none :=
  (by decide +kernel : ∀ (t : Fin grid2.N) (a : Fin 2), win2_1.clip (grid2.coords t) a = none)

/-! ## The scratch accumulator -/

/-- The kernel's scratch operand, a whole scoped buffer passed beside the windows. -/
abbrev scM2 : Memref sig .tc .vmem S8x128 .f32 := Memref.whole cc2_scratch0
theorem hscM2 : (scM2 : Memref sig .tc .vmem S8x128 .f32).IsWhole := Memref.isWhole_whole _

/-- The class invariant with the scratch accumulator split out: the accumulator at some contents, the generator
    register at some state, and the other scoped buffers (no staging buffer of this region) at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ d, owns (c : Thread nD τ) scM2 fullShare d)) ∗ (∃ r, prngReg c r)) := by
  unfold Pipeline.ΦA; rw [scopedRest2_eq]; simp only [scM2, owns_whole]; try rfl

end Cert.Kernel.Hand

end
-- ==== Proof.R2BodyK.lean ====
/-
  Region 2, the kernel body on whole memrefs, case by case. Write `acc2 x0 x1 s` for the accumulator after one tile:
  the accumulator `s` with its entry [0,0] replaced by that entry plus the tile's sum of products (the payload of the
  body's one-element store, over the loaded block of `M`, the loaded block of `Z` and the loaded entry). Then
    * at the first tile of a half the accumulator is cleared first: it ends at `acc2 x0 x1 zero2`;
    * at a middle tile it ends at `acc2 x0 x1 s`;
    * at the last tile of a half it ends at `acc2 x0 x1 s` and the output block is a copy of it.
  In the first two cases the output block is not touched.
-/
import proofs.«147252_j55800215109664_2_alg».proof.Proof.Gen.Kernel.Launch
import proofs.«147252_j55800215109664_2_alg».proof.Proof.Gen.Kernel.Skeleton
import proofs.«147252_j55800215109664_2_alg».proof.Proof.Gen.Kernel.Points
import proofs.«147252_j55800215109664_2_alg».proof.Proof.R2FactsK
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

abbrev r2_m : Rect S2x2049 := Rect.unit (s := S2x2049) ![0, 0] S2x2049.size inb_S2x2049_S2x2049_0_0
abbrev r2_z : Rect S2049x1024 := Rect.unit (s := S2049x1024) ![0, 0] S2049x1024.size inb_S2049x1024_S2049x1024_0_0
abbrev r2_full : Rect S8x128 := Rect.unit (s := S8x128) ![0, 0] S8x128.size inb_S8x128_S8x128_0_0
abbrev r2_one : Rect S8x128 := Rect.unit (s := S8x128) ![0, 0] S1x1.size inb_S8x128_S1x1_0_0

/-- The accumulator after one tile, from the block of `M`, the block of `Z` and the accumulator before it. -/
def acc2 (x0 : Vec F S2x2049 .f32) (x1 : Vec F S2049x1024 .f32) (s : Vec F S8x128 .f32) : Vec F S8x128 .f32 :=
  scM2.view.read (Elt F) (scM2.view.writes (Elt F) (hscM2.unread s)
    [⟨r2_one, k2_pay2 (View.ld x0 r2_m) (View.ld x1 r2_z) (View.ld s r2_one)⟩])

/-- The cleared accumulator: the body's zero fill read back. -/
def zero2 : Vec F S8x128 .f32 := View.canon [⟨r2_full, k2_pay1 (F := F)⟩]

theorem cover2_full (p0 : Vec F S8x128 .f32) (y : S8x128.Idx) :
    ∃ pc ∈ ([⟨r2_full, p0⟩] : List (View.Piece (Elt F) S8x128 .f32)), y ∈ pc.1.set :=
  View.cover_of_tiled [⟨r2_full, p0⟩] S8x128.size (by rfl) y

/-- A whole-block copy of `X` read back is `X`. -/
theorem canon_copy (X : Vec F S8x128 .f32) : View.canon [⟨r2_full, View.ld X r2_full⟩] = X := by
  have hz : (![0, 0] : Fin 2 → Nat) = fun _ => 0 := funext fun a => by fin_cases a <;> rfl
  rw [View.canon_unit_zero hz]; simp only [View.ld_unit_zero (S := S8x128) hz]

/-! ## The three cases -/

set_option maxHeartbeats 1000000 in
/-- A middle tile: neither conditional taken. -/
theorem sound_kernel2_B (c : Dev nD) (E : Set ℕ) (i : grid2.Coords) (hc0 : ¬cond2_0 i) (hc1 : ¬cond2_1 i)
    (arg2 : Memref sig .tc .vmem S2x2049 .f32) (harg2 : arg2.IsWhole) (arg3 : Memref sig .tc .vmem S2049x1024 .f32) (harg3 : arg3.IsWhole)
    (arg4 : Memref sig .tc .vmem S8x128 .f32) (harg4 : arg4.IsWhole)
    (x0 : Vec F S2x2049 .f32) (x1 : Vec F S2049x1024 .f32) (xo : Vec F S8x128 .f32) (s : Vec F S8x128 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) scM2 fullShare s
        ∗ (iprop(owns (c : Thread nD τ) arg2 fullShare x0 ∗ owns (c : Thread nD τ) arg3 fullShare x1 ∗ owns (c : Thread nD τ) arg4 fullShare xo
            ∗ owns (c : Thread nD τ) scM2 fullShare (acc2 x0 x1 s)) -∗ K ⟨⟩))
      ⊢ wp frame (wpE (defs₀ (F := F)) Variants.none c none) E (cc2__main_kernel i arg2 harg2 arg3 harg3 arg4 harg4 scM2 hscM2) K := by
  simp only [cc2__main_kernel_eq_skeleton]; unfold cc2__main_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := hscM2.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  unfold acc2
  simp only [View.readAt_eq_ld, hf0, hf1, hfs]

set_option maxHeartbeats 1000000 in
/-- The first tile of a half: the accumulator, whatever it held, is cleared and then takes the tile. -/
theorem sound_kernel2_A (c : Dev nD) (E : Set ℕ) (i : grid2.Coords) (hc0 : cond2_0 i) (hc1 : ¬cond2_1 i)
    (arg2 : Memref sig .tc .vmem S2x2049 .f32) (harg2 : arg2.IsWhole) (arg3 : Memref sig .tc .vmem S2049x1024 .f32) (harg3 : arg3.IsWhole)
    (arg4 : Memref sig .tc .vmem S8x128 .f32) (harg4 : arg4.IsWhole)
    (x0 : Vec F S2x2049 .f32) (x1 : Vec F S2049x1024 .f32) (xo : Vec F S8x128 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) scM2 fullShare s)
        ∗ (iprop(owns (c : Thread nD τ) arg2 fullShare x0 ∗ owns (c : Thread nD τ) arg3 fullShare x1 ∗ owns (c : Thread nD τ) arg4 fullShare xo
            ∗ owns (c : Thread nD τ) scM2 fullShare (acc2 x0 x1 (zero2 (F := F)))) -∗ K ⟨⟩))
      ⊢ wp frame (wpE (defs₀ (F := F)) Variants.none c none) E (cc2__main_kernel i arg2 harg2 arg3 harg3 arg4 harg4 scM2 hscM2) K := by
  simp only [cc2__main_kernel_eq_skeleton]; unfold cc2__main_kernel_skel
  unfold owns
  iintro ⟨⟨%f0, %hf0, H0⟩, ⟨%f1, %hf1, H1⟩, ⟨%f2, %hf2, H2⟩, ⟨%s, %fs, %hfs, HS⟩, Hk⟩
  obtain rfl := harg2.eq_unread hf0; obtain rfl := harg3.eq_unread hf1; obtain rfl := harg4.eq_unread hf2; obtain rfl := hscM2.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_run_names
  have hZ : scM2.view.read (Elt F) (scM2.view.writes (Elt F) (hscM2.unread s) [⟨r2_full, k2_pay1 (F := F)⟩])
      = View.canon [⟨r2_full, k2_pay1 (F := F)⟩] :=
    View.read_writes_eq_canon _ _ _ (cover2_full _)
  have e := hscM2.eq_unread hZ
  unfold acc2 zero2
  simp only [View.writes_cons, View.writes_nil] at e hZ ⊢
  simp only [View.readAt_eq_ld, hf0, hf1, hZ, e]
  rw [View.readCov_eq_canon_ld _ _ _ (cover2_full _)]

set_option maxHeartbeats 1000000 in
/-- The last tile of a half: the accumulator takes the tile and the output block becomes a copy of it. -/
theorem sound_kernel2_C (c : Dev nD) (E : Set ℕ) (i : grid2.Coords) (hc0 : ¬cond2_0 i) (hc1 : cond2_1 i)
    (arg2 : Memref sig .tc .vmem S2x2049 .f32) (harg2 : arg2.IsWhole) (arg3 : Memref sig .tc .vmem S2049x1024 .f32) (harg3 : arg3.IsWhole)
    (arg4 : Memref sig .tc .vmem S8x128 .f32) (harg4 : arg4.IsWhole)
    (x0 : Vec F S2x2049 .f32) (x1 : Vec F S2049x1024 .f32) (s : Vec F S8x128 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) scM2 fullShare s
        ∗ (iprop(owns (c : Thread nD τ) arg2 fullShare x0 ∗ owns (c : Thread nD τ) arg3 fullShare x1 ∗ owns (c : Thread nD τ) arg4 fullShare (acc2 x0 x1 s)
            ∗ owns (c : Thread nD τ) scM2 fullShare (acc2 x0 x1 s)) -∗ K ⟨⟩))
      ⊢ wp frame (wpE (defs₀ (F := F)) Variants.none c none) E (cc2__main_kernel i arg2 harg2 arg3 harg3 arg4 harg4 scM2 hscM2) K := by
  simp only [cc2__main_kernel_eq_skeleton]; unfold cc2__main_kernel_skel
  unfold owns
  iintro ⟨⟨%f0, %hf0, H0⟩, ⟨%f1, %hf1, H1⟩, ⟨%d, %f2, %hf2, H2⟩, ⟨%fs, %hfs, HS⟩, Hk⟩
  obtain rfl := harg2.eq_unread hf0; obtain rfl := harg3.eq_unread hf1; obtain rfl := harg4.eq_unread hf2; obtain rfl := hscM2.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (View.read_writes_eq_canon _ _ _ (cover2_full _)).trans ?_
    sl_unfold_run_names
    simp only [View.readAt_eq_ld, hf0, hf1, hfs]
    exact canon_copy (acc2 x0 x1 s)
  iexists _; isplitr
  swap; · iexact HS
  ipureintro
  sl_unfold_run_names
  unfold acc2
  simp only [View.readAt_eq_ld, hf0, hf1, hfs]

end Cert.Kernel.Hand

end
-- ==== Proof.R2K.lean ====
/-
  Region 2: the proof data of the tiled reduction and its body obligation.

  At grid point `t` (`t = 4·c + k`: half `c`, tile `k`) the body reads the whole block of `M` (the same at every
  point) and block `t` of `Z` (columns `1024·t … 1024·t + 1023`, inside the array at all eight points, so the staged
  block does not depend on what the buffer held before the fetch). The accumulator after point `t` is `scAt t`:
  `acc2` of the two blocks and the cleared accumulator at a half's first tile, and of the accumulator after the
  point before otherwise. The output block is touched at a half's last tile only, where it becomes a copy of the
  accumulator; elsewhere it is handed back as found. The invariant carries the accumulator from point to point.
-/
import proofs.«147252_j55800215109664_2_alg».proof.Proof.Gen.Kernel.Launch
import proofs.«147252_j55800215109664_2_alg».proof.Proof.Gen.Kernel.Skeleton
import proofs.«147252_j55800215109664_2_alg».proof.Proof.Gen.Kernel.Points
import proofs.«147252_j55800215109664_2_alg».proof.Proof.R2BodyK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section R2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Block `t` of `Z` as the staging buffer holds it after the fetch (the block lies inside the array, so nothing of
    the filler is left). -/
def zfull (c : Dev nD) (t : Fin cfg2.N) : Vec F S2049x1024 .f32 :=
  (cfg2.win 1).fill (cfg2.grid.coords t) (fun _ => Scalar.ofBits .f32 0#32) (iblk2 V c 1 t)

/-! ## The accumulator, point by point -/

/-- The accumulator after the body at position `n`. -/
def scAt (c : Dev nD) : (n : ℕ) → n < cfg2.N → Vec F S8x128 .f32
  | 0, hn => acc2 (iblk2 V c 0 ⟨0, hn⟩) (zfull V c ⟨0, hn⟩) zero2
  | n + 1, hn =>
    if (n + 1) % 4 = 0 then acc2 (iblk2 V c 0 ⟨n + 1, hn⟩) (zfull V c ⟨n + 1, hn⟩) zero2
    else acc2 (iblk2 V c 0 ⟨n + 1, hn⟩) (zfull V c ⟨n + 1, hn⟩) (scAt c n (Nat.lt_of_succ_lt hn))

/-- At a half's first tile the accumulator starts from zero; -/
theorem scAt_first (c : Dev nD) (t : Fin cfg2.N) (h : t.val % 4 = 0) :
    scAt V c t.val t.isLt = acc2 (iblk2 V c 0 t) (zfull V c t) zero2 := by
  obtain ⟨n, hn⟩ := t
  cases n with
  | zero => rfl
  | succ n => exact if_pos h

/-- elsewhere from what the point before left. -/
theorem scAt_next (c : Dev nD) (t : Fin cfg2.N) (h : ¬t.val % 4 = 0) :
    scAt V c t.val t.isLt = acc2 (iblk2 V c 0 t) (zfull V c t) (scAt V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The scoped buffers that are no staging buffer of this region, the accumulator's place held by `S`, and the
    generator register at some state. -/
def PhiWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ S) ∗ (∃ r, prngReg c r))

theorem PhiA2_with (c : Dev nD) :
    (Pipeline.ΦA spec2 c : sProp 𝕄) = PhiWith c (iprop(∃ d, owns (c : Thread nD τ) scM2 fullShare d)) := by
  unfold PhiWith; exact PhiA2_eq c

/-- Forgetting what the accumulator holds. -/
theorem PhiWith_forget (c : Dev nD) (X : Vec F S8x128 .f32) :
    PhiWith c (owns (c : Thread nD τ) scM2 fullShare X) ⊢ (Pipeline.ΦA spec2 c : sProp 𝕄) := by
  rw [PhiA2_with]; unfold PhiWith
  iintro ⟨⟨A1, A2, A3, A4, A5, A6, A7, A8, A9, HS⟩, Hg⟩
  isplitl [A1 A2 A3 A4 A5 A6 A7 A8 A9 HS]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexists _; iexact HS
  iexact Hg

/-- Before the first point the class invariant (the accumulator at anything); afterwards the accumulator at what
    the point before left. -/
def PhiS (c : Dev nD) : (n : ℕ) → n ≤ cfg2.N → sProp 𝕄
  | 0, _ => Pipeline.ΦA spec2 c
  | n + 1, hn => PhiWith c (owns (c : Thread nD τ) scM2 fullShare (scAt V c n hn))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = PhiWith c (owns (c : Thread nD τ) scM2 fullShare (scAt V c n hn)) := rfl

theorem PhiS_pos (c : Dev nD) (n : ℕ) (h : n ≤ cfg2.N) (hz : n ≠ 0) :
    PhiS V c n h = PhiWith c (owns (c : Thread nD τ) scM2 fullShare (scAt V c (n - 1) (by omega))) := by
  cases n with
  | zero => exact absurd rfl hz
  | succ n => rfl

/-! ## The proof data -/

/-- The arrays as the region finds them; after the body at point `t` the block of `M`, block `t` of `Z`, and the
    accumulator (what the output block holds where it is stored); the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => zfull V c t
    | ⟨2, _⟩ => scAt V c t.val t.isLt
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = zfull V c t := by dsimp only [dat2]
theorem after2_2 (c : Dev nD) (t : Fin cfg2.N) : (dat2 V c).after 2 t = scAt V c t.val t.isLt := by dsimp only [dat2]

/-- The block of `M` is in its buffer at every point, fetched there (the first point) or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- Block `t` of `Z` is fetched at every point, whole. -/
theorem before2_1 (c : Dev nD) (t : Fin cfg2.N) (d) : (dat2 V c).before 1 t d = zfull V c t := by
  unfold Dat.before; rw [if_pos (fetch2_1 t)]
  rw [(dat2 V c).fetched_of_clip_none 1 t (clip2_1 t) d (fun _ => Scalar.ofBits .f32 0#32)]
  unfold Dat.fetched Dat.blockOf zfull iblk2; rw [A_eq2]; try rfl

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the two inputs' buffers hold their blocks; the point's position in its half says which
    case it is; the invariant hands over the accumulator (at anything before the first point, else at what the point
    before left) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 8 := lt_of_lt_of_eq t.isLt (show cfg2.N = 8 from N_2)
  by_cases h3 : t.val % 4 = 3
  · -- a half's last tile
    have h0 : ¬t.val % 4 = 0 := by omega
    have hz : t.val ≠ 0 := by omega
    rw [show (dat2 V c).leavesExact 2 t = owns (c : Thread nD τ) (st2_2 t) fullShare ((dat2 V c).after 2 t) from by
      unfold Dat.leavesExact; rw [liveAt2_2 t ((hcond2_1 t).mpr h3)], after2_2]
    rw [scAt_next V c t h0]
    rw [PhiS_castSucc V c t, PhiS_pos V c _ _ hz]
    unfold PhiWith
    iintro ⟨⟨⟨A1, A2, A3, A4, A5, A6, A7, A8, A9, HS⟩, Hg⟩, Ho, ⟨%d0, H0⟩, ⟨%d1, H1⟩, ⟨%d2, H2⟩⟩
    iapply (sound_kernel2_C c Set.univ (grid2.coords t) (fun h => h0 ((hcond2_0 t).mp h)) ((hcond2_1 t).mpr h3) _ _ _ _ _ _ (iblk2 V c 0 t) (zfull V c t) _ _)
    isplitl [H0]; · iexact H0
    isplitl [H1]; · iexact H1
    isplitl [H2]; · iexists _; iexact H2
    isplitl [HS]; · iexact HS
    iintro ⟨H0, H1, H2, HS⟩
    isplitl [A1 A2 A3 A4 A5 A6 A7 A8 A9 HS Hg]
    · isplitl [A1 A2 A3 A4 A5 A6 A7 A8 A9 HS]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        iexact HS
      iexact Hg
    isplitl [Ho]; · iexact Ho
    isplitl [H0]; · iexact H0
    isplitl [H1]; · iexact H1
    iexact H2
  · have hnl : ¬cond2_1 (grid2.coords t) := fun h => h3 ((hcond2_1 t).mp h)
    rw [Dat.leavesExact_idle (dat2 V c) 2 t (idleAt2_2 t hnl) (noFlush2_2 t hnl)]
    by_cases h0 : t.val % 4 = 0
    · -- a half's first tile
      rw [scAt_first V c t h0]
      by_cases hz : t.val = 0
      · rw [PhiS_castSucc V c t, PhiS_zero V c _ _ hz, PhiA2_with]
        unfold PhiWith
        iintro ⟨⟨⟨A1, A2, A3, A4, A5, A6, A7, A8, A9, HS⟩, Hg⟩, Ho, ⟨%d0, H0⟩, ⟨%d1, H1⟩, ⟨%d2, H2⟩⟩
        iapply (sound_kernel2_A c Set.univ (grid2.coords t) ((hcond2_0 t).mpr h0) hnl _ _ _ _ _ _ (iblk2 V c 0 t) (zfull V c t) _ _)
        isplitl [H0]; · iexact H0
        isplitl [H1]; · iexact H1
        isplitl [H2]; · iexact H2
        isplitl [HS]; · iexact HS
        iintro ⟨H0, H1, H2, HS⟩
        isplitl [A1 A2 A3 A4 A5 A6 A7 A8 A9 HS Hg]
        · isplitl [A1 A2 A3 A4 A5 A6 A7 A8 A9 HS]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            iexact HS
          iexact Hg
        isplitl [Ho]; · iexact Ho
        isplitl [H0]; · iexact H0
        isplitl [H1]; · iexact H1
        iexists _; iexact H2
      · rw [PhiS_castSucc V c t, PhiS_pos V c _ _ hz]
        unfold PhiWith
        iintro ⟨⟨⟨A1, A2, A3, A4, A5, A6, A7, A8, A9, HS⟩, Hg⟩, Ho, ⟨%d0, H0⟩, ⟨%d1, H1⟩, ⟨%d2, H2⟩⟩
        iapply (sound_kernel2_A c Set.univ (grid2.coords t) ((hcond2_0 t).mpr h0) hnl _ _ _ _ _ _ (iblk2 V c 0 t) (zfull V c t) _ _)
        isplitl [H0]; · iexact H0
        isplitl [H1]; · iexact H1
        isplitl [H2]; · iexact H2
        isplitl [HS]; · iexists _; iexact HS
        iintro ⟨H0, H1, H2, HS⟩
        isplitl [A1 A2 A3 A4 A5 A6 A7 A8 A9 HS Hg]
        · isplitl [A1 A2 A3 A4 A5 A6 A7 A8 A9 HS]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            iexact HS
          iexact Hg
        isplitl [Ho]; · iexact Ho
        isplitl [H0]; · iexact H0
        isplitl [H1]; · iexact H1
        iexists _; iexact H2
    · -- a middle tile
      have hz : t.val ≠ 0 := fun e => h0 (by rw [e])
      rw [scAt_next V c t h0]
      rw [PhiS_castSucc V c t, PhiS_pos V c _ _ hz]
      unfold PhiWith
      iintro ⟨⟨⟨A1, A2, A3, A4, A5, A6, A7, A8, A9, HS⟩, Hg⟩, Ho, ⟨%d0, H0⟩, ⟨%d1, H1⟩, ⟨%d2, H2⟩⟩
      iapply (sound_kernel2_B c Set.univ (grid2.coords t) (fun h => h0 ((hcond2_0 t).mp h)) hnl _ _ _ _ _ _ (iblk2 V c 0 t) (zfull V c t) _ _ _)
      isplitl [H0]; · iexact H0
      isplitl [H1]; · iexact H1
      isplitl [H2]; · iexact H2
      isplitl [HS]; · iexact HS
      iintro ⟨H0, H1, H2, HS⟩
      isplitl [A1 A2 A3 A4 A5 A6 A7 A8 A9 HS Hg]
      · isplitl [A1 A2 A3 A4 A5 A6 A7 A8 A9 HS]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          iexact HS
        iexact Hg
      isplitl [Ho]; · iexact Ho
      isplitl [H0]; · iexact H0
      isplitl [H1]; · iexact H1
      iexists _; iexact H2

/-- The body obligation, at every point. -/
theorem body_obligation2_exact (c : Dev nD) : BodyObligation (dat2 (F := F) V c) (defs₀ (F := F)) Variants.none () Set.univ := fun t => by
  rw [bigSep_W2, bigSep_W2]
  exact sound_body2 V c t

/-- The form the loop uses (window 1 is stated on the part its transfers move: all of it). -/
theorem body_obligation2 (c : Dev nD) : BodyObligationLoose (dat2 (F := F) V c) (defs₀ (F := F)) Variants.none () Set.univ :=
  (body_obligation2_exact V c).loose

/-- What the launch hands the region is the invariant before the first point. -/
theorem hin2 (c : Dev nD) : (Pipeline.ΦA spec2 c : sProp 𝕄) ⊢ (dat2 V c).Φ 0 := by
  rw [show (dat2 V c).Φ 0 = PhiS V c 0 (Nat.zero_le _) from rfl, PhiS_zero V c 0 _ rfl]
  try exact Idealize.SL.BI.Entails.refl _

/-- After the last point the invariant gives the class invariant back: the accumulator's contents are forgotten. -/
theorem hout2 (c : Dev nD) : (dat2 V c).Φ (Fin.last cfg2.N) ⊢ (Pipeline.ΦA spec2 c : sProp 𝕄) := by
  have hne : (Fin.last cfg2.N).val ≠ 0 := by rw [Fin.val_last]; have : cfg2.N = 8 := N_2; omega
  rw [show (dat2 V c).Φ (Fin.last cfg2.N) = PhiS V c (Fin.last cfg2.N).val (Nat.le_of_lt_succ (Fin.last cfg2.N).isLt) from rfl,
    PhiS_pos V c _ _ hne]
  exact PhiWith_forget c _

end R2

end Cert.Kernel.Hand

end
-- ==== Proof.RunWK.lean ====
/- The run of the whole program, first part: what every unscoped buffer of the TensorCore holds at each of the six
   boundaries between the program's five segments (host operations, three kernel regions back to back, host
   operations), written as a fold from the launch memory. A host stretch applies its operations' functions; a kernel
   region replaces the contents of its windows' arrays by what the pipeline's write-backs leave and keeps every other
   buffer. From the fold: each argument array is never written, so it holds its launch contents at the end; and the
   proof data of the three pipelines, each taken at the contents its region is entered with. -/
import proofs.«147252_j55800215109664_2_alg».proof.Proof.R0K
import proofs.«147252_j55800215109664_2_alg».proof.Proof.R1K
import proofs.«147252_j55800215109664_2_alg».proof.Proof.R2K
import proofs.«147252_j55800215109664_2_alg».proof.Proof.Gen.Kernel.Regions
import Idealize.ShloMosaic.Lib.StableHlo.Run

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the six boundaries -/

/-- At launch: the memory the program starts from. -/
abbrev W0 : Dev nD → Valuation τ sig (Elt F) := fun c b => (s₀ m ρ).mem ((c : Dev nD), b)
/-- After the first four host operations: what region 0 is entered with. -/
abbrev W1 : Dev nD → Valuation τ sig (Elt F) := fun c => StableHlo.after hostOps0 (W0 m ρ c)
/-- The same, read at the TensorCore's own references. -/
abbrev V1 : (c : Dev nD) → (b : Ref sig .tc) → Buf (Elt F) ((c : Thread nD τ).loc b) := fun c b => W1 m ρ c b

/-- After region 0: its three arrays at what the write-backs leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1 (entered with what region 0 left: no host operation lies between them). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After region 2 (entered with what region 1 left). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the last nine host operations: the contents the program ends with. -/
abbrev W5 : Dev nD → Valuation τ sig (Elt F) := fun c => StableHlo.after hostOps3 (W4 m ρ c)

/-! ## A host stretch changes only the buffers its operations write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W5_of (c : Dev nD) (r : Ref sig .tc) (h : r ∉ hostOps3_W) :
    W5 m ρ c (Proc.devRef .tc r) = W4 m ρ c (Proc.devRef .tc r) :=
  StableHlo.after_of_writes_sub hostOps3 _ hostOps3_writes h

/-! ## The arguments end as launched

No host operation writes an argument. A region holds an argument either as the array of an INPUT window, which no
write-back touches, or not at all. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of m ρ c main_arg0 (by decide)
    _ = W3 m ρ c (Proc.devRef .tc main_arg0) :=
        (W4_arr m ρ c 1).trans (((dat2 (V3 m ρ) c).arrAt_in 1 rfl _).trans (A_eq2 (V3 m ρ) c 1))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) :=
        (W3_arr m ρ c 0).trans (((dat1 (V2 m ρ) c).arrAt_in 0 rfl _).trans (A_eq1 (V2 m ρ) c 0))
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) :=
        (W2_arr m ρ c 0).trans (((dat0 (V1 m ρ) c).arrAt_in 0 rfl _).trans (A_eq0 (V1 m ρ) c 0))
    _ = W0 m ρ c (Proc.devRef .tc main_arg3) := W1_of m ρ c main_arg3 (by decide)
    _ = m ((c : Thread nD τ).loc main_arg3) := rfl

/-! ## The proof data of the three pipelines -/

/-- No pipeline has a prefetched table. -/
abbrev adm : (p : Fin 3) → (pcfgs (F := F) p).Adm := fun p => (cfgs p).toPCfg_adm
/-- Each pipeline's proof data, at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c

end Cert.Kernel.Hand

end
-- ==== Proof.RunRegK.lean ====
/- The run of the whole program, second part: each of the three kernel regions as a segment of the run. A region is
   entered with every unscoped buffer held at the boundary's contents, the core's generator register at some state
   and nothing owed. Its windows' arrays are split out of the unscoped buffers and handed to the pipeline at the proof
   data's entry contents; the register goes into the pipeline's invariant together with the scoped buffers no window
   stages; at the exit the arrays come back at what the write-backs left and are put back among the other unscoped
   buffers, which gives the next boundary's contents. Regions 0 and 1 keep the plain invariant at every grid point;
   region 2's invariant also carries its scratch accumulator, so it is entered and left through the two entailments
   that region states between the plain invariant and its own at the first and the last point. -/
import proofs.«147252_j55800215109664_2_alg».proof.Proof.RunWK

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything, so no level is assigned. -/
abbrev L : GSem nD τ sig → Finset Unit := fun _ => ∅
abbrev lv : GSem nD τ sig → Unit → ℕ := fun _ _ => 0
/-- What every segment carries beside the buffers: the core's generator register at some state, and the core owing
    nothing. -/
abbrev R (c : Dev nD) : sProp 𝕄 := iprop((∃ r, prngReg c r) ∗ ∃ W, owes (c : Thread nD τ) (0 : CellTallies nD τ sig Unit) W)

-- the library's entry and exit lemmas are stated over the pinned configuration; matching it against the printed
-- one needs plain definitions unfolded inside a metavariable's type
set_option backward.isDefEq.respectTransparency.types false in
/-- Region 0: entered with the unscoped buffers at `W1`, left with them at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration; matching it against the printed
-- one needs plain definitions unfolded inside a metavariable's type
set_option backward.isDefEq.respectTransparency.types false in
/-- Region 1: entered with the unscoped buffers at `W2` (what region 0 left), left with them at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration; matching it against the printed
-- one needs plain definitions unfolded inside a metavariable's type
set_option backward.isDefEq.respectTransparency.types false in
/-- Region 2: entered with the unscoped buffers at `W3` (what region 1 left), left with them at `W4`. Its invariant is
    reached from the plain one at the first point and gives the plain one back at the last. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V3 m ρ) c
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m ρ) c)
    unfold Pipeline.ΦA
    iintro ⟨Hp, -, Hr⟩
    isplitl [Hr]; · iexact Hr
    iexact Hp
  hout c := by
    refine BIBase.Entails.trans (hout2 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.RunK.lean ====
/- The run of the whole program, third part: the five segments in the program's order, the program as their run, and
   the launch theorem over them. From any memory with every semaphore counter at zero, every weakly fair execution of
   the program terminates without fault, and in every final state each unscoped buffer of the TensorCore holds the
   last boundary's contents. Read at the four arguments this is the frame claim: each ends as launched. -/
import proofs.«147252_j55800215109664_2_alg».proof.Proof.RunRegK

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A stretch of host operations as a segment: the unscoped buffers go from the contents `W` to the operations' fold
    of them; the register and the empty debt ride along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, the empty debt apart: every unscoped buffer at `W5`, the register at some state. -/
abbrev Tₙ (c : Dev nD) : sProp 𝕄 := iprop(StableHlo.held (c : Thread nD τ) (Pipeline.ucRefs τ sig) (W5 m ρ c) ∗ ∃ r, prngReg c r)

/-- The program's five segments. The three regions follow one another directly: each is entered with what the one
    before it left. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]

/-- The program is the run of its segments. -/
theorem main_run (c : Dev nD) : main (F := F) c = Pipeline.Seg.run (segs m ρ) := (main_chain c).trans (by chain_rfl)

/-- Each segment is entered with what the one before it left, and the last leaves the final thread state. -/
theorem segs_chain : Pipeline.Seg.Chains
    (fun c => iprop(StableHlo.held (c : Thread nD τ) (Pipeline.ucRefs τ sig) (W0 m ρ c) ∗ R c)) (segs m ρ)
    (fun c => iprop(Tₙ m ρ c ∗ ∃ W, owes (c : Thread nD τ) (0 : CellTallies nD τ sig Unit) W)) :=
  ⟨fun _ => .rfl, fun _ => .rfl, fun _ => .rfl, fun _ => .rfl, fun _ => .rfl, fun c => by
    show iprop(StableHlo.held (c : Thread nD τ) (Pipeline.ucRefs τ sig) (W5 m ρ c) ∗ R c) ⊢ _
    iintro ⟨Hh, Hp, HO⟩
    isplitl [Hh Hp]
    · isplitl [Hh]; · iexact Hh
      iexact Hp
    iexact HO⟩

-- the launch theorem's implicit arguments are found by unifying its conclusion with this one, which takes unfolding
-- plain definitions in a metavariable's type
set_option backward.isDefEq.respectTransparency.types false in
/-- THE RUN. Every weakly fair execution from the launch memory terminates, and in every final state each unscoped
    buffer of the TensorCore holds the last boundary's contents `W5`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := segs_chain m ρ)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution terminates, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.Kernel.Hand

end
-- ==== Proof.R0.lean ====
/- Region 0 of the program, the call of `cc0__qz_kernel`: one grid point, three windows, each the whole of
   its array. Window 0 is the square matrix, window 1 the row vector, window 2 the row vector the call writes.
   This module states, for any contents `V` the TensorCore's buffers hold when the region is entered, what each
   window's staging buffer holds after the body (the two inputs unchanged, the output the one stored payload
   spread over its buffer), runs the body once on whole staging memrefs, and packages the result as the
   pipeline's proof data together with the obligation that the body honours it. Everything is generic in the
   float interpretation `F`. -/
import proofs.«147252_j55800215109664_2_alg».proof.Proof.Gen.KernelIdeal.Launch
import proofs.«147252_j55800215109664_2_alg».proof.Proof.Gen.KernelIdeal.Skeleton
import proofs.«147252_j55800215109664_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- what the TensorCore's buffers hold when region 0 is entered
variable (V : (c : Dev nD) → (b : Ref sig .tc) → Buf (Elt F) ((c : Thread nD τ).loc b))

/-! ## Blocks -/

/-- The block of window `w` at grid point `t`: the window's rectangle at `t` read out of the window's array as
    the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block when the body is called, whatever the proof data,
    as long as its array is the entry contents and the body leaves the block alone (window 0: the matrix). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for window 1, the row vector the body reads. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body touches: each is a whole buffer -/

/-- The whole of a 2049 × 2049 buffer. -/
abbrev r0_sq : Rect S2049x2049 := Rect.unit (s := S2049x2049) ![0, 0] S2049x2049.size inb_S2049x2049_S2049x2049_0_0
/-- The whole of a 1 × 2049 buffer. -/
abbrev r0_row : Rect S1x2049 := Rect.unit (s := S1x2049) ![0, 0] S1x2049.size inb_S1x2049_S1x2049_0_0

/-! ## The output buffer after the body -/

/-- Window 2's staging buffer after the body, as a function of the two input blocks: the body's single store
    writes the payload (the product of the row vector with the matrix) over the whole buffer. -/
def out0_2 (x0 : Vec F S2049x2049 .f32) (x1 : Vec F S1x2049 .f32) : Vec F S1x2049 .f32 :=
  View.canon [⟨r0_row, k0_pay1 (View.ld x0 r0_sq) (View.ld x1 r0_row)⟩]

/-- That one store reaches every index of the buffer. -/
theorem cover0_2 (p0 : Vec F S1x2049 .f32) (y : S1x2049.Idx) :
    ∃ pc ∈ ([⟨r0_row, p0⟩] : List (View.Piece (Elt F) S1x2049 .f32)), y ∈ pc.1.set :=
  View.cover_of_tiled [⟨r0_row, p0⟩] S1x2049.size (by rfl) y

/-! ## Running the body -/

set_option maxHeartbeats 1000000 in
/-- The body on whole staging memrefs. The two inputs hold `x0`, `x1`; the output holds anything (the body does
    load it before the store, but never uses what it loaded). Afterwards the inputs are as they were and the
    output holds `out0_2 x0 x1`. -/
theorem sound_kernel0 (c : Dev nD) (E : Set ℕ) (i : grid0.Coords)
    (arg1 : Memref sig .tc .vmem S2049x2049 .f32) (harg1 : arg1.IsWhole)
    (arg2 : Memref sig .tc .vmem S1x2049 .f32) (harg2 : arg2.IsWhole)
    (arg3 : Memref sig .tc .vmem S1x2049 .f32) (harg3 : arg3.IsWhole)
    (x0 : Vec F S2049x2049 .f32) (x1 : Vec F S1x2049 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__qz_kernel i arg1 harg1 arg2 harg2 arg3 harg3) K := by
  simp only [cc0__qz_kernel_eq_skeleton]; unfold cc0__qz_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the pipeline -/

/-- Pipeline 0's proof data on core `c`: the arrays are the entry contents; after the body at point `t` the two
    input buffers hold their blocks and the output buffer holds `out0_2` of them; the invariant is the one of a
    body that touches only its staging buffers; nothing is owed; every share is full. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The arrays of the proof data are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input buffer holds its block when the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the pipeline hands the body at point `t`, the windows spelt out one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it expects back. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the run above applies; the invariant and
    the debts are not looked at. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the pipeline's frame theorem asks of the body, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.R1.lean ====
/- Region 1 of the program, the call of `cc1__kz_last_kernel`: one grid point, six windows, each the whole
   of its array. Windows 0 to 3 are read (a square matrix and three row vectors); window 4 is a two-row
   matrix and window 5 a single number, both written. For any contents `V` of the TensorCore's buffers at the
   region's entry this module says what every staging buffer holds after the body (inputs unchanged; each
   output the one payload stored into it, spread over the whole buffer), runs the body once on whole staging
   memrefs, and packages this as the pipeline's proof data with the obligation that the body honours it.
   Generic in the float interpretation `F`. -/
import proofs.«147252_j55800215109664_2_alg».proof.Proof.Gen.KernelIdeal.Launch
import proofs.«147252_j55800215109664_2_alg».proof.Proof.Gen.KernelIdeal.Skeleton
import proofs.«147252_j55800215109664_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- what the TensorCore's buffers hold when region 1 is entered
variable (V : (c : Dev nD) → (b : Ref sig .tc) → Buf (Elt F) ((c : Thread nD τ).loc b))

/-! ## Blocks -/

/-- The block of window `w` at grid point `t`: the window's rectangle at `t` read out of the window's array as
    the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds the window's block when the body is called, whatever the proof data,
    as long as its array is the entry contents and the body leaves the block alone (window 0: the matrix). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for window 1, the row vector that multiplies the matrix. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The same for window 2, the row vector both sums are weighted by. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The same for window 3, the row vector copied into the second output row. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The rectangles the body touches: each is a whole buffer -/

/-- The whole of a 2049 × 2049 buffer. -/
abbrev r1_sq : Rect S2049x2049 := Rect.unit (s := S2049x2049) ![0, 0] S2049x2049.size inb_S2049x2049_S2049x2049_0_0
/-- The whole of a 1 × 2049 buffer. -/
abbrev r1_row : Rect S1x2049 := Rect.unit (s := S1x2049) ![0, 0] S1x2049.size inb_S1x2049_S1x2049_0_0
/-- The whole of a 2 × 2049 buffer. -/
abbrev r1_two : Rect S2x2049 := Rect.unit (s := S2x2049) ![0, 0] S2x2049.size inb_S2x2049_S2x2049_0_0
/-- The whole of a 1 × 1 buffer. -/
abbrev r1_one : Rect S1x1 := Rect.unit (s := S1x1) ![0, 0] S1x1.size inb_S1x1_S1x1_0_0

/-! ## The output buffers after the body -/

/-- Window 4's staging buffer after the body, from the blocks of windows 0, 1 and 3: the one store writes the
    two-row payload (row 0 the vector–matrix product, row 1 the copied vector) over the whole buffer. -/
def out1_4 (x0 : Vec F S2049x2049 .f32) (x1 x3 : Vec F S1x2049 .f32) : Vec F S2x2049 .f32 :=
  View.canon [⟨r1_two, k1_pay3 (View.ld x0 r1_sq) (View.ld x1 r1_row) (View.ld x3 r1_row)⟩]

/-- Window 5's staging buffer after the body, from the blocks of windows 0 to 3: the one store writes the
    product of the two weighted sums. -/
def out1_5 (x0 : Vec F S2049x2049 .f32) (x1 x2 x3 : Vec F S1x2049 .f32) : Vec F S1x1 .f32 :=
  View.canon [⟨r1_one, k1_pay4 (View.ld x0 r1_sq) (View.ld x1 r1_row) (View.ld x2 r1_row) (View.ld x3 r1_row)⟩]

/-- Each of the two stores reaches every index of its buffer. -/
theorem cover1_4 (p0 : Vec F S2x2049 .f32) (y : S2x2049.Idx) :
    ∃ pc ∈ ([⟨r1_two, p0⟩] : List (View.Piece (Elt F) S2x2049 .f32)), y ∈ pc.1.set :=
  View.cover_of_tiled [⟨r1_two, p0⟩] S2x2049.size (by rfl) y
theorem cover1_5 (p0 : Vec F S1x1 .f32) (y : S1x1.Idx) :
    ∃ pc ∈ ([⟨r1_one, p0⟩] : List (View.Piece (Elt F) S1x1 .f32)), y ∈ pc.1.set :=
  View.cover_of_tiled [⟨r1_one, p0⟩] S1x1.size (by rfl) y

/-! ## Running the body -/

set_option maxHeartbeats 1000000 in
/-- The body on whole staging memrefs. The four inputs hold `x0 … x3`; the two outputs hold anything (each is
    loaded before it is stored, and what was loaded is never used). Afterwards the inputs are as they were and
    the outputs hold `out1_4 x0 x1 x3` and `out1_5 x0 x1 x2 x3`. -/
theorem sound_kernel1 (c : Dev nD) (E : Set ℕ) (i : grid1.Coords)
    (arg1 : Memref sig .tc .vmem S2049x2049 .f32) (harg1 : arg1.IsWhole)
    (arg2 : Memref sig .tc .vmem S1x2049 .f32) (harg2 : arg2.IsWhole)
    (arg3 : Memref sig .tc .vmem S1x2049 .f32) (harg3 : arg3.IsWhole)
    (arg4 : Memref sig .tc .vmem S1x2049 .f32) (harg4 : arg4.IsWhole)
    (arg5 : Memref sig .tc .vmem S2x2049 .f32) (harg5 : arg5.IsWhole)
    (arg6 : Memref sig .tc .vmem S1x1 .f32) (harg6 : arg6.IsWhole)
    (x0 : Vec F S2049x2049 .f32) (x1 x2 x3 : Vec F S1x2049 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x3)
            ∗ owns (c : Thread nD τ) arg6 fullShare (out1_5 x0 x1 x2 x3)) -∗ K ⟨⟩))
      ⊢ wp frame (wpE (defs₀ (F := F)) Variants.none c none) E
          (cc1__kz_last_kernel i arg1 harg1 arg2 harg2 arg3 harg3 arg4 harg4 arg5 harg5 arg6 harg6) K := by
  simp only [cc1__kz_last_kernel_eq_skeleton]; unfold cc1__kz_last_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0
  subst hf1
  subst hf2
  subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

/-! ## The proof data of the pipeline -/

/-- Pipeline 1's proof data on core `c`: the arrays are the entry contents; after the body at point `t` the four
    input buffers hold their blocks and the two output buffers hold `out1_4` and `out1_5` of them; the invariant
    is the one of a body that touches only its staging buffers; nothing is owed; every share is full. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

/-- The arrays of the proof data are the entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 3 t) := by dsimp only [dat1]
theorem after1_5 (c : Dev nD) (t : Fin cfg1.N) :
    (dat1 V c).after 5 t = out1_5 (iblk1 V c 0 t) (iblk1 V c 1 t) (iblk1 V c 2 t) (iblk1 V c 3 t) := by dsimp only [dat1]

/-- Each input buffer holds its block when the body is called. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

/-- What the pipeline hands the body at point `t`, the windows spelt out one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it expects back. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the input buffers hold their blocks, so the run above applies; the invariant and
    the debts are not looked at. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's frame theorem asks of the body, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.R2Facts.lean ====
/-
  Region 2 (the tiled reduction over the first 8192 columns of `Z`), the facts decided over its grid of 2 · 4 points:
  the body's two conditionals in closed form (the first tile of a half, the last tile of a half), where the output
  window is left untouched and where it is written back, and that every block of `Z` the grid visits lies inside
  the array (blocks 0 … 7 of 1024 columns each, of 8193 columns).
-/
import proofs.«147252_j55800215109664_2_alg».proof.Proof.Gen.KernelIdeal.Launch
import proofs.«147252_j55800215109664_2_alg».proof.Proof.Gen.KernelIdeal.Skeleton
import proofs.«147252_j55800215109664_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's two conditionals -/

/-- The first conditional: this is the first tile of its half (`k = 0`), where the accumulator is cleared. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- The second conditional: this is the last tile of its half (`k = 3`), where the accumulator is copied out. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle, fetched, written back -/

theorem liveAt2_0 : ∀ t : Fin cfg2.N, cfg2.idle 0 (grid2.coords t) = false := by decide +kernel
theorem liveAt2_1 : ∀ t : Fin cfg2.N, cfg2.idle 1 (grid2.coords t) = false := by decide +kernel
/-- Away from a half's last tile the output window is idle and not written back; -/
theorem idleAt2_2 : ∀ t : Fin cfg2.N, ¬cond2_1 (grid2.coords t) → cfg2.idle 2 (grid2.coords t) = true := by decide +kernel
theorem noFlush2_2 : ∀ t : Fin cfg2.N, ¬cond2_1 (grid2.coords t) → (cfg2.win 2).flush t = false := by decide +kernel
/-- at a half's last tile it is live. -/
theorem liveAt2_2 : ∀ t : Fin cfg2.N, cond2_1 (grid2.coords t) → cfg2.idle 2 (grid2.coords t) = false := by decide +kernel

/-- Every block of `Z` the grid visits lies inside the array: no transfer of window 1 is cut. -/
theorem clip2_1 : ∀ (t : Fin cfg2.N) (a : Fin 2), (cfg2.win 1).clip (cfg2.grid.coords t) a = none :=
  (by decide +kernel : ∀ (t : Fin grid2.N) (a : Fin 2), win2_1.clip (grid2.coords t) a = none)

/-! ## The scratch accumulator -/

/-- The kernel's scratch operand, a whole scoped buffer passed beside the windows. -/
abbrev scM2 : Memref sig .tc .vmem S8x128 .f32 := Memref.whole cc2_scratch0
theorem hscM2 : (scM2 : Memref sig .tc .vmem S8x128 .f32).IsWhole := Memref.isWhole_whole _

/-- The class invariant with the scratch accumulator split out: the accumulator at some contents, the generator
    register at some state, and the other scoped buffers (no staging buffer of this region) at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ d, owns (c : Thread nD τ) scM2 fullShare d)) ∗ (∃ r, prngReg c r)) := by
  unfold Pipeline.ΦA; rw [scopedRest2_eq]; simp only [scM2, owns_whole]; try rfl

end Cert.KernelIdeal.Hand

end
-- ==== Proof.R2Body.lean ====
/-
  Region 2, the kernel body on whole memrefs, case by case. Write `acc2 x0 x1 s` for the accumulator after one tile:
  the accumulator `s` with its entry [0,0] replaced by that entry plus the tile's sum of products (the payload of the
  body's one-element store, over the loaded block of `M`, the loaded block of `Z` and the loaded entry). Then
    * at the first tile of a half the accumulator is cleared first: it ends at `acc2 x0 x1 zero2`;
    * at a middle tile it ends at `acc2 x0 x1 s`;
    * at the last tile of a half it ends at `acc2 x0 x1 s` and the output block is a copy of it.
  In the first two cases the output block is not touched.
-/
import proofs.«147252_j55800215109664_2_alg».proof.Proof.Gen.KernelIdeal.Launch
import proofs.«147252_j55800215109664_2_alg».proof.Proof.Gen.KernelIdeal.Skeleton
import proofs.«147252_j55800215109664_2_alg».proof.Proof.Gen.KernelIdeal.Points
import proofs.«147252_j55800215109664_2_alg».proof.Proof.R2Facts
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses -/

abbrev r2_m : Rect S2x2049 := Rect.unit (s := S2x2049) ![0, 0] S2x2049.size inb_S2x2049_S2x2049_0_0
abbrev r2_z : Rect S2049x1024 := Rect.unit (s := S2049x1024) ![0, 0] S2049x1024.size inb_S2049x1024_S2049x1024_0_0
abbrev r2_full : Rect S8x128 := Rect.unit (s := S8x128) ![0, 0] S8x128.size inb_S8x128_S8x128_0_0
abbrev r2_one : Rect S8x128 := Rect.unit (s := S8x128) ![0, 0] S1x1.size inb_S8x128_S1x1_0_0

/-- The accumulator after one tile, from the block of `M`, the block of `Z` and the accumulator before it. -/
def acc2 (x0 : Vec F S2x2049 .f32) (x1 : Vec F S2049x1024 .f32) (s : Vec F S8x128 .f32) : Vec F S8x128 .f32 :=
  scM2.view.read (Elt F) (scM2.view.writes (Elt F) (hscM2.unread s)
    [⟨r2_one, k2_pay2 (View.ld x0 r2_m) (View.ld x1 r2_z) (View.ld s r2_one)⟩])

/-- The cleared accumulator: the body's zero fill read back. -/
def zero2 : Vec F S8x128 .f32 := View.canon [⟨r2_full, k2_pay1 (F := F)⟩]

theorem cover2_full (p0 : Vec F S8x128 .f32) (y : S8x128.Idx) :
    ∃ pc ∈ ([⟨r2_full, p0⟩] : List (View.Piece (Elt F) S8x128 .f32)), y ∈ pc.1.set :=
  View.cover_of_tiled [⟨r2_full, p0⟩] S8x128.size (by rfl) y

/-- A whole-block copy of `X` read back is `X`. -/
theorem canon_copy (X : Vec F S8x128 .f32) : View.canon [⟨r2_full, View.ld X r2_full⟩] = X := by
  have hz : (![0, 0] : Fin 2 → Nat) = fun _ => 0 := funext fun a => by fin_cases a <;> rfl
  rw [View.canon_unit_zero hz]; simp only [View.ld_unit_zero (S := S8x128) hz]

/-! ## The three cases -/

set_option maxHeartbeats 1000000 in
/-- A middle tile: neither conditional taken. -/
theorem sound_kernel2_B (c : Dev nD) (E : Set ℕ) (i : grid2.Coords) (hc0 : ¬cond2_0 i) (hc1 : ¬cond2_1 i)
    (arg2 : Memref sig .tc .vmem S2x2049 .f32) (harg2 : arg2.IsWhole) (arg3 : Memref sig .tc .vmem S2049x1024 .f32) (harg3 : arg3.IsWhole)
    (arg4 : Memref sig .tc .vmem S8x128 .f32) (harg4 : arg4.IsWhole)
    (x0 : Vec F S2x2049 .f32) (x1 : Vec F S2049x1024 .f32) (xo : Vec F S8x128 .f32) (s : Vec F S8x128 .f32) (K : PUnit → sProp 𝕄) :
    iprop(owns (c : Thread nD τ) arg2 fullShare x0 ∗ owns (c : Thread nD τ) arg3 fullShare x1 ∗ owns (c : Thread nD τ) arg4 fullShare xo
        ∗ owns (c : Thread nD τ) scM2 fullShare s
        ∗ (iprop(owns (c : Thread nD τ) arg2 fullShare x0 ∗ owns (c : Thread nD τ) arg3 fullShare x1 ∗ owns (c : Thread nD τ) arg4 fullShare xo
            ∗ owns (c : Thread nD τ) scM2 fullShare (acc2 x0 x1 s)) -∗ K ⟨⟩))
      ⊢ wp frame (wpE (defs₀ (F := F)) Variants.none c none) E (cc2__main_kernel i arg2 harg2 arg3 harg3 arg4 harg4 scM2 hscM2) K := by
  simp only [cc2__main_kernel_eq_skeleton]; unfold cc2__main_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := hscM2.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  unfold acc2
  simp only [View.readAt_eq_ld, hf0, hf1, hfs]

set_option maxHeartbeats 1000000 in
/-- The first tile of a half: the accumulator, whatever it held, is cleared and then takes the tile. -/
theorem sound_kernel2_A (c : Dev nD) (E : Set ℕ) (i : grid2.Coords) (hc0 : cond2_0 i) (hc1 : ¬cond2_1 i)
    (arg2 : Memref sig .tc .vmem S2x2049 .f32) (harg2 : arg2.IsWhole) (arg3 : Memref sig .tc .vmem S2049x1024 .f32) (harg3 : arg3.IsWhole)
    (arg4 : Memref sig .tc .vmem S8x128 .f32) (harg4 : arg4.IsWhole)
    (x0 : Vec F S2x2049 .f32) (x1 : Vec F S2049x1024 .f32) (xo : Vec F S8x128 .f32) (K : PUnit → sProp 𝕄) :
    iprop(owns (c : Thread nD τ) arg2 fullShare x0 ∗ owns (c : Thread nD τ) arg3 fullShare x1 ∗ owns (c : Thread nD τ) arg4 fullShare xo
        ∗ (∃ s, owns (c : Thread nD τ) scM2 fullShare s)
        ∗ (iprop(owns (c : Thread nD τ) arg2 fullShare x0 ∗ owns (c : Thread nD τ) arg3 fullShare x1 ∗ owns (c : Thread nD τ) arg4 fullShare xo
            ∗ owns (c : Thread nD τ) scM2 fullShare (acc2 x0 x1 (zero2 (F := F)))) -∗ K ⟨⟩))
      ⊢ wp frame (wpE (defs₀ (F := F)) Variants.none c none) E (cc2__main_kernel i arg2 harg2 arg3 harg3 arg4 harg4 scM2 hscM2) K := by
  simp only [cc2__main_kernel_eq_skeleton]; unfold cc2__main_kernel_skel
  unfold owns
  iintro ⟨⟨%f0, %hf0, H0⟩, ⟨%f1, %hf1, H1⟩, ⟨%f2, %hf2, H2⟩, ⟨%s, %fs, %hfs, HS⟩, Hk⟩
  obtain rfl := harg2.eq_unread hf0; obtain rfl := harg3.eq_unread hf1; obtain rfl := harg4.eq_unread hf2; obtain rfl := hscM2.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_run_names
  have hZ : scM2.view.read (Elt F) (scM2.view.writes (Elt F) (hscM2.unread s) [⟨r2_full, k2_pay1 (F := F)⟩])
      = View.canon [⟨r2_full, k2_pay1 (F := F)⟩] :=
    View.read_writes_eq_canon _ _ _ (cover2_full _)
  have e := hscM2.eq_unread hZ
  unfold acc2 zero2
  simp only [View.writes_cons, View.writes_nil] at e hZ ⊢
  simp only [View.readAt_eq_ld, hf0, hf1, hZ, e]
  rw [View.readCov_eq_canon_ld _ _ _ (cover2_full _)]

set_option maxHeartbeats 1000000 in
/-- The last tile of a half: the accumulator takes the tile and the output block becomes a copy of it. -/
theorem sound_kernel2_C (c : Dev nD) (E : Set ℕ) (i : grid2.Coords) (hc0 : ¬cond2_0 i) (hc1 : cond2_1 i)
    (arg2 : Memref sig .tc .vmem S2x2049 .f32) (harg2 : arg2.IsWhole) (arg3 : Memref sig .tc .vmem S2049x1024 .f32) (harg3 : arg3.IsWhole)
    (arg4 : Memref sig .tc .vmem S8x128 .f32) (harg4 : arg4.IsWhole)
    (x0 : Vec F S2x2049 .f32) (x1 : Vec F S2049x1024 .f32) (s : Vec F S8x128 .f32) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) scM2 fullShare s
        ∗ (iprop(owns (c : Thread nD τ) arg2 fullShare x0 ∗ owns (c : Thread nD τ) arg3 fullShare x1 ∗ owns (c : Thread nD τ) arg4 fullShare (acc2 x0 x1 s)
            ∗ owns (c : Thread nD τ) scM2 fullShare (acc2 x0 x1 s)) -∗ K ⟨⟩))
      ⊢ wp frame (wpE (defs₀ (F := F)) Variants.none c none) E (cc2__main_kernel i arg2 harg2 arg3 harg3 arg4 harg4 scM2 hscM2) K := by
  simp only [cc2__main_kernel_eq_skeleton]; unfold cc2__main_kernel_skel
  unfold owns
  iintro ⟨⟨%f0, %hf0, H0⟩, ⟨%f1, %hf1, H1⟩, ⟨%d, %f2, %hf2, H2⟩, ⟨%fs, %hfs, HS⟩, Hk⟩
  obtain rfl := harg2.eq_unread hf0; obtain rfl := harg3.eq_unread hf1; obtain rfl := harg4.eq_unread hf2; obtain rfl := hscM2.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    refine (View.read_writes_eq_canon _ _ _ (cover2_full _)).trans ?_
    sl_unfold_run_names
    simp only [View.readAt_eq_ld, hf0, hf1, hfs]
    exact canon_copy (acc2 x0 x1 s)
  iexists _; isplitr
  swap; · iexact HS
  ipureintro
  sl_unfold_run_names
  unfold acc2
  simp only [View.readAt_eq_ld, hf0, hf1, hfs]

end Cert.KernelIdeal.Hand

end
-- ==== Proof.R2.lean ====
/-
  Region 2: the proof data of the tiled reduction and its body obligation.

  At grid point `t` (`t = 4·c + k`: half `c`, tile `k`) the body reads the whole block of `M` (the same at every
  point) and block `t` of `Z` (columns `1024·t … 1024·t + 1023`, inside the array at all eight points, so the staged
  block does not depend on what the buffer held before the fetch). The accumulator after point `t` is `scAt t`:
  `acc2` of the two blocks and the cleared accumulator at a half's first tile, and of the accumulator after the
  point before otherwise. The output block is touched at a half's last tile only, where it becomes a copy of the
  accumulator; elsewhere it is handed back as found. The invariant carries the accumulator from point to point.
-/
import proofs.«147252_j55800215109664_2_alg».proof.Proof.Gen.KernelIdeal.Launch
import proofs.«147252_j55800215109664_2_alg».proof.Proof.Gen.KernelIdeal.Skeleton
import proofs.«147252_j55800215109664_2_alg».proof.Proof.Gen.KernelIdeal.Points
import proofs.«147252_j55800215109664_2_alg».proof.Proof.R2Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section R2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Block `t` of `Z` as the staging buffer holds it after the fetch (the block lies inside the array, so nothing of
    the filler is left). -/
def zfull (c : Dev nD) (t : Fin cfg2.N) : Vec F S2049x1024 .f32 :=
  (cfg2.win 1).fill (cfg2.grid.coords t) (fun _ => Scalar.ofBits .f32 0#32) (iblk2 V c 1 t)

/-! ## The accumulator, point by point -/

/-- The accumulator after the body at position `n`. -/
def scAt (c : Dev nD) : (n : ℕ) → n < cfg2.N → Vec F S8x128 .f32
  | 0, hn => acc2 (iblk2 V c 0 ⟨0, hn⟩) (zfull V c ⟨0, hn⟩) zero2
  | n + 1, hn =>
    if (n + 1) % 4 = 0 then acc2 (iblk2 V c 0 ⟨n + 1, hn⟩) (zfull V c ⟨n + 1, hn⟩) zero2
    else acc2 (iblk2 V c 0 ⟨n + 1, hn⟩) (zfull V c ⟨n + 1, hn⟩) (scAt c n (Nat.lt_of_succ_lt hn))

/-- At a half's first tile the accumulator starts from zero; -/
theorem scAt_first (c : Dev nD) (t : Fin cfg2.N) (h : t.val % 4 = 0) :
    scAt V c t.val t.isLt = acc2 (iblk2 V c 0 t) (zfull V c t) zero2 := by
  obtain ⟨n, hn⟩ := t
  cases n with
  | zero => rfl
  | succ n => exact if_pos h

/-- elsewhere from what the point before left. -/
theorem scAt_next (c : Dev nD) (t : Fin cfg2.N) (h : ¬t.val % 4 = 0) :
    scAt V c t.val t.isLt = acc2 (iblk2 V c 0 t) (zfull V c t) (scAt V c (t.val - 1) (Nat.lt_of_le_of_lt (Nat.sub_le _ _) t.isLt)) := by
  obtain ⟨n, hn⟩ := t
  cases n with
  | zero => exact absurd (Nat.zero_mod _) h
  | succ n => exact if_neg h

/-! ## The invariant -/

/-- The scoped buffers that are no staging buffer of this region, the accumulator's place held by `S`, and the
    generator register at some state. -/
def PhiWith (c : Dev nD) (S : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ S) ∗ (∃ r, prngReg c r))

theorem PhiA2_with (c : Dev nD) :
    (Pipeline.ΦA spec2 c : sProp 𝕄) = PhiWith c (iprop(∃ d, owns (c : Thread nD τ) scM2 fullShare d)) := by
  unfold PhiWith; exact PhiA2_eq c

/-- Forgetting what the accumulator holds. -/
theorem PhiWith_forget (c : Dev nD) (X : Vec F S8x128 .f32) :
    PhiWith c (owns (c : Thread nD τ) scM2 fullShare X) ⊢ (Pipeline.ΦA spec2 c : sProp 𝕄) := by
  rw [PhiA2_with]; unfold PhiWith
  iintro ⟨⟨A1, A2, A3, A4, A5, A6, A7, A8, A9, HS⟩, Hg⟩
  isplitl [A1 A2 A3 A4 A5 A6 A7 A8 A9 HS]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    iexists _; iexact HS
  iexact Hg

/-- Before the first point the class invariant (the accumulator at anything); afterwards the accumulator at what
    the point before left. -/
def PhiS (c : Dev nD) : (n : ℕ) → n ≤ cfg2.N → sProp 𝕄
  | 0, _ => Pipeline.ΦA spec2 c
  | n + 1, hn => PhiWith c (owns (c : Thread nD τ) scM2 fullShare (scAt V c n hn))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = PhiWith c (owns (c : Thread nD τ) scM2 fullShare (scAt V c n hn)) := rfl

theorem PhiS_pos (c : Dev nD) (n : ℕ) (h : n ≤ cfg2.N) (hz : n ≠ 0) :
    PhiS V c n h = PhiWith c (owns (c : Thread nD τ) scM2 fullShare (scAt V c (n - 1) (by omega))) := by
  cases n with
  | zero => exact absurd rfl hz
  | succ n => rfl

/-! ## The proof data -/

/-- The arrays as the region finds them; after the body at point `t` the block of `M`, block `t` of `Z`, and the
    accumulator (what the output block holds where it is stored); the invariant `PhiS`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => zfull V c t
    | ⟨2, _⟩ => scAt V c t.val t.isLt
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = zfull V c t := by dsimp only [dat2]
theorem after2_2 (c : Dev nD) (t : Fin cfg2.N) : (dat2 V c).after 2 t = scAt V c t.val t.isLt := by dsimp only [dat2]

/-- The block of `M` is in its buffer at every point, fetched there (the first point) or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- Block `t` of `Z` is fetched at every point, whole. -/
theorem before2_1 (c : Dev nD) (t : Fin cfg2.N) (d) : (dat2 V c).before 1 t d = zfull V c t := by
  unfold Dat.before; rw [if_pos (fetch2_1 t)]
  rw [(dat2 V c).fetched_of_clip_none 1 t (clip2_1 t) d (fun _ => Scalar.ofBits .f32 0#32)]
  unfold Dat.fetched Dat.blockOf zfull iblk2; rw [A_eq2]; try rfl

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the two inputs' buffers hold their blocks; the point's position in its half says which
    case it is; the invariant hands over the accumulator (at anything before the first point, else at what the point
    before left) and takes it back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS V c (t.val + 1) t.isLt from rfl, PhiS_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 8 := lt_of_lt_of_eq t.isLt (show cfg2.N = 8 from N_2)
  by_cases h3 : t.val % 4 = 3
  · -- a half's last tile
    have h0 : ¬t.val % 4 = 0 := by omega
    have hz : t.val ≠ 0 := by omega
    rw [show (dat2 V c).leavesExact 2 t = owns (c : Thread nD τ) (st2_2 t) fullShare ((dat2 V c).after 2 t) from by
      unfold Dat.leavesExact; rw [liveAt2_2 t ((hcond2_1 t).mpr h3)], after2_2]
    rw [scAt_next V c t h0]
    rw [PhiS_castSucc V c t, PhiS_pos V c _ _ hz]
    unfold PhiWith
    iintro ⟨⟨⟨A1, A2, A3, A4, A5, A6, A7, A8, A9, HS⟩, Hg⟩, Ho, ⟨%d0, H0⟩, ⟨%d1, H1⟩, ⟨%d2, H2⟩⟩
    iapply (sound_kernel2_C c Set.univ (grid2.coords t) (fun h => h0 ((hcond2_0 t).mp h)) ((hcond2_1 t).mpr h3) _ _ _ _ _ _ (iblk2 V c 0 t) (zfull V c t) _ _)
    isplitl [H0]; · iexact H0
    isplitl [H1]; · iexact H1
    isplitl [H2]; · iexists _; iexact H2
    isplitl [HS]; · iexact HS
    iintro ⟨H0, H1, H2, HS⟩
    isplitl [A1 A2 A3 A4 A5 A6 A7 A8 A9 HS Hg]
    · isplitl [A1 A2 A3 A4 A5 A6 A7 A8 A9 HS]
      · isplitl [A1]; · iexact A1
        isplitl [A2]; · iexact A2
        isplitl [A3]; · iexact A3
        isplitl [A4]; · iexact A4
        isplitl [A5]; · iexact A5
        isplitl [A6]; · iexact A6
        isplitl [A7]; · iexact A7
        isplitl [A8]; · iexact A8
        isplitl [A9]; · iexact A9
        iexact HS
      iexact Hg
    isplitl [Ho]; · iexact Ho
    isplitl [H0]; · iexact H0
    isplitl [H1]; · iexact H1
    iexact H2
  · have hnl : ¬cond2_1 (grid2.coords t) := fun h => h3 ((hcond2_1 t).mp h)
    rw [Dat.leavesExact_idle (dat2 V c) 2 t (idleAt2_2 t hnl) (noFlush2_2 t hnl)]
    by_cases h0 : t.val % 4 = 0
    · -- a half's first tile
      rw [scAt_first V c t h0]
      by_cases hz : t.val = 0
      · rw [PhiS_castSucc V c t, PhiS_zero V c _ _ hz, PhiA2_with]
        unfold PhiWith
        iintro ⟨⟨⟨A1, A2, A3, A4, A5, A6, A7, A8, A9, HS⟩, Hg⟩, Ho, ⟨%d0, H0⟩, ⟨%d1, H1⟩, ⟨%d2, H2⟩⟩
        iapply (sound_kernel2_A c Set.univ (grid2.coords t) ((hcond2_0 t).mpr h0) hnl _ _ _ _ _ _ (iblk2 V c 0 t) (zfull V c t) _ _)
        isplitl [H0]; · iexact H0
        isplitl [H1]; · iexact H1
        isplitl [H2]; · iexact H2
        isplitl [HS]; · iexact HS
        iintro ⟨H0, H1, H2, HS⟩
        isplitl [A1 A2 A3 A4 A5 A6 A7 A8 A9 HS Hg]
        · isplitl [A1 A2 A3 A4 A5 A6 A7 A8 A9 HS]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            iexact HS
          iexact Hg
        isplitl [Ho]; · iexact Ho
        isplitl [H0]; · iexact H0
        isplitl [H1]; · iexact H1
        iexists _; iexact H2
      · rw [PhiS_castSucc V c t, PhiS_pos V c _ _ hz]
        unfold PhiWith
        iintro ⟨⟨⟨A1, A2, A3, A4, A5, A6, A7, A8, A9, HS⟩, Hg⟩, Ho, ⟨%d0, H0⟩, ⟨%d1, H1⟩, ⟨%d2, H2⟩⟩
        iapply (sound_kernel2_A c Set.univ (grid2.coords t) ((hcond2_0 t).mpr h0) hnl _ _ _ _ _ _ (iblk2 V c 0 t) (zfull V c t) _ _)
        isplitl [H0]; · iexact H0
        isplitl [H1]; · iexact H1
        isplitl [H2]; · iexact H2
        isplitl [HS]; · iexists _; iexact HS
        iintro ⟨H0, H1, H2, HS⟩
        isplitl [A1 A2 A3 A4 A5 A6 A7 A8 A9 HS Hg]
        · isplitl [A1 A2 A3 A4 A5 A6 A7 A8 A9 HS]
          · isplitl [A1]; · iexact A1
            isplitl [A2]; · iexact A2
            isplitl [A3]; · iexact A3
            isplitl [A4]; · iexact A4
            isplitl [A5]; · iexact A5
            isplitl [A6]; · iexact A6
            isplitl [A7]; · iexact A7
            isplitl [A8]; · iexact A8
            isplitl [A9]; · iexact A9
            iexact HS
          iexact Hg
        isplitl [Ho]; · iexact Ho
        isplitl [H0]; · iexact H0
        isplitl [H1]; · iexact H1
        iexists _; iexact H2
    · -- a middle tile
      have hz : t.val ≠ 0 := fun e => h0 (by rw [e])
      rw [scAt_next V c t h0]
      rw [PhiS_castSucc V c t, PhiS_pos V c _ _ hz]
      unfold PhiWith
      iintro ⟨⟨⟨A1, A2, A3, A4, A5, A6, A7, A8, A9, HS⟩, Hg⟩, Ho, ⟨%d0, H0⟩, ⟨%d1, H1⟩, ⟨%d2, H2⟩⟩
      iapply (sound_kernel2_B c Set.univ (grid2.coords t) (fun h => h0 ((hcond2_0 t).mp h)) hnl _ _ _ _ _ _ (iblk2 V c 0 t) (zfull V c t) _ _ _)
      isplitl [H0]; · iexact H0
      isplitl [H1]; · iexact H1
      isplitl [H2]; · iexact H2
      isplitl [HS]; · iexact HS
      iintro ⟨H0, H1, H2, HS⟩
      isplitl [A1 A2 A3 A4 A5 A6 A7 A8 A9 HS Hg]
      · isplitl [A1 A2 A3 A4 A5 A6 A7 A8 A9 HS]
        · isplitl [A1]; · iexact A1
          isplitl [A2]; · iexact A2
          isplitl [A3]; · iexact A3
          isplitl [A4]; · iexact A4
          isplitl [A5]; · iexact A5
          isplitl [A6]; · iexact A6
          isplitl [A7]; · iexact A7
          isplitl [A8]; · iexact A8
          isplitl [A9]; · iexact A9
          iexact HS
        iexact Hg
      isplitl [Ho]; · iexact Ho
      isplitl [H0]; · iexact H0
      isplitl [H1]; · iexact H1
      iexists _; iexact H2

/-- The body obligation, at every point. -/
theorem body_obligation2_exact (c : Dev nD) : BodyObligation (dat2 (F := F) V c) (defs₀ (F := F)) Variants.none () Set.univ := fun t => by
  rw [bigSep_W2, bigSep_W2]
  exact sound_body2 V c t

/-- The form the loop uses (window 1 is stated on the part its transfers move: all of it). -/
theorem body_obligation2 (c : Dev nD) : BodyObligationLoose (dat2 (F := F) V c) (defs₀ (F := F)) Variants.none () Set.univ :=
  (body_obligation2_exact V c).loose

/-- What the launch hands the region is the invariant before the first point. -/
theorem hin2 (c : Dev nD) : (Pipeline.ΦA spec2 c : sProp 𝕄) ⊢ (dat2 V c).Φ 0 := by
  rw [show (dat2 V c).Φ 0 = PhiS V c 0 (Nat.zero_le _) from rfl, PhiS_zero V c 0 _ rfl]
  try exact Idealize.SL.BI.Entails.refl _

/-- After the last point the invariant gives the class invariant back: the accumulator's contents are forgotten. -/
theorem hout2 (c : Dev nD) : (dat2 V c).Φ (Fin.last cfg2.N) ⊢ (Pipeline.ΦA spec2 c : sProp 𝕄) := by
  have hne : (Fin.last cfg2.N).val ≠ 0 := by rw [Fin.val_last]; have : cfg2.N = 8 := N_2; omega
  rw [show (dat2 V c).Φ (Fin.last cfg2.N) = PhiS V c (Fin.last cfg2.N).val (Nat.le_of_lt_succ (Fin.last cfg2.N).isLt) from rfl,
    PhiS_pos V c _ _ hne]
  exact PhiWith_forget c _

end R2

end Cert.KernelIdeal.Hand

end
-- ==== Proof.RunW.lean ====
/- The run of the whole program, first part: what every unscoped buffer of the TensorCore holds at each of the six
   boundaries between the program's five segments (host operations, three kernel regions back to back, host
   operations), written as a fold from the launch memory. A host stretch applies its operations' functions; a kernel
   region replaces the contents of its windows' arrays by what the pipeline's write-backs leave and keeps every other
   buffer. From the fold: each argument array is never written, so it holds its launch contents at the end; and the
   proof data of the three pipelines, each taken at the contents its region is entered with. -/
import proofs.«147252_j55800215109664_2_alg».proof.Proof.R0
import proofs.«147252_j55800215109664_2_alg».proof.Proof.R1
import proofs.«147252_j55800215109664_2_alg».proof.Proof.R2
import proofs.«147252_j55800215109664_2_alg».proof.Proof.Gen.KernelIdeal.Regions
import Idealize.ShloMosaic.Lib.StableHlo.Run

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the six boundaries -/

/-- At launch: the memory the program starts from. -/
abbrev W0 : Dev nD → Valuation τ sig (Elt F) := fun c b => (s₀ m ρ).mem ((c : Dev nD), b)
/-- After the first four host operations: what region 0 is entered with. -/
abbrev W1 : Dev nD → Valuation τ sig (Elt F) := fun c => StableHlo.after hostOps0 (W0 m ρ c)
/-- The same, read at the TensorCore's own references. -/
abbrev V1 : (c : Dev nD) → (b : Ref sig .tc) → Buf (Elt F) ((c : Thread nD τ).loc b) := fun c b => W1 m ρ c b

/-- After region 0: its three arrays at what the write-backs leave, every other buffer as before. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After region 1 (entered with what region 0 left: no host operation lies between them). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After region 2 (entered with what region 1 left). -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (dat2 (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-- After the last nine host operations: the contents the program ends with. -/
abbrev W5 : Dev nD → Valuation τ sig (Elt F) := fun c => StableHlo.after hostOps3 (W4 m ρ c)

/-! ## A host stretch changes only the buffers its operations write -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W5_of (c : Dev nD) (r : Ref sig .tc) (h : r ∉ hostOps3_W) :
    W5 m ρ c (Proc.devRef .tc r) = W4 m ρ c (Proc.devRef .tc r) :=
  StableHlo.after_of_writes_sub hostOps3 _ hostOps3_writes h

/-! ## The arguments end as launched

No host operation writes an argument. A region holds an argument either as the array of an INPUT window, which no
write-back touches, or not at all. -/

theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := W5_of m ρ c main_arg0 (by decide)
    _ = W3 m ρ c (Proc.devRef .tc main_arg0) :=
        (W4_arr m ρ c 1).trans (((dat2 (V3 m ρ) c).arrAt_in 1 rfl _).trans (A_eq2 (V3 m ρ) c 1))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := W1_of m ρ c main_arg0 (by decide)
    _ = m ((c : Thread nD τ).loc main_arg0) := rfl

theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := W5_of m ρ c main_arg1 (by decide)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := W5_of m ρ c main_arg2 (by decide)
    _ = W3 m ρ c (Proc.devRef .tc main_arg2) := W4_of_ne m ρ c main_arg2 (by decide)
    _ = W2 m ρ c (Proc.devRef .tc main_arg2) :=
        (W3_arr m ρ c 0).trans (((dat1 (V2 m ρ) c).arrAt_in 0 rfl _).trans (A_eq1 (V2 m ρ) c 0))
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := W5_of m ρ c main_arg3 (by decide)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) :=
        (W2_arr m ρ c 0).trans (((dat0 (V1 m ρ) c).arrAt_in 0 rfl _).trans (A_eq0 (V1 m ρ) c 0))
    _ = W0 m ρ c (Proc.devRef .tc main_arg3) := W1_of m ρ c main_arg3 (by decide)
    _ = m ((c : Thread nD τ).loc main_arg3) := rfl

/-! ## The proof data of the three pipelines -/

/-- No pipeline has a prefetched table. -/
abbrev adm : (p : Fin 3) → (pcfgs (F := F) p).Adm := fun p => (cfgs p).toPCfg_adm
/-- Each pipeline's proof data, at the contents its region is entered with. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c

end Cert.KernelIdeal.Hand

end
-- ==== Proof.RunReg.lean ====
/- The run of the whole program, second part: each of the three kernel regions as a segment of the run. A region is
   entered with every unscoped buffer held at the boundary's contents, the core's generator register at some state
   and nothing owed. Its windows' arrays are split out of the unscoped buffers and handed to the pipeline at the proof
   data's entry contents; the register goes into the pipeline's invariant together with the scoped buffers no window
   stages; at the exit the arrays come back at what the write-backs left and are put back among the other unscoped
   buffers, which gives the next boundary's contents. Regions 0 and 1 keep the plain invariant at every grid point;
   region 2's invariant also carries its scratch accumulator, so it is entered and left through the two entailments
   that region states between the plain invariant and its own at the first and the last point. -/
import proofs.«147252_j55800215109664_2_alg».proof.Proof.RunW

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
/-- No core owes another anything, so no level is assigned. -/
abbrev L : GSem nD τ sig → Finset Unit := fun _ => ∅
abbrev lv : GSem nD τ sig → Unit → ℕ := fun _ _ => 0
/-- What every segment carries beside the buffers: the core's generator register at some state, and the core owing
    nothing. -/
abbrev R (c : Dev nD) : sProp 𝕄 := iprop((∃ r, prngReg c r) ∗ ∃ W, owes (c : Thread nD τ) (0 : CellTallies nD τ sig Unit) W)

-- the library's entry and exit lemmas are stated over the pinned configuration; matching it against the printed
-- one needs plain definitions unfolded inside a metavariable's type
set_option backward.isDefEq.respectTransparency.types false in
/-- Region 0: entered with the unscoped buffers at `W1`, left with them at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration; matching it against the printed
-- one needs plain definitions unfolded inside a metavariable's type
set_option backward.isDefEq.respectTransparency.types false in
/-- Region 1: entered with the unscoped buffers at `W2` (what region 0 left), left with them at `W3`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated over the pinned configuration; matching it against the printed
-- one needs plain definitions unfolded inside a metavariable's type
set_option backward.isDefEq.respectTransparency.types false in
/-- Region 2: entered with the unscoped buffers at `W3` (what region 1 left), left with them at `W4`. Its invariant is
    reached from the plain one at the first point and gives the plain one back at the last. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := body_obligation2 (V3 m ρ) c
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m ρ) c)
    unfold Pipeline.ΦA
    iintro ⟨Hp, -, Hr⟩
    isplitl [Hr]; · iexact Hr
    iexact Hp
  hout c := by
    refine BIBase.Entails.trans (hout2 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.Run.lean ====
/- The run of the whole program, third part: the five segments in the program's order, the program as their run, and
   the launch theorem over them. From any memory with every semaphore counter at zero, every weakly fair execution of
   the program terminates without fault, and in every final state each unscoped buffer of the TensorCore holds the
   last boundary's contents. Read at the four arguments this is the frame claim: each ends as launched. -/
import proofs.«147252_j55800215109664_2_alg».proof.Proof.RunReg

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A stretch of host operations as a segment: the unscoped buffers go from the contents `W` to the operations' fold
    of them; the register and the empty debt ride along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the TensorCore is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state, the empty debt apart: every unscoped buffer at `W5`, the register at some state. -/
abbrev Tₙ (c : Dev nD) : sProp 𝕄 := iprop(StableHlo.held (c : Thread nD τ) (Pipeline.ucRefs τ sig) (W5 m ρ c) ∗ ∃ r, prngReg c r)

/-- The program's five segments. The three regions follow one another directly: each is entered with what the one
    before it left. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ),
    .host (hseg hostOps3 hostOps3_sub hostOps3_fresh (W4 m ρ)) ]

/-- The program is the run of its segments. -/
theorem main_run (c : Dev nD) : main (F := F) c = Pipeline.Seg.run (segs m ρ) := (main_chain c).trans (by chain_rfl)

/-- Each segment is entered with what the one before it left, and the last leaves the final thread state. -/
theorem segs_chain : Pipeline.Seg.Chains
    (fun c => iprop(StableHlo.held (c : Thread nD τ) (Pipeline.ucRefs τ sig) (W0 m ρ c) ∗ R c)) (segs m ρ)
    (fun c => iprop(Tₙ m ρ c ∗ ∃ W, owes (c : Thread nD τ) (0 : CellTallies nD τ sig Unit) W)) :=
  ⟨fun _ => .rfl, fun _ => .rfl, fun _ => .rfl, fun _ => .rfl, fun _ => .rfl, fun c => by
    show iprop(StableHlo.held (c : Thread nD τ) (Pipeline.ucRefs τ sig) (W5 m ρ c) ∗ R c) ⊢ _
    iintro ⟨Hh, Hp, HO⟩
    isplitl [Hh Hp]
    · isplitl [Hh]; · iexact Hh
      iexact Hp
    iexact HO⟩

-- the launch theorem's implicit arguments are found by unifying its conclusion with this one, which takes unfolding
-- plain definitions in a metavariable's type
set_option backward.isDefEq.respectTransparency.types false in
/-- THE RUN. Every weakly fair execution from the launch memory terminates, and in every final state each unscoped
    buffer of the TensorCore holds the last boundary's contents `W5`. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := segs_chain m ρ)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- THE FRAME: every weakly fair execution terminates, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c)⟩) (run_all m ρ)

end Cert.KernelIdeal.Hand

end
-- ==== Proof.RunVal.lean ====
/- The run of the whole program, fourth part: values read off the fold of boundary contents. The result buffer is the
   last host operations applied to what region 2 left in its output array and what region 1 left in its second
   output array. The arrays the regions are entered with are named: the two row vectors the first host operations
   cut out of the arguments, the row vector region 0 writes, the two-row matrix region 1 writes; and every buffer a
   region does not write is the same before and after it. -/
import proofs.«147252_j55800215109664_2_alg».proof.Proof.RunW

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The result -/

/-- The result buffer at the end: the sum of the entries (0,0) and (8,0) of region 2's output array and the one
    entry of region 1's second output array, divided by the constant 8192. -/
theorem W5_main_v14 (c : Dev nD) : W5 m ρ c (Proc.devRef .tc main_v14) =
    Host.divf
      (addf
        (addf
          (shapeCast S_ (extractStridedSlice S1x1 ![0, 0] ((dat2 (V3 m ρ) c).arrAt 2 cfg2.N) slices_S16x128_S1x1_0_0) shapeCasts_S1x1_S_)
          (shapeCast S_ (extractStridedSlice S1x1 ![8, 0] ((dat2 (V3 m ρ) c).arrAt 2 cfg2.N) slices_S16x128_S1x1_8_0) shapeCasts_S1x1_S_))
        (shapeCast S_ ((dat1 (V2 m ρ) c).arrAt 5 cfg1.N) shapeCasts_S1x1_S_))
      (constant S_ .f32 0x46000000#32) := by
  have h6 : W4 m ρ c (Proc.devRef .tc main_v6) = (dat2 (V3 m ρ) c).arrAt 2 cfg2.N := W4_arr m ρ c 2
  have h51 : W4 m ρ c (Proc.devRef .tc main_v5_1) = (dat1 (V2 m ρ) c).arrAt 5 cfg1.N :=
    (W4_of_ne m ρ c main_v5_1 (by decide)).trans (W3_arr m ρ c 5)
  show StableHlo.after hostOps3 (W4 m ρ c) (Proc.devRef .tc main_v14) = _
  after_results_simp
  rw [h6, h51]
  rfl

/-! ## What the regions are entered with -/

/-- Region 0's second input: the last column of the first argument, laid out as a row. -/
theorem V1_main_v2 (c : Dev nD) : V1 m ρ c main_v2 =
    shapeCast S1x2049 (shapeCast S2049 (extractStridedSlice S2049x1 ![0, 8192] (m ((c : Thread nD τ).loc main_arg0))
      slices_S2049x8193_S2049x1_0_8192) shapeCasts_S2049x1_S2049) shapeCasts_S2049_S1x2049 := by
  show StableHlo.after hostOps0 (W0 m ρ c) (Proc.devRef .tc main_v2) = _
  after_results
  rfl

/-- Region 1's fourth input: the last row of the second argument. -/
theorem V1_main_v3 (c : Dev nD) : V1 m ρ c main_v3 =
    extractStridedSlice S1x2049 ![2048, 0] (m ((c : Thread nD τ).loc main_arg1)) slices_S2049x2049_S1x2049_2048_0 := by
  show StableHlo.after hostOps0 (W0 m ρ c) (Proc.devRef .tc main_v3) = _
  after_results

/-- The arguments as region 0 finds them: as launched. -/
theorem V1_main_arg0 (c : Dev nD) : V1 m ρ c main_arg0 = m ((c : Thread nD τ).loc main_arg0) := W1_of m ρ c main_arg0 (by decide)
theorem V1_main_arg1 (c : Dev nD) : V1 m ρ c main_arg1 = m ((c : Thread nD τ).loc main_arg1) := W1_of m ρ c main_arg1 (by decide)
theorem V1_main_arg2 (c : Dev nD) : V1 m ρ c main_arg2 = m ((c : Thread nD τ).loc main_arg2) := W1_of m ρ c main_arg2 (by decide)
theorem V1_main_arg3 (c : Dev nD) : V1 m ρ c main_arg3 = m ((c : Thread nD τ).loc main_arg3) := W1_of m ρ c main_arg3 (by decide)

/-- Region 0 writes one array, its window 2's. -/
theorem V2_main_v4 (c : Dev nD) : V2 m ρ c main_v4 = (dat0 (V1 m ρ) c).arrAt 2 cfg0.N := W2_arr m ρ c 2

/-- Every other buffer is after region 0 what it was before: an input window's array is never written back to, a
    buffer outside the windows is not touched. -/
theorem V2_main_arg0 (c : Dev nD) : V2 m ρ c main_arg0 = V1 m ρ c main_arg0 := W2_of_ne m ρ c main_arg0 (by decide)
theorem V2_main_arg1 (c : Dev nD) : V2 m ρ c main_arg1 = V1 m ρ c main_arg1 := W2_of_ne m ρ c main_arg1 (by decide)
theorem V2_main_arg2 (c : Dev nD) : V2 m ρ c main_arg2 = V1 m ρ c main_arg2 := W2_of_ne m ρ c main_arg2 (by decide)
theorem V2_main_arg3 (c : Dev nD) : V2 m ρ c main_arg3 = V1 m ρ c main_arg3 :=
  (W2_arr m ρ c 0).trans (((dat0 (V1 m ρ) c).arrAt_in 0 rfl _).trans (A_eq0 (V1 m ρ) c 0))
theorem V2_main_v2 (c : Dev nD) : V2 m ρ c main_v2 = V1 m ρ c main_v2 :=
  (W2_arr m ρ c 1).trans (((dat0 (V1 m ρ) c).arrAt_in 1 rfl _).trans (A_eq0 (V1 m ρ) c 1))
theorem V2_main_v3 (c : Dev nD) : V2 m ρ c main_v3 = V1 m ρ c main_v3 := W2_of_ne m ρ c main_v3 (by decide)

end Cert.KernelIdeal.Hand

end
-- ==== Proof.RunVal3.lean ====
/- The run of the whole program, fifth part: what region 2 is entered with. Region 1 writes its two output arrays;
   every other buffer is after region 1 what it was before it, and so what it was when region 0 was entered, except
   the row vector region 0 wrote. -/
import proofs.«147252_j55800215109664_2_alg».proof.Proof.RunVal

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 1 writes two arrays, its windows 4 and 5's. -/
theorem V3_main_v5_0 (c : Dev nD) : V3 m ρ c main_v5_0 = (dat1 (V2 m ρ) c).arrAt 4 cfg1.N := W3_arr m ρ c 4
theorem V3_main_v5_1 (c : Dev nD) : V3 m ρ c main_v5_1 = (dat1 (V2 m ρ) c).arrAt 5 cfg1.N := W3_arr m ρ c 5

/-- Every other buffer is after region 1 what it was before. -/
theorem V3_main_arg0' (c : Dev nD) : V3 m ρ c main_arg0 = V2 m ρ c main_arg0 := W3_of_ne m ρ c main_arg0 (by decide)
theorem V3_main_arg1' (c : Dev nD) : V3 m ρ c main_arg1 = V2 m ρ c main_arg1 := W3_of_ne m ρ c main_arg1 (by decide)
theorem V3_main_arg2' (c : Dev nD) : V3 m ρ c main_arg2 = V2 m ρ c main_arg2 :=
  (W3_arr m ρ c 0).trans (((dat1 (V2 m ρ) c).arrAt_in 0 rfl _).trans (A_eq1 (V2 m ρ) c 0))
theorem V3_main_arg3' (c : Dev nD) : V3 m ρ c main_arg3 = V2 m ρ c main_arg3 := W3_of_ne m ρ c main_arg3 (by decide)
theorem V3_main_v4' (c : Dev nD) : V3 m ρ c main_v4 = V2 m ρ c main_v4 :=
  (W3_arr m ρ c 1).trans (((dat1 (V2 m ρ) c).arrAt_in 1 rfl _).trans (A_eq1 (V2 m ρ) c 1))
theorem V3_main_v2' (c : Dev nD) : V3 m ρ c main_v2 = V2 m ρ c main_v2 :=
  (W3_arr m ρ c 2).trans (((dat1 (V2 m ρ) c).arrAt_in 2 rfl _).trans (A_eq1 (V2 m ρ) c 2))
theorem V3_main_v3' (c : Dev nD) : V3 m ρ c main_v3 = V2 m ρ c main_v3 :=
  (W3_arr m ρ c 3).trans (((dat1 (V2 m ρ) c).arrAt_in 3 rfl _).trans (A_eq1 (V2 m ρ) c 3))

/-- The same buffers, from region 0's entry to region 2's entry. -/
theorem V3_main_arg0 (c : Dev nD) : V3 m ρ c main_arg0 = V1 m ρ c main_arg0 := (V3_main_arg0' m ρ c).trans (V2_main_arg0 m ρ c)
theorem V3_main_arg1 (c : Dev nD) : V3 m ρ c main_arg1 = V1 m ρ c main_arg1 := (V3_main_arg1' m ρ c).trans (V2_main_arg1 m ρ c)
theorem V3_main_arg2 (c : Dev nD) : V3 m ρ c main_arg2 = V1 m ρ c main_arg2 := (V3_main_arg2' m ρ c).trans (V2_main_arg2 m ρ c)
theorem V3_main_arg3 (c : Dev nD) : V3 m ρ c main_arg3 = V1 m ρ c main_arg3 := (V3_main_arg3' m ρ c).trans (V2_main_arg3 m ρ c)
theorem V3_main_v2 (c : Dev nD) : V3 m ρ c main_v2 = V1 m ρ c main_v2 := (V3_main_v2' m ρ c).trans (V2_main_v2 m ρ c)
theorem V3_main_v3 (c : Dev nD) : V3 m ρ c main_v3 = V1 m ρ c main_v3 := (V3_main_v3' m ρ c).trans (V2_main_v3 m ρ c)
/-- The row vector region 0 wrote is still there when region 2 is entered. -/
theorem V3_main_v4 (c : Dev nD) : V3 m ρ c main_v4 = (dat0 (V1 m ρ) c).arrAt 2 cfg0.N := (V3_main_v4' m ρ c).trans (V2_main_v4 m ρ c)

end Cert.KernelIdeal.Hand

end
-- ==== Proof.Spec.lean ====
/-
  The number both programs compute, as one function of the four argument arrays, over the extended reals.

  Write `z` for the last column of `Z` (column 8192), `v` for the last row of `V` (row 2048),
  `qz i = Σ_b z b · Q i b` and `kz p = Σ_i qz i · K i p`. For a column `j` of `Z` put
  `mz0 j = Σ_p kz p · Z p j` and `mz1 j = Σ_p v p · Z p j`. The first 8192 columns are cut into
  2 · 4 tiles of 1024 columns, `col c k l = 4096 c + 1024 k + l`; the last column is taken by itself:
  `result = ((Σ_k tile 0 k + Σ_k tile 1 k) + mz0 8192 · mz1 8192) / 8192`,
  where `mz0 8192 = Σ_p kz p · z p` and `mz1 8192 = Σ_p v p · z p`.
-/
import Idealize.ShloMosaic.PureOps.Ideal
import Idealize.ShloMosaic.Lib.ValueIdx

noncomputable section

namespace Cert.Spec

open Idealize.ShloMosaic Idealize.ShloMosaic.ValueIdx

/-- The shape of `Z`. -/
abbrev SZ : Shape := ⟨2, ![2049, 8193]⟩
/-- The shape of `V`, `K`, `Q`. -/
abbrev SP : Shape := ⟨2, ![2049, 2049]⟩

variable (Z : Vec Ideal SZ .f32) (V K Q : Vec Ideal SP .f32)

/-- The last column of `Z`. -/
def zl (p : Fin 2049) : EReal := Z (ix2 p (8192 : Fin 8193))
/-- `Q` applied to the last column of `Z`. -/
def qz (i : Fin 2049) : EReal := ∑ b : Fin 2049, zl Z b * Q (ix2 i b)
/-- That row vector times `K`. -/
def kz (p : Fin 2049) : EReal := ∑ i : Fin 2049, qz Z Q i * K (ix2 i p)
/-- The last row of `V`. -/
def vl (p : Fin 2049) : EReal := V (ix2 (2048 : Fin 2049) p)
/-- `kz` against column `j` of `Z`. -/
def mz0 (j : Fin 8193) : EReal := ∑ p : Fin 2049, kz Z K Q p * Z (ix2 p j)
/-- The last row of `V` against column `j` of `Z`. -/
def mz1 (j : Fin 8193) : EReal := ∑ p : Fin 2049, vl V p * Z (ix2 p j)
/-- Column `l` of tile `k` of half `c`. -/
def col (c : Fin 2) (k : Fin 4) (l : Fin 1024) : Fin 8193 := ⟨c.val * 4096 + k.val * 1024 + l.val, by omega⟩
/-- One tile's sum of products. -/
def tile (c : Fin 2) (k : Fin 4) : EReal := ∑ l : Fin 1024, mz0 Z K Q (col c k l) * mz1 Z V (col c k l)
/-- One half's four tiles. -/
def half (c : Fin 2) : EReal := ∑ k : Fin 4, tile Z V K Q c k
/-- The last column's term. -/
def lastTerm : EReal := (∑ p : Fin 2049, kz Z K Q p * zl Z p) * (∑ p : Fin 2049, vl V p * zl Z p)
/-- The result: the two halves and the last column's term, over 8192 (the word `0x46000000`). -/
def result : EReal := Ideal.div ((half Z V K Q 0 + half Z V K Q 1) + lastTerm Z V K Q) (Ideal.ofBits .f32 0x46000000#32)

end Cert.Spec

end
-- ==== Proof.KernelHost.lean ====
/-
  The host operations of the kernel's program, read at an index, and the accumulation over a half.

  Before the three regions the program takes the last column of `Z` (a slice `[0:2049, 8192:8193]`, reshaped to a
  vector and then to a row) and the last row of `V` (a slice `[2048:2049, 0:2049]`): entry `p` of the first row is
  `Z[p, 8192]`, entry `p` of the second is `V[2048, p]`.  After the regions it takes the entries `(0, 0)` and `(8, 0)`
  of the 16 × 128 array of partial sums, one per half, adds them, adds the last column's term, and divides by the
  constant whose word is `0x46000000`.  A reshape keeps the row-major position, and a slice adds its offset to each
  coordinate; nothing else is used.

  Within a half the four tiles are added one after another onto zero; since addition on the extended reals is
  associative with neutral element zero, that is the sum of the four tiles, with no finiteness needed.
-/
import proofs.«147252_j55800215109664_2_alg».proof.KernelIdeal
import proofs.«147252_j55800215109664_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HandValue

open Cert.KernelIdeal Idealize.ShloMosaic Idealize.ShloMosaic.ValueIdx

section
variable [Cert.KernelIdeal.Facts]
open Cert.KernelIdeal.Facts₀ Cert.KernelIdeal.Facts

/-! ## Before the regions -/

/-- The last column of `Z` as a row: entry `p` is `Z[p, 8192]`. -/
theorem zrow_apply (Zarr : Vec Ideal S2049x8193 .f32) (p : Fin 2049) :
    shapeCast S1x2049 (shapeCast S2049 (extractStridedSlice S2049x1 ![0, 8192] Zarr slices_S2049x8193_S2049x1_0_8192)
      shapeCasts_S2049x1_S2049) shapeCasts_S2049_S1x2049 (ix2 (0 : Fin 1) p)
      = Zarr (ix2 p (8192 : Fin 8193)) := by
  have h1 : (S2049.rowMajor (ix1 p)).val = (S1x2049.rowMajor (ix2 (0 : Fin 1) p)).val := by
    rw [Shape.rowMajor_val_one, Shape.rowMajor_val_two]
    show p.val = (0 : Fin 1).val * 2049 + p.val
    simp
  have h2 : (S2049x1.rowMajor (ix2 p (0 : Fin 1))).val = (S2049.rowMajor (ix1 p)).val := by
    rw [Shape.rowMajor_val_one, Shape.rowMajor_val_two]
    show p.val * 1 + (0 : Fin 1).val = p.val
    simp
  rw [shapeCast_apply _ shapeCasts_S2049_S1x2049 (ix2 (0 : Fin 1) p) (ix1 p) h1,
    shapeCast_apply _ shapeCasts_S2049x1_S2049 (ix1 p) (ix2 p (0 : Fin 1)) h2]
  exact extractStridedSlice_apply ![0, 8192] Zarr slices_S2049x8193_S2049x1_0_8192 (ix2 p (0 : Fin 1))
    (ix2 p (8192 : Fin 8193)) (fun a => match a with
      | ⟨0, _⟩ => by show p.val = 0 + p.val; omega
      | ⟨1, _⟩ => rfl)

/-- The last row of `V`: entry `p` is `V[2048, p]`. -/
theorem vrow_apply (Varr : Vec Ideal S2049x2049 .f32) (p : Fin 2049) :
    extractStridedSlice S1x2049 ![2048, 0] Varr slices_S2049x2049_S1x2049_2048_0 (ix2 (0 : Fin 1) p)
      = Varr (ix2 (2048 : Fin 2049) p) :=
  extractStridedSlice_apply ![2048, 0] Varr slices_S2049x2049_S1x2049_2048_0 (ix2 (0 : Fin 1) p)
    (ix2 (2048 : Fin 2049) p) (fun a => match a with
      | ⟨0, _⟩ => rfl
      | ⟨1, _⟩ => by show p.val = 0 + p.val; omega)

/-! ## After the regions -/

/-- A 1 × 1 array viewed as a scalar holds its one entry. -/
theorem scalar_apply (x : Vec Ideal S1x1 .f32) (i : S_.Idx) :
    shapeCast S_ x shapeCasts_S1x1_S_ i = x (ix2 (0 : Fin 1) (0 : Fin 1)) := by
  have hk : (S1x1.rowMajor (ix2 (0 : Fin 1) (0 : Fin 1))).val = (S_.rowMajor i).val := by
    rw [Shape.rowMajor_val_two]
    exact (Shape.rowMajorPi_zero _ _).symm
  exact shapeCast_apply x shapeCasts_S1x1_S_ i (ix2 (0 : Fin 1) (0 : Fin 1)) hk

/-- The slice `[0:1, 0:1]` of the partial sums holds the entry `(0, 0)`. -/
theorem slice00_apply (P : Vec Ideal S16x128 .f32) :
    extractStridedSlice S1x1 ![0, 0] P slices_S16x128_S1x1_0_0 (ix2 (0 : Fin 1) (0 : Fin 1))
      = P (ix2 (0 : Fin 16) (0 : Fin 128)) :=
  extractStridedSlice_apply ![0, 0] P slices_S16x128_S1x1_0_0 (ix2 (0 : Fin 1) (0 : Fin 1))
    (ix2 (0 : Fin 16) (0 : Fin 128)) (fun a => match a with
      | ⟨0, _⟩ => rfl
      | ⟨1, _⟩ => rfl)

/-- The slice `[8:9, 0:1]` of the partial sums holds the entry `(8, 0)`. -/
theorem slice80_apply (P : Vec Ideal S16x128 .f32) :
    extractStridedSlice S1x1 ![8, 0] P slices_S16x128_S1x1_8_0 (ix2 (0 : Fin 1) (0 : Fin 1))
      = P (ix2 (8 : Fin 16) (0 : Fin 128)) :=
  extractStridedSlice_apply ![8, 0] P slices_S16x128_S1x1_8_0 (ix2 (0 : Fin 1) (0 : Fin 1))
    (ix2 (8 : Fin 16) (0 : Fin 128)) (fun a => match a with
      | ⟨0, _⟩ => rfl
      | ⟨1, _⟩ => rfl)

/-- The program's last operations: the two halves' partial sums and the last column's term, added and divided. -/
theorem tail_eq (P : Vec Ideal S16x128 .f32) (Lt : Vec Ideal S1x1 .f32) :
    Host.divf (F := Ideal)
        (addf (addf (shapeCast S_ (extractStridedSlice S1x1 ![0, 0] P slices_S16x128_S1x1_0_0) shapeCasts_S1x1_S_)
            (shapeCast S_ (extractStridedSlice S1x1 ![8, 0] P slices_S16x128_S1x1_8_0) shapeCasts_S1x1_S_))
          (shapeCast S_ Lt shapeCasts_S1x1_S_))
        (constant (F := Ideal) S_ .f32 0x46000000#32)
      = fun _ => Ideal.div ((P (ix2 (0 : Fin 16) (0 : Fin 128)) + P (ix2 (8 : Fin 16) (0 : Fin 128)))
          + Lt (ix2 (0 : Fin 1) (0 : Fin 1))) (Ideal.ofBits .f32 0x46000000#32) := by
  funext i
  show Ideal.div ((shapeCast S_ (extractStridedSlice S1x1 ![0, 0] P slices_S16x128_S1x1_0_0) shapeCasts_S1x1_S_ i
      + shapeCast S_ (extractStridedSlice S1x1 ![8, 0] P slices_S16x128_S1x1_8_0) shapeCasts_S1x1_S_ i)
      + shapeCast S_ Lt shapeCasts_S1x1_S_ i) (Ideal.ofBits .f32 0x46000000#32) = _
  rw [scalar_apply, scalar_apply, scalar_apply, slice00_apply, slice80_apply]

end

/-! ## The accumulation over a half -/

open Cert.Spec in
/-- Four tiles added one after another onto zero are the half's sum. -/
theorem half_eq_fold (Z : Vec Ideal SZ .f32) (V K Q : Vec Ideal SP .f32) (c : Fin 2) :
    ((((0 : EReal) + tile Z V K Q c 0) + tile Z V K Q c 1) + tile Z V K Q c 2) + tile Z V K Q c 3
      = half Z V K Q c := by
  unfold half
  rw [Fin.sum_univ_four, zero_add]

open Cert.Spec in
/-- The same when each tile arrives as zero plus the tile. -/
theorem half_eq_fold_zero (Z : Vec Ideal SZ .f32) (V K Q : Vec Ideal SP .f32) (c : Fin 2) :
    ((((0 : EReal) + (0 + tile Z V K Q c 0)) + (0 + tile Z V K Q c 1)) + (0 + tile Z V K Q c 2))
        + (0 + tile Z V K Q c 3)
      = half Z V K Q c := by
  simp only [zero_add]
  unfold half
  rw [Fin.sum_univ_four]

end Cert.KernelIdeal.HandValue

end
-- ==== Proof.LibDotNT.lean ====
/-
  A matrix product with BOTH operands contracted on their second axis — an [M, K] operand times an [N, K]
  operand, no batch axis — read at the entry (p, e) over the extended reals: the sum over k of the left operand
  at (p, k) times the right operand at (e, k). This is x · wᵀ for a weight stored with the output feature on
  its first axis. Stated for the on-chip product accumulated into a zero splat, for any dimension record that
  is the one with contracting axes [1] and [1].
-/
import Idealize.ShloMosaic.Lib.ValueIdx
import Idealize.ShloMosaic.PureOps.Ideal.Laws

noncomputable section

namespace Cert.DotNT

open Idealize.ShloMosaic Idealize.ShloMosaic.ValueIdx

variable {M K N : ℕ}

/-- The contraction index of this product has one axis, of extent `K`. -/
theorem contr_rank : (DotDims.transposedRhs M K N).contr.rank = 1 := rfl
theorem contr_size : (DotDims.transposedRhs M K N).contr.size ⟨0, by rw [contr_rank]; exact Nat.one_pos⟩ = K := rfl

/-- The one-coordinate contraction index with coordinate `k`. -/
abbrev cidx (k : Fin K) : (DotDims.transposedRhs M K N).contr.Idx :=
  (contrEquiv1 (DotDims.transposedRhs M K N) K contr_rank contr_size).symm k

/-- The left operand is read at row `p`, column `k`. -/
theorem lhsIdx_eq (p : Fin M) (e : Fin N) (k : Fin K) :
    (DotDims.transposedRhs M K N).lhsIdx (ix2 p e) (cidx k) = ix2 p k := by
  funext a
  apply Fin.ext
  match a with
  | ⟨0, _⟩ => rfl
  | ⟨1, _⟩ =>
    exact ((DotDims.transposedRhs M K N).lhsIdx_val_of_single rfl (ix2 p e) (cidx k)).trans
      (contrEquiv1_symm_val (DotDims.transposedRhs M K N) K contr_rank contr_size k)

/-- The right operand is read at row `e`, column `k`. -/
theorem rhsIdx_eq (p : Fin M) (e : Fin N) (k : Fin K) :
    (DotDims.transposedRhs M K N).rhsIdx (ix2 p e) (cidx k) = ix2 e k := by
  funext a
  apply Fin.ext
  match a with
  | ⟨0, _⟩ => rfl
  | ⟨1, _⟩ =>
    exact ((DotDims.transposedRhs M K N).rhsIdx_val_of_single rfl (ix2 p e) (cidx k)).trans
      (contrEquiv1_symm_val (DotDims.transposedRhs M K N) K contr_rank contr_size k)

/-- The contraction sum of this product, re-indexed over `Fin K`. -/
theorem sum_eq (l : (⟨2, ![M, K]⟩ : Shape).Idx → EReal) (r : (⟨2, ![N, K]⟩ : Shape).Idx → EReal) (p : Fin M) (e : Fin N) :
    (∑ q : (DotDims.transposedRhs M K N).contr.Idx,
        l ((DotDims.transposedRhs M K N).lhsIdx (ix2 p e) q) * r ((DotDims.transposedRhs M K N).rhsIdx (ix2 p e) q))
      = ∑ k : Fin K, l (ix2 p k) * r (ix2 e k) := by
  rw [← Equiv.sum_comp (contrEquiv1 (DotDims.transposedRhs M K N) K contr_rank contr_size).symm]
  refine Finset.sum_congr rfl fun k _ => ?_
  rw [lhsIdx_eq p e k, rhsIdx_eq p e k]

/-- The on-chip product accumulated into the zero splat, at entry `(p, e)`: the sum over the shared second axis. -/
theorem matmul_zero_apply {φ₁ φ₂ : FTy} (d : DotDims ⟨2, ![M, K]⟩ ⟨2, ![N, K]⟩ ⟨2, ![M, N]⟩) (hd : d = DotDims.transposedRhs M K N)
    (prec : Option ContractPrecision) (l : FVec Ideal ⟨2, ![M, K]⟩ φ₁) (r : FVec Ideal ⟨2, ![N, K]⟩ φ₂) (p : Fin M) (e : Fin N) :
    FloatOps.matmul d prec l r (constant (F := Ideal) ⟨2, ![M, N]⟩ .f32 0x00000000#32) (ix2 p e) = ∑ k : Fin K, l (ix2 p k) * r (ix2 e k) := by
  subst hd
  rw [Ideal.matmul_constant_zero_apply]
  exact sum_eq l r p e

end Cert.DotNT

end
-- ==== Proof.LibPlainDot.lean ====
/-
  A plain matrix product — an [M, K] operand times a [K, N] operand, the left one contracted on its second axis
  and the right one on its first, no batch axis — read at the entry (r, c) over the extended reals: the sum over
  k of the left operand at (r, k) times the right operand at (k, c). Stated once for the on-chip product
  accumulated into a zero splat and once for the host's dot_general, for any dimension record that is the plain
  one, so that both sides of a comparison land on the same sum over `Fin K`.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The contraction index of the plain product has one axis, of extent `K`. -/
theorem contr_rank : (DotDims.plain M K N).contr.rank = 1 := rfl
theorem contr_size : (DotDims.plain M K N).contr.size ⟨0, by rw [contr_rank]; exact Nat.one_pos⟩ = K := rfl

/-- The one-coordinate contraction index with coordinate `k`. -/
abbrev cidx (k : Fin K) : (DotDims.plain M K N).contr.Idx := (contrEquiv1 (DotDims.plain M K N) K contr_rank contr_size).symm k

/-- The left operand is read at row `r`, column `k`. -/
theorem lhsIdx_eq (r : Fin M) (c : Fin N) (k : Fin K) :
    (DotDims.plain M K N).lhsIdx (ix2 r c) (cidx k) = ix2 r k := by
  funext a
  apply Fin.ext
  match a with
  | ⟨0, _⟩ => rfl
  | ⟨1, _⟩ =>
    exact ((DotDims.plain M K N).lhsIdx_val_of_single rfl (ix2 r c) (cidx k)).trans
      (contrEquiv1_symm_val (DotDims.plain M K N) K contr_rank contr_size k)

/-- The right operand is read at row `k`, column `c`. -/
theorem rhsIdx_eq (r : Fin M) (c : Fin N) (k : Fin K) :
    (DotDims.plain M K N).rhsIdx (ix2 r c) (cidx k) = ix2 k c := by
  funext a
  apply Fin.ext
  match a with
  | ⟨0, _⟩ =>
    exact ((DotDims.plain M K N).rhsIdx_val_of_single rfl (ix2 r c) (cidx k)).trans
      (contrEquiv1_symm_val (DotDims.plain M K N) K contr_rank contr_size k)
  | ⟨1, _⟩ => rfl

/-- The contraction sum of the plain product, re-indexed over `Fin K`. -/
theorem sum_eq (l : (⟨2, ![M, K]⟩ : Shape).Idx → EReal) (r : (⟨2, ![K, N]⟩ : Shape).Idx → EReal) (p : Fin M) (c : Fin N) :
    (∑ q : (DotDims.plain M K N).contr.Idx, l ((DotDims.plain M K N).lhsIdx (ix2 p c) q) * r ((DotDims.plain M K N).rhsIdx (ix2 p c) q))
      = ∑ k : Fin K, l (ix2 p k) * r (ix2 k c) := by
  rw [← Equiv.sum_comp (contrEquiv1 (DotDims.plain M K N) K contr_rank contr_size).symm]
  refine Finset.sum_congr rfl fun k _ => ?_
  rw [lhsIdx_eq p c k, rhsIdx_eq p c k]

/-- The on-chip product accumulated into the zero splat, at entry `(p, c)`: the plain sum. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (c : Fin N) :
    FloatOps.matmul d prec l r (constant (F := Ideal) ⟨2, ![M, N]⟩ .f32 0x00000000#32) (ix2 p c) = ∑ k : Fin K, l (ix2 p k) * r (ix2 k c) := by
  subst hd
  rw [Ideal.matmul_constant_zero_apply]
  exact sum_eq l r p c

/-- The host's dot_general at entry `(p, c)`: the same plain sum, whatever the precision and the schedule key. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂) (p : Fin M) (c : Fin N) :
    FloatOps.dotGeneral d prec sched l r (ix2 p c) = ∑ k : Fin K, l (ix2 p k) * r (ix2 k c) := by
  subst hd
  rw [Ideal.dotGeneral_apply]
  exact sum_eq l r p c

end Cert.PlainDot

end
-- ==== Proof.R01Value.lean ====
/- What the two one-point kernels of regions 0 and 1 leave in their output buffers, entry by entry, over the
   extended reals. Every buffer is loaded and stored whole, so each output buffer simply holds the stored value.
   Changing the float format (f32 to bf16) is the identity here, recasting a vector to its own shape is the
   identity, and an on-chip matrix product accumulated into zeros is the plain sum of products. Hence:
   * region 0 writes the row vector  z ↦ (∑_b z_b · Q_{i b})_i,  the row times the TRANSPOSED matrix
     (both operands are contracted along their second axis);
   * region 1 writes a two-row matrix whose row 0 is the row vector times the matrix, (∑_i q_i · K_{i p})_p,
     and whose row 1 is a copy of a third row vector; and a single number, the product of two weighted sums:
     (∑_p row0_p · z_p) · (∑_p v_p · z_p).
   All statements are over variables of the literal shapes. -/
import proofs.«147252_j55800215109664_2_alg».proof.Proof.R0
import proofs.«147252_j55800215109664_2_alg».proof.Proof.R1
import proofs.«147252_j55800215109664_2_alg».proof.Proof.LibDotNT
import proofs.«147252_j55800215109664_2_alg».proof.Proof.LibPlainDot
import Idealize.ShloMosaic.Lib.ValueIdx
import Idealize.ShloMosaic.Lib.Pipeline.Value
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.ValueIdx

/-- The zero offsets of a rank-2 rectangle, as a constant function. -/
theorem hz2 : (![0, 0] : Fin 2 → Nat) = fun _ => 0 := by
  funext a; match a with | ⟨0, _⟩ => rfl | ⟨1, _⟩ => rfl

/-! ## The payloads at an entry -/

/-- Region 0's product: the 1 × 2049 row times the 2049 × 2049 matrix, both contracted on their second axis.
    Entry (0, i) is ∑_b z_{0 b} · Q_{i b}. -/
theorem k0_pay1_apply (Qm : Vec Ideal S2049x2049 .f32) (zr : Vec Ideal S1x2049 .f32) (i : Fin 2049) :
    k0_pay1 (F := Ideal) Qm zr (ix2 (0 : Fin 1) i) = ∑ b : Fin 2049, zr (ix2 (0 : Fin 1) b) * Qm (ix2 i b) := by
  unfold k0_pay1
  refine (Cert.DotNT.matmul_zero_apply (M := 1) (K := 2049) (N := 2049) dot_S1x2049_S2049x2049_S1x2049_1_1_0_0_n_n rfl none _ _ 0 i).trans ?_
  refine Finset.sum_congr rfl fun b _ => ?_
  rw [truncf_apply, truncf_apply, shapeCast_self]

/-- Region 1's product: the 1 × 2049 row times the 2049 × 2049 matrix in the plain sense.
    Entry (0, p) is ∑_i q_{0 i} · K_{i p}. -/
theorem k1_pay1_apply (Km : Vec Ideal S2049x2049 .f32) (qz : Vec Ideal S1x2049 .f32) (p : Fin 2049) :
    k1_pay1 (F := Ideal) Km qz (ix2 (0 : Fin 1) p) = ∑ i : Fin 2049, qz (ix2 (0 : Fin 1) i) * Km (ix2 i p) := by
  unfold k1_pay1
  refine (Cert.PlainDot.matmul_zero_apply (M := 1) (K := 2049) (N := 2049) dot_S1x2049_S2049x2049_S1x2049_1_0_0_1_n_n rfl none _ _ 0 p).trans ?_
  refine Finset.sum_congr rfl fun b _ => ?_
  rw [truncf_apply, truncf_apply, shapeCast_self]

/-- The recast row vector is the row vector. -/
theorem k1_pay2_apply (vl : Vec Ideal S1x2049 .f32) (p : Fin 2049) :
    k1_pay2 (F := Ideal) vl (ix2 (0 : Fin 1) p) = vl (ix2 (0 : Fin 1) p) := by
  unfold k1_pay2
  rw [shapeCast_self]

/-- Row 0 of the two rows laid one above the other is the first piece, the product. -/
theorem k1_pay3_row0 (Km : Vec Ideal S2049x2049 .f32) (qz vl : Vec Ideal S1x2049 .f32) (p : Fin 2049) :
    k1_pay3 (F := Ideal) Km qz vl (ix2 (0 : Fin 2) p) = ∑ i : Fin 2049, qz (ix2 (0 : Fin 1) i) * Km (ix2 i p) := by
  unfold k1_pay3
  refine (concatenate_pair_apply_left (t := S2x2049) (s₁ := S1x2049) (s₂ := S1x2049) (0 : Fin S2x2049.rank) _ _ _ (ix2 (0 : Fin 2) p) rfl (ix2 (0 : Fin 1) p)
    (fun b => by match b with | ⟨0, _⟩ => rfl | ⟨1, _⟩ => rfl)).trans ?_
  exact k1_pay1_apply Km qz p

/-- Row 1 is the second piece, the copied row vector (its row 0, one row further down). -/
theorem k1_pay3_row1 (Km : Vec Ideal S2049x2049 .f32) (qz vl : Vec Ideal S1x2049 .f32) (p : Fin 2049) :
    k1_pay3 (F := Ideal) Km qz vl (ix2 (1 : Fin 2) p) = vl (ix2 (0 : Fin 1) p) := by
  unfold k1_pay3
  refine (concatenate_pair_apply_right (t := S2x2049) (s₁ := S1x2049) (s₂ := S1x2049) (0 : Fin S2x2049.rank) _ _ _ (ix2 (1 : Fin 2) p) rfl rfl (ix2 (0 : Fin 1) p)
    (fun b hb => by
      match b with
      | ⟨0, _⟩ => exact absurd rfl hb
      | ⟨1, _⟩ => rfl)
    rfl).trans ?_
  exact k1_pay2_apply vl p

/-- A one-entry vector recast as a 1 × 1 matrix keeps its entry. -/
theorem cast_S1_S1x1_apply (v : FVec Ideal S1 .f32) (h : S1.ShapeCasts S1x1) :
    shapeCast S1x1 v h (ix2 (0 : Fin 1) (0 : Fin 1)) = v (ix1 (0 : Fin 1)) :=
  shapeCast_apply v h _ _ (by rw [Shape.rowMajor_val_one, Shape.rowMajor_val_two]; rfl)

/-- The sum of a 1 × 2049 vector along its second axis, started from zero, is the sum of its 2049 entries. -/
theorem rowsum_apply (x : FVec Ideal S1x2049 .f32) (h : S1x2049.Reduces [1] S1) (hφ : FKind.Formats .f32)
    (hacc : (0x00000000#32 : BitVec 32) = FKind.add.neutral .f32 hφ) :
    multiReduction .add [1] S1 x 0x00000000#32 h hφ hacc (ix1 (0 : Fin 1)) = ∑ p : Fin 2049, x (ix2 (0 : Fin 1) p) := by
  refine (Ideal.multiReduction_add_single x _ h hφ hacc (ix1 (0 : Fin 1))).trans ?_
  show ∑ k : Fin 2049, x (h.lift (ix1 (0 : Fin 1)) k) = _
  refine Finset.sum_congr rfl fun k _ => congrArg x ?_
  funext a; apply Fin.ext
  match a with
  | ⟨0, _⟩ => rfl
  | ⟨1, _⟩ => rfl

/-- The single number region 1 writes: the product of the sum of (product row) · z and the sum of v · z. -/
theorem k1_pay4_apply (Km : Vec Ideal S2049x2049 .f32) (qz zr vl : Vec Ideal S1x2049 .f32) :
    k1_pay4 (F := Ideal) Km qz zr vl (ix2 (0 : Fin 1) (0 : Fin 1))
      = (∑ p : Fin 2049, (∑ i : Fin 2049, qz (ix2 (0 : Fin 1) i) * Km (ix2 i p)) * zr (ix2 (0 : Fin 1) p))
        * (∑ p : Fin 2049, vl (ix2 (0 : Fin 1) p) * zr (ix2 (0 : Fin 1) p)) := by
  unfold k1_pay4
  refine congrArg₂ (fun a b : EReal => a * b) ?_ ?_
  · refine (cast_S1_S1x1_apply _ _).trans ?_
    refine (rowsum_apply _ _ _ _).trans ?_
    refine Finset.sum_congr rfl fun p _ => ?_
    refine congrArg₂ (fun a b : EReal => a * b) (k1_pay1_apply Km qz p) ?_
    rw [shapeCast_self]
  · refine (cast_S1_S1x1_apply _ _).trans ?_
    refine (rowsum_apply _ _ _ _).trans ?_
    refine Finset.sum_congr rfl fun p _ => ?_
    refine congrArg₂ (fun a b : EReal => a * b) (k1_pay2_apply vl p) ?_
    rw [shapeCast_self]

/-! ## The output buffers at an entry: one whole-buffer store each, of whole-buffer loads -/

/-- Region 0's output row at column i:  ∑_b z_{0 b} · Q_{i b}. -/
theorem out0_2_apply (Qm : Vec Ideal S2049x2049 .f32) (zr : Vec Ideal S1x2049 .f32) (i : Fin 2049) :
    out0_2 Qm zr (ix2 (0 : Fin 1) i) = ∑ b : Fin 2049, zr (ix2 (0 : Fin 1) b) * Qm (ix2 i b) := by
  unfold out0_2
  rw [View.canon_unit_zero hz2]
  simp only [View.ld_unit_zero (S := S2049x2049) hz2, View.ld_unit_zero (S := S1x2049) hz2]
  exact k0_pay1_apply Qm zr i

/-- Region 1's two-row output, row 0 at column p:  ∑_i q_{0 i} · K_{i p}. -/
theorem out1_4_row0 (Km : Vec Ideal S2049x2049 .f32) (qz vl : Vec Ideal S1x2049 .f32) (p : Fin 2049) :
    out1_4 Km qz vl (ix2 (0 : Fin 2) p) = ∑ i : Fin 2049, qz (ix2 (0 : Fin 1) i) * Km (ix2 i p) := by
  unfold out1_4
  rw [View.canon_unit_zero hz2]
  simp only [View.ld_unit_zero (S := S2049x2049) hz2, View.ld_unit_zero (S := S1x2049) hz2]
  exact k1_pay3_row0 Km qz vl p

/-- Region 1's two-row output, row 1 at column p:  v_{0 p}. -/
theorem out1_4_row1 (Km : Vec Ideal S2049x2049 .f32) (qz vl : Vec Ideal S1x2049 .f32) (p : Fin 2049) :
    out1_4 Km qz vl (ix2 (1 : Fin 2) p) = vl (ix2 (0 : Fin 1) p) := by
  unfold out1_4
  rw [View.canon_unit_zero hz2]
  simp only [View.ld_unit_zero (S := S2049x2049) hz2, View.ld_unit_zero (S := S1x2049) hz2]
  exact k1_pay3_row1 Km qz vl p

/-- Region 1's one-number output:  (∑_p (∑_i q_{0 i} · K_{i p}) · z_{0 p}) · (∑_p v_{0 p} · z_{0 p}). -/
theorem out1_5_apply (Km : Vec Ideal S2049x2049 .f32) (qz zr vl : Vec Ideal S1x2049 .f32) :
    out1_5 Km qz zr vl (ix2 (0 : Fin 1) (0 : Fin 1))
      = (∑ p : Fin 2049, (∑ i : Fin 2049, qz (ix2 (0 : Fin 1) i) * Km (ix2 i p)) * zr (ix2 (0 : Fin 1) p))
        * (∑ p : Fin 2049, vl (ix2 (0 : Fin 1) p) * zr (ix2 (0 : Fin 1) p)) := by
  unfold out1_5
  rw [View.canon_unit_zero hz2]
  simp only [View.ld_unit_zero (S := S2049x2049) hz2, View.ld_unit_zero (S := S1x2049) hz2]
  exact k1_pay4_apply Km qz zr vl

end Cert.KernelIdeal.HandValue

end
-- ==== Proof.R01Array.lean ====
/- The two one-point regions, from blocks to arrays, over the extended reals. In each region the grid has a
   single point and every window's index map is constantly (0, 0) with a block as large as the array, so a
   window's block IS its array: an input block read at the point is the whole entry contents of its array,
   and the one write-back of an output window overwrites the whole array with what the body left in the
   staging buffer. Hence after region 0 the row vector it writes holds z · Qᵀ of the entry contents, and
   after region 1 its two outputs hold (q · K ; v) and (∑ (q·K)·z) · (∑ v·z) of the entry contents. -/
import proofs.«147252_j55800215109664_2_alg».proof.Proof.R0
import proofs.«147252_j55800215109664_2_alg».proof.Proof.R1
import proofs.«147252_j55800215109664_2_alg».proof.Proof.R01Value

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- A buffer's contents taken as a function on the literal index type of its shape (the identity; it only
    fixes the type, so that entries are extended reals one can add and multiply). -/
abbrev asVec (S : Shape) (x : Vec Ideal S .f32) : Vec Ideal S .f32 := x

-- what the TensorCore's buffers hold when the region in question is entered
variable (V : (c : Dev nD) → (b : Ref sig .tc) → Buf (Elt Ideal) ((c : Thread nD τ).loc b))

/-! # Region 0 -/

/-! ## Every index map is constantly (0, 0), so every block starts at offset zero -/

theorem tr0_0 (i : grid0.Coords) : cc0_transform_0 i = ![0, 0] := rfl
theorem tr0_1 (i : grid0.Coords) : cc0_transform_1 i = ![0, 0] := rfl
theorem tr0_2 (i : grid0.Coords) : cc0_transform_2 i = ![0, 0] := rfl

theorem hz0_0 (t : Fin cfg0.N) : (fun a => win0_0.index t a * main_arg3.ty.shape.size a) = fun _ => 0 :=
  funext fun a => by
    show cc0_transform_0 (grid0.coords t) a * S2049x2049.size a = 0
    rw [tr0_0]
    match a with
    | ⟨0, _⟩ => rfl
    | ⟨1, _⟩ => rfl
theorem hz0_1 (t : Fin cfg0.N) : (fun a => win0_1.index t a * main_v2.ty.shape.size a) = fun _ => 0 :=
  funext fun a => by
    show cc0_transform_1 (grid0.coords t) a * S1x2049.size a = 0
    rw [tr0_1]
    match a with
    | ⟨0, _⟩ => rfl
    | ⟨1, _⟩ => rfl
theorem hz0_2 (t : Fin cfg0.N) : (fun a => win0_2.index t a * main_v4.ty.shape.size a) = fun _ => 0 :=
  funext fun a => by
    show cc0_transform_2 (grid0.coords t) a * S1x2049.size a = 0
    rw [tr0_2]
    match a with
    | ⟨0, _⟩ => rfl
    | ⟨1, _⟩ => rfl

/-! ## An input block is the whole array -/

theorem iblk0_0_eq (c : Dev nD) (t : Fin cfg0.N) : (iblk0 V c 0 t : Vec Ideal S2049x2049 .f32) = V c main_arg3 := by
  unfold iblk0
  exact Memref.read_access_unit_zero (Elt Ideal) main_arg3 (hz0_0 t) (fun a => by rw [congrFun (hz0_0 t) a]; simp) (V c main_arg3)
theorem iblk0_1_eq (c : Dev nD) (t : Fin cfg0.N) : (iblk0 V c 1 t : Vec Ideal S1x2049 .f32) = V c main_v2 := by
  unfold iblk0
  exact Memref.read_access_unit_zero (Elt Ideal) main_v2 (hz0_1 t) (fun a => by rw [congrFun (hz0_1 t) a]; simp) (V c main_v2)

/-! ## The output array after the region -/

/-- What the point writes back is (the block, that is, the whole, of) the body's result on the entry arrays. -/
theorem flushed0_2_eq (c : Dev nD) (t : Fin cfg0.N) :
    (dat0 V c).flushed 2 t = ((cfg0.win 2).blk t).view.read (Elt Ideal) (out0_2 (V c main_arg3) (V c main_v2)) := by
  show (cfg0.win 2).cut (grid0.coords t) ((dat0 V c).after 2 t) = _
  rw [after0_2]
  have e : out0_2 (iblk0 V c 0 t) (iblk0 V c 1 t) = out0_2 (V c main_arg3) (V c main_v2) :=
    congrArg₂ out0_2 (iblk0_0_eq V c t) (iblk0_1_eq V c t)
  rw [e]
  exact (Memref.read_access_unit_zero (Elt Ideal) main_v4 (hz0_2 t) (fun a => by rw [congrFun (hz0_2 t) a]; simp) _).symm

/-- The one point's block covers the whole output array. -/
theorem cover0_2_arr (i : S1x2049.Idx) :
    ∃ t : Fin cfg0.N, (cfg0.win 2).flush t = true ∧ i ∈ ((cfg0.win 2).blk t).view.set :=
  ⟨t0_0, flush0_2 t0_0, by
    show i ∈ ((View.whole main_v4).slice (win0_2.rect t0_0)).set
    rw [View.set_slice_whole]
    exact View.mem_set_unit_zero (hz0_2 t0_0) _ i⟩

/-- So the array ends holding the body's result on the entry arrays. -/
theorem final0_2 (c : Dev nD) : (dat0 V c).arrAt 2 cfg0.N = out0_2 (V c main_arg3) (V c main_v2) :=
  (dat0 V c).arrAt_eq_of_cover 2 _ (fun t _ => flushed0_2_eq V c t) cover0_2_arr

/-- Entry (0, i) of the row vector region 0 leaves:  ∑_b z_{0 b} · Q_{i b}. -/
theorem arr0_2_apply (c : Dev nD) (i : Fin 2049) :
    asVec S1x2049 ((dat0 V c).arrAt 2 cfg0.N) (ix2 (0 : Fin 1) i)
      = ∑ b : Fin 2049, asVec S1x2049 (V c main_v2) (ix2 (0 : Fin 1) b) * asVec S2049x2049 (V c main_arg3) (ix2 i b) := by
  rw [final0_2]
  exact out0_2_apply (V c main_arg3) (V c main_v2) i

/-! # Region 1 -/

theorem tr1_0 (i : grid1.Coords) : cc1_transform_0 i = ![0, 0] := rfl
theorem tr1_1 (i : grid1.Coords) : cc1_transform_1 i = ![0, 0] := rfl
theorem tr1_2 (i : grid1.Coords) : cc1_transform_2 i = ![0, 0] := rfl
theorem tr1_3 (i : grid1.Coords) : cc1_transform_3 i = ![0, 0] := rfl
theorem tr1_4 (i : grid1.Coords) : cc1_transform_4 i = ![0, 0] := rfl
theorem tr1_5 (i : grid1.Coords) : cc1_transform_5 i = ![0, 0] := rfl

theorem hz1_0 (t : Fin cfg1.N) : (fun a => win1_0.index t a * main_arg2.ty.shape.size a) = fun _ => 0 :=
  funext fun a => by
    show cc1_transform_0 (grid1.coords t) a * S2049x2049.size a = 0
    rw [tr1_0]
    match a with
    | ⟨0, _⟩ => rfl
    | ⟨1, _⟩ => rfl
theorem hz1_1 (t : Fin cfg1.N) : (fun a => win1_1.index t a * main_v4.ty.shape.size a) = fun _ => 0 :=
  funext fun a => by
    show cc1_transform_1 (grid1.coords t) a * S1x2049.size a = 0
    rw [tr1_1]
    match a with
    | ⟨0, _⟩ => rfl
    | ⟨1, _⟩ => rfl
theorem hz1_2 (t : Fin cfg1.N) : (fun a => win1_2.index t a * main_v2.ty.shape.size a) = fun _ => 0 :=
  funext fun a => by
    show cc1_transform_2 (grid1.coords t) a * S1x2049.size a = 0
    rw [tr1_2]
    match a with
    | ⟨0, _⟩ => rfl
    | ⟨1, _⟩ => rfl
theorem hz1_3 (t : Fin cfg1.N) : (fun a => win1_3.index t a * main_v3.ty.shape.size a) = fun _ => 0 :=
  funext fun a => by
    show cc1_transform_3 (grid1.coords t) a * S1x2049.size a = 0
    rw [tr1_3]
    match a with
    | ⟨0, _⟩ => rfl
    | ⟨1, _⟩ => rfl
theorem hz1_4 (t : Fin cfg1.N) : (fun a => win1_4.index t a * main_v5_0.ty.shape.size a) = fun _ => 0 :=
  funext fun a => by
    show cc1_transform_4 (grid1.coords t) a * S2x2049.size a = 0
    rw [tr1_4]
    match a with
    | ⟨0, _⟩ => rfl
    | ⟨1, _⟩ => rfl
theorem hz1_5 (t : Fin cfg1.N) : (fun a => win1_5.index t a * main_v5_1.ty.shape.size a) = fun _ => 0 :=
  funext fun a => by
    show cc1_transform_5 (grid1.coords t) a * S1x1.size a = 0
    rw [tr1_5]
    match a with
    | ⟨0, _⟩ => rfl
    | ⟨1, _⟩ => rfl

theorem iblk1_0_eq (c : Dev nD) (t : Fin cfg1.N) : (iblk1 V c 0 t : Vec Ideal S2049x2049 .f32) = V c main_arg2 := by
  unfold iblk1
  exact Memref.read_access_unit_zero (Elt Ideal) main_arg2 (hz1_0 t) (fun a => by rw [congrFun (hz1_0 t) a]; simp) (V c main_arg2)
theorem iblk1_1_eq (c : Dev nD) (t : Fin cfg1.N) : (iblk1 V c 1 t : Vec Ideal S1x2049 .f32) = V c main_v4 := by
  unfold iblk1
  exact Memref.read_access_unit_zero (Elt Ideal) main_v4 (hz1_1 t) (fun a => by rw [congrFun (hz1_1 t) a]; simp) (V c main_v4)
theorem iblk1_2_eq (c : Dev nD) (t : Fin cfg1.N) : (iblk1 V c 2 t : Vec Ideal S1x2049 .f32) = V c main_v2 := by
  unfold iblk1
  exact Memref.read_access_unit_zero (Elt Ideal) main_v2 (hz1_2 t) (fun a => by rw [congrFun (hz1_2 t) a]; simp) (V c main_v2)
theorem iblk1_3_eq (c : Dev nD) (t : Fin cfg1.N) : (iblk1 V c 3 t : Vec Ideal S1x2049 .f32) = V c main_v3 := by
  unfold iblk1
  exact Memref.read_access_unit_zero (Elt Ideal) main_v3 (hz1_3 t) (fun a => by rw [congrFun (hz1_3 t) a]; simp) (V c main_v3)

/-- What the point writes back into the two-row array. -/
theorem flushed1_4_eq (c : Dev nD) (t : Fin cfg1.N) :
    (dat1 V c).flushed 4 t = ((cfg1.win 4).blk t).view.read (Elt Ideal) (out1_4 (V c main_arg2) (V c main_v4) (V c main_v3)) := by
  show (cfg1.win 4).cut (grid1.coords t) ((dat1 V c).after 4 t) = _
  rw [after1_4]
  have e : out1_4 (iblk1 V c 0 t) (iblk1 V c 1 t) (iblk1 V c 3 t) = out1_4 (V c main_arg2) (V c main_v4) (V c main_v3) := by
    rw [show (iblk1 V c 0 t : Vec Ideal S2049x2049 .f32) = V c main_arg2 from iblk1_0_eq V c t,
      show (iblk1 V c 1 t : Vec Ideal S1x2049 .f32) = V c main_v4 from iblk1_1_eq V c t,
      show (iblk1 V c 3 t : Vec Ideal S1x2049 .f32) = V c main_v3 from iblk1_3_eq V c t]
  rw [e]
  exact (Memref.read_access_unit_zero (Elt Ideal) main_v5_0 (hz1_4 t) (fun a => by rw [congrFun (hz1_4 t) a]; simp) _).symm

/-- What the point writes back into the one-number array. -/
theorem flushed1_5_eq (c : Dev nD) (t : Fin cfg1.N) :
    (dat1 V c).flushed 5 t = ((cfg1.win 5).blk t).view.read (Elt Ideal) (out1_5 (V c main_arg2) (V c main_v4) (V c main_v2) (V c main_v3)) := by
  show (cfg1.win 5).cut (grid1.coords t) ((dat1 V c).after 5 t) = _
  rw [after1_5]
  have e : out1_5 (iblk1 V c 0 t) (iblk1 V c 1 t) (iblk1 V c 2 t) (iblk1 V c 3 t) = out1_5 (V c main_arg2) (V c main_v4) (V c main_v2) (V c main_v3) := by
    rw [show (iblk1 V c 0 t : Vec Ideal S2049x2049 .f32) = V c main_arg2 from iblk1_0_eq V c t,
      show (iblk1 V c 1 t : Vec Ideal S1x2049 .f32) = V c main_v4 from iblk1_1_eq V c t,
      show (iblk1 V c 2 t : Vec Ideal S1x2049 .f32) = V c main_v2 from iblk1_2_eq V c t,
      show (iblk1 V c 3 t : Vec Ideal S1x2049 .f32) = V c main_v3 from iblk1_3_eq V c t]
  rw [e]
  exact (Memref.read_access_unit_zero (Elt Ideal) main_v5_1 (hz1_5 t) (fun a => by rw [congrFun (hz1_5 t) a]; simp) _).symm

/-- The one point's blocks cover the two output arrays. -/
theorem cover1_4_arr (i : S2x2049.Idx) :
    ∃ t : Fin cfg1.N, (cfg1.win 4).flush t = true ∧ i ∈ ((cfg1.win 4).blk t).view.set :=
  ⟨t1_0, flush1_4 t1_0, by
    show i ∈ ((View.whole main_v5_0).slice (win1_4.rect t1_0)).set
    rw [View.set_slice_whole]
    exact View.mem_set_unit_zero (hz1_4 t1_0) _ i⟩
theorem cover1_5_arr (i : S1x1.Idx) :
    ∃ t : Fin cfg1.N, (cfg1.win 5).flush t = true ∧ i ∈ ((cfg1.win 5).blk t).view.set :=
  ⟨t1_0, flush1_5 t1_0, by
    show i ∈ ((View.whole main_v5_1).slice (win1_5.rect t1_0)).set
    rw [View.set_slice_whole]
    exact View.mem_set_unit_zero (hz1_5 t1_0) _ i⟩

/-- So each output array ends holding the body's result on the entry arrays. -/
theorem final1_4 (c : Dev nD) : (dat1 V c).arrAt 4 cfg1.N = out1_4 (V c main_arg2) (V c main_v4) (V c main_v3) :=
  (dat1 V c).arrAt_eq_of_cover 4 _ (fun t _ => flushed1_4_eq V c t) cover1_4_arr
theorem final1_5 (c : Dev nD) : (dat1 V c).arrAt 5 cfg1.N = out1_5 (V c main_arg2) (V c main_v4) (V c main_v2) (V c main_v3) :=
  (dat1 V c).arrAt_eq_of_cover 5 _ (fun t _ => flushed1_5_eq V c t) cover1_5_arr

/-- Row 0 of the two-row array at column p:  ∑_i q_{0 i} · K_{i p}. -/
theorem arr1_4_row0 (c : Dev nD) (p : Fin 2049) :
    asVec S2x2049 ((dat1 V c).arrAt 4 cfg1.N) (ix2 (0 : Fin 2) p)
      = ∑ i : Fin 2049, asVec S1x2049 (V c main_v4) (ix2 (0 : Fin 1) i) * asVec S2049x2049 (V c main_arg2) (ix2 i p) := by
  rw [final1_4]
  exact out1_4_row0 (V c main_arg2) (V c main_v4) (V c main_v3) p

/-- Row 1 of the two-row array at column p:  v_{0 p}. -/
theorem arr1_4_row1 (c : Dev nD) (p : Fin 2049) :
    asVec S2x2049 ((dat1 V c).arrAt 4 cfg1.N) (ix2 (1 : Fin 2) p) = asVec S1x2049 (V c main_v3) (ix2 (0 : Fin 1) p) := by
  rw [final1_4]
  exact out1_4_row1 (V c main_arg2) (V c main_v4) (V c main_v3) p

/-- The one number:  (∑_p (∑_i q_{0 i} · K_{i p}) · z_{0 p}) · (∑_p v_{0 p} · z_{0 p}). -/
theorem arr1_5_apply (c : Dev nD) :
    asVec S1x1 ((dat1 V c).arrAt 5 cfg1.N) (ix2 (0 : Fin 1) (0 : Fin 1))
      = (∑ p : Fin 2049, (∑ i : Fin 2049, asVec S1x2049 (V c main_v4) (ix2 (0 : Fin 1) i) * asVec S2049x2049 (V c main_arg2) (ix2 i p))
            * asVec S1x2049 (V c main_v2) (ix2 (0 : Fin 1) p))
        * (∑ p : Fin 2049, asVec S1x2049 (V c main_v3) (ix2 (0 : Fin 1) p) * asVec S1x2049 (V c main_v2) (ix2 (0 : Fin 1) p)) := by
  rw [final1_5]
  exact out1_5_apply (V c main_arg2) (V c main_v4) (V c main_v2) (V c main_v3)

end Cert.KernelIdeal.HandValue

end
-- ==== Proof.KernelValue.lean ====
/-
  The kernel's value: from the arrays the regions leave to the specification's number.

  Write `Z`, `V`, `K`, `Q` for the four argument arrays as launched.  Region 0 is entered with the last column of
  `Z` laid out as a row, `z`, and with `Q`; the row it writes has entry `i` equal to `∑ b, z b · Q[i,b]`, which is the
  specification's `qz i`.  Region 1 is entered with that row, with `K`, with `z` and with the last row `v` of `V`;
  its two-row output has row 0 equal to `p ↦ ∑ i, qz i · K[i,p]`, the specification's `kz`, and row 1 equal to `v`,
  and its one-number output is `(∑ p, kz p · z p) · (∑ p, v p · z p)`, the specification's last column's term.
  Each fact is the region's array read at an index, with the region's inputs traced back to the launch contents: no
  buffer a region reads is written by an earlier region except the ones named.

  The program's last operations add the entries (0,0) and (8,0) of region 2's output, add the last column's term and
  divide by the constant; given that those two entries are the two halves' sums, the result is the specification's.
-/
import proofs.«147252_j55800215109664_2_alg».proof.Proof.RunVal3
import proofs.«147252_j55800215109664_2_alg».proof.Proof.KernelHost
import proofs.«147252_j55800215109664_2_alg».proof.Proof.R01Array
import proofs.«147252_j55800215109664_2_alg».proof.Proof.Spec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx

variable (m : (ℓ : Loc nD τ sig) → Buf (Elt Ideal) ℓ) (ρ : Dev nD → PrngReg)

/-! ## The regions' sums over typed arrays

A read of a device buffer has an element type that instance search does not unfold, so the sums are stated over
arrays of the literal shapes and instantiated at the buffers. -/

open Cert.Spec in
/-- A row `zr` that is the last column of `Z`, against row `i` of `Q`: `qz i`. -/
theorem qz_of (Z : Vec Ideal SZ .f32) (Q : Vec Ideal SP .f32) (zr : Vec Ideal S1x2049 .f32)
    (Qm : Vec Ideal S2049x2049 .f32) (hz : ∀ b, zr (ix2 (0 : Fin 1) b) = zl Z b) (hQ : Qm = Q) (i : Fin 2049) :
    ∑ b : Fin 2049, zr (ix2 (0 : Fin 1) b) * Qm (ix2 i b) = qz Z Q i := by
  subst hQ
  unfold qz
  exact Finset.sum_congr rfl fun b _ => by rw [hz]

open Cert.Spec in
/-- A row `qr` that is `qz`, against column `p` of `K`: `kz p`. -/
theorem kz_of (Z : Vec Ideal SZ .f32) (K Q : Vec Ideal SP .f32) (qr : Vec Ideal S1x2049 .f32)
    (Km : Vec Ideal S2049x2049 .f32) (hq : ∀ i, qr (ix2 (0 : Fin 1) i) = qz Z Q i) (hK : Km = K) (p : Fin 2049) :
    ∑ i : Fin 2049, qr (ix2 (0 : Fin 1) i) * Km (ix2 i p) = kz Z K Q p := by
  subst hK
  unfold kz
  exact Finset.sum_congr rfl fun i _ => by rw [hq]

open Cert.Spec in
/-- The product of the two weighted sums region 1 forms is the last column's term. -/
theorem lastTerm_of (Z : Vec Ideal SZ .f32) (V K Q : Vec Ideal SP .f32) (Km : Vec Ideal S2049x2049 .f32)
    (qr zr vr : Vec Ideal S1x2049 .f32) (hq : ∀ i, qr (ix2 (0 : Fin 1) i) = qz Z Q i) (hK : Km = K)
    (hz : ∀ p, zr (ix2 (0 : Fin 1) p) = zl Z p) (hv : ∀ p, vr (ix2 (0 : Fin 1) p) = vl V p) :
    (∑ p : Fin 2049, (∑ i : Fin 2049, qr (ix2 (0 : Fin 1) i) * Km (ix2 i p)) * zr (ix2 (0 : Fin 1) p))
        * (∑ p : Fin 2049, vr (ix2 (0 : Fin 1) p) * zr (ix2 (0 : Fin 1) p))
      = lastTerm Z V K Q := by
  unfold lastTerm
  refine congrArg₂ (fun a b : EReal => a * b) ?_ ?_
  · exact Finset.sum_congr rfl fun p _ => by rw [kz_of Z K Q qr Km hq hK p, hz]
  · exact Finset.sum_congr rfl fun p _ => by rw [hv, hz]

/-! ## The regions' inputs, traced back to the launch contents -/

/-- The row both regions 0 and 1 read: entry `p` is `Z[p, 8192]`. -/
theorem zrow_eq (c : Dev nD) (p : Fin 2049) :
    V1 m ρ c main_v2 (ix2 (0 : Fin 1) p) = Cert.Spec.zl (m ((c : Thread nD τ).loc main_arg0)) p := by
  rw [V1_main_v2, zrow_apply]
  rfl

/-- The row region 1 copies: entry `p` is `V[2048, p]`. -/
theorem vrow_eq (c : Dev nD) (p : Fin 2049) :
    V1 m ρ c main_v3 (ix2 (0 : Fin 1) p) = Cert.Spec.vl (m ((c : Thread nD τ).loc main_arg1)) p := by
  rw [V1_main_v3, vrow_apply]
  rfl

/-! ## Region 0 -/

/-- Region 0's output row is `qz`. -/
theorem qz_eq (c : Dev nD) (i : Fin 2049) :
    V2 m ρ c main_v4 (ix2 (0 : Fin 1) i)
      = Cert.Spec.qz (m ((c : Thread nD τ).loc main_arg0)) (m ((c : Thread nD τ).loc main_arg3)) i := by
  refine (congrFun (V2_main_v4 m ρ c) _).trans ?_
  refine (congrFun (final0_2 (V1 m ρ) c) _).trans ?_
  refine (out0_2_apply (V1 m ρ c main_arg3) (V1 m ρ c main_v2) i).trans ?_
  exact qz_of _ _ _ _ (fun b => zrow_eq m ρ c b) (V1_main_arg3 m ρ c) i

/-! ## Region 1 -/

/-- Row 0 of region 1's two-row output is `kz`. -/
theorem M_row0 (c : Dev nD) (p : Fin 2049) :
    V3 m ρ c main_v5_0 (ix2 (0 : Fin 2) p)
      = Cert.Spec.kz (m ((c : Thread nD τ).loc main_arg0)) (m ((c : Thread nD τ).loc main_arg2))
          (m ((c : Thread nD τ).loc main_arg3)) p := by
  refine (congrFun (V3_main_v5_0 m ρ c) _).trans ?_
  refine (congrFun (final1_4 (V2 m ρ) c) _).trans ?_
  refine (out1_4_row0 (V2 m ρ c main_arg2) (V2 m ρ c main_v4) (V2 m ρ c main_v3) p).trans ?_
  exact kz_of _ _ _ _ _ (fun i => qz_eq m ρ c i) ((V2_main_arg2 m ρ c).trans (V1_main_arg2 m ρ c)) p

/-- Row 1 of region 1's two-row output is the last row of `V`. -/
theorem M_row1 (c : Dev nD) (p : Fin 2049) :
    V3 m ρ c main_v5_0 (ix2 (1 : Fin 2) p) = Cert.Spec.vl (m ((c : Thread nD τ).loc main_arg1)) p := by
  refine (congrFun (V3_main_v5_0 m ρ c) _).trans ?_
  refine (congrFun (final1_4 (V2 m ρ) c) _).trans ?_
  refine (out1_4_row1 (V2 m ρ c main_arg2) (V2 m ρ c main_v4) (V2 m ρ c main_v3) p).trans ?_
  exact (congrFun (V2_main_v3 m ρ c) _).trans (vrow_eq m ρ c p)

/-- Region 1's one-number output is the last column's term. -/
theorem lastTerm_eq (c : Dev nD) :
    (dat1 (V2 m ρ) c).arrAt 5 cfg1.N (ix2 (0 : Fin 1) (0 : Fin 1))
      = Cert.Spec.lastTerm (m ((c : Thread nD τ).loc main_arg0)) (m ((c : Thread nD τ).loc main_arg1))
          (m ((c : Thread nD τ).loc main_arg2)) (m ((c : Thread nD τ).loc main_arg3)) := by
  refine (congrFun (final1_5 (V2 m ρ) c) _).trans ?_
  refine (out1_5_apply (V2 m ρ c main_arg2) (V2 m ρ c main_v4) (V2 m ρ c main_v2) (V2 m ρ c main_v3)).trans ?_
  exact lastTerm_of _ _ _ _ _ _ _ _ (fun i => qz_eq m ρ c i) ((V2_main_arg2 m ρ c).trans (V1_main_arg2 m ρ c))
    (fun p => (congrFun (V2_main_v2 m ρ c) _).trans (zrow_eq m ρ c p))
    (fun p => (congrFun (V2_main_v3 m ρ c) _).trans (vrow_eq m ρ c p))

/-! ## The result -/

/-- The result buffer holds the specification's number, given that the entries (0,0) and (8,0) of region 2's output
    array are the two halves' sums. -/
theorem kernel_value (c : Dev nD)
    (hP0 : (dat2 (V3 m ρ) c).arrAt 2 cfg2.N (ix2 (0 : Fin 16) (0 : Fin 128))
      = Cert.Spec.half (m ((c : Thread nD τ).loc main_arg0)) (m ((c : Thread nD τ).loc main_arg1))
          (m ((c : Thread nD τ).loc main_arg2)) (m ((c : Thread nD τ).loc main_arg3)) 0)
    (hP8 : (dat2 (V3 m ρ) c).arrAt 2 cfg2.N (ix2 (8 : Fin 16) (0 : Fin 128))
      = Cert.Spec.half (m ((c : Thread nD τ).loc main_arg0)) (m ((c : Thread nD τ).loc main_arg1))
          (m ((c : Thread nD τ).loc main_arg2)) (m ((c : Thread nD τ).loc main_arg3)) 1) :
    W5 m ρ c (Proc.devRef .tc main_v14)
      = fun _ => Cert.Spec.result (m ((c : Thread nD τ).loc main_arg0)) (m ((c : Thread nD τ).loc main_arg1))
          (m ((c : Thread nD τ).loc main_arg2)) (m ((c : Thread nD τ).loc main_arg3)) := by
  refine (W5_main_v14 m ρ c).trans ?_
  refine (tail_eq ((dat2 (V3 m ρ) c).arrAt 2 cfg2.N) ((dat1 (V2 m ρ) c).arrAt 5 cfg1.N)).trans ?_
  funext _
  rw [hP0, hP8, lastTerm_eq m ρ c]
  rfl

end Cert.KernelIdeal.HandValue

end
-- ==== Proof.R2Value.lean ====
/- Region 2's accumulator, entry by entry, over the extended reals. One tile replaces the accumulator's corner
   entry (0, 0) by that entry plus the tile's contribution and leaves every other entry alone; the contribution
   is the sum, over the tile's 1024 columns l, of the product of the two rows' dot products with column l:
   ∑_l (∑_p M_{0 p} · Z_{p l}) · (∑_p M_{1 p} · Z_{p l}), where M is the two-row matrix and Z the tile. The
   cleared accumulator is zero everywhere. (A change of float format is the identity here and the on-chip
   matrix product accumulated into zeros is the plain sum of products.) -/
import proofs.«147252_j55800215109664_2_alg».proof.Proof.R2Body
import proofs.«147252_j55800215109664_2_alg».proof.Proof.LibPlainDot
import Idealize.ShloMosaic.Lib.ValueIdx
import Idealize.ShloMosaic.Lib.Pipeline.Value
import Idealize.ShloMosaic.Lib.Pipeline.FrameBody
import Idealize.ShloMosaic.PureOps.Ideal.Laws

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

theorem hzero2 : (![0, 0] : Fin 2 → Nat) = fun _ => 0 := by
  funext a; match a with | ⟨0, _⟩ => rfl | ⟨1, _⟩ => rfl

/-- The sum of a 1 × 1024 vector along its second axis, started from zero, is the sum of its 1024 entries. -/
theorem rowsum1024_apply (x : FVec Ideal S1x1024 .f32) (h : S1x1024.Reduces [1] S1) (hφ : FKind.Formats .f32)
    (hacc : (0x00000000#32 : BitVec 32) = FKind.add.neutral .f32 hφ) :
    multiReduction .add [1] S1 x 0x00000000#32 h hφ hacc (ix1 (0 : Fin 1)) = ∑ l : Fin 1024, x (ix2 (0 : Fin 1) l) := by
  refine (Ideal.multiReduction_add_single x _ h hφ hacc (ix1 (0 : Fin 1))).trans ?_
  show ∑ k : Fin 1024, x (h.lift (ix1 (0 : Fin 1)) k) = _
  refine Finset.sum_congr rfl fun k _ => congrArg x ?_
  funext a; apply Fin.ext
  match a with
  | ⟨0, _⟩ => rfl
  | ⟨1, _⟩ => rfl

/-- A one-entry vector recast as a 1 × 1 matrix keeps its entry. -/
theorem cast_one_apply (v : FVec Ideal S1 .f32) (h : S1.ShapeCasts S1x1) :
    shapeCast S1x1 v h (ix2 (0 : Fin 1) (0 : Fin 1)) = v (ix1 (0 : Fin 1)) :=
  shapeCast_apply v h _ _ (by rw [Shape.rowMajor_val_one, Shape.rowMajor_val_two]; rfl)

/-- The two-row product of region 2: the 2 × 2049 block times the 2049 × 1024 tile, entry (r, l). -/
theorem prod2_apply (x0 : Vec Ideal S2x2049 .f32) (x1 : Vec Ideal S2049x1024 .f32) (r : Fin 2) (l : Fin 1024) :
    matmul dot_S2x2049_S2049x1024_S2x1024_1_0_0_1_n_n none
        (truncf .bf16 (shapeCast S2x2049 x0 shapeCasts_S2x2049_S2x2049) bitsLt_bf16_f32 : FVec Ideal S2x2049 .bf16)
        (truncf .bf16 x1 bitsLt_bf16_f32 : FVec Ideal S2049x1024 .bf16)
        (constant (F := Ideal) S2x1024 .f32 0x00000000#32) (ix2 r l)
      = ∑ p : Fin 2049, x0 (ix2 r p) * x1 (ix2 p l) := by
  refine (Cert.PlainDot.matmul_zero_apply (M := 2) (K := 2049) (N := 1024) dot_S2x2049_S2049x1024_S2x1024_1_0_0_1_n_n rfl none _ _ r l).trans ?_
  refine Finset.sum_congr rfl fun p _ => ?_
  rw [truncf_apply, truncf_apply, shapeCast_self]

/-- The value the tile adds into the accumulator's corner: the old corner plus the sum over the tile's 1024
    columns of the product of the two rows' dot products with that column. -/
theorem k2_pay2_apply (x0 : Vec Ideal S2x2049 .f32) (x1 : Vec Ideal S2049x1024 .f32) (e : Vec Ideal S1x1 .f32) :
    k2_pay2 (F := Ideal) x0 x1 e (ix2 (0 : Fin 1) (0 : Fin 1))
      = e (ix2 (0 : Fin 1) (0 : Fin 1))
        + ∑ l : Fin 1024, (∑ p : Fin 2049, x0 (ix2 (0 : Fin 2) p) * x1 (ix2 p l)) * (∑ p : Fin 2049, x0 (ix2 (1 : Fin 2) p) * x1 (ix2 p l)) := by
  unfold k2_pay2
  rw [shapeCast_self]
  refine congrArg (fun a : EReal => e (ix2 (0 : Fin 1) (0 : Fin 1)) + a) ?_
  refine (cast_one_apply _ _).trans ?_
  refine (rowsum1024_apply _ _ _ _).trans ?_
  refine Finset.sum_congr rfl fun l _ => ?_
  refine congrArg₂ (fun a b : EReal => a * b) ?_ ?_
  · refine (extractStridedSlice_apply _ _ _ (ix2 (0 : Fin 1) l) (ix2 (0 : Fin 2) l) (fun a => by
      match a with
      | ⟨0, _⟩ => rfl
      | ⟨1, _⟩ => show l.val = 0 + l.val; omega)).trans ?_
    exact prod2_apply x0 x1 0 l
  · refine (extractStridedSlice_apply _ _ _ (ix2 (0 : Fin 1) l) (ix2 (1 : Fin 2) l) (fun a => by
      match a with
      | ⟨0, _⟩ => rfl
      | ⟨1, _⟩ => show l.val = 0 + l.val; omega)).trans ?_
    exact prod2_apply x0 x1 1 l

/-- The corner index of the accumulator is the one index of the 1 × 1 rectangle at the origin. -/
theorem corner_emb : r2_one.emb (ix2 (0 : Fin 1) (0 : Fin 1)) = ix2 (0 : Fin 8) (0 : Fin 128) := by
  funext a; apply Fin.ext
  match a with
  | ⟨0, _⟩ => rfl
  | ⟨1, _⟩ => rfl

/-- The accumulator's corner after one tile. -/
theorem acc2_apply_00 (x0 : Vec Ideal S2x2049 .f32) (x1 : Vec Ideal S2049x1024 .f32) (s : Vec Ideal S8x128 .f32) :
    acc2 x0 x1 s (ix2 (0 : Fin 8) (0 : Fin 128))
      = s (ix2 (0 : Fin 8) (0 : Fin 128))
        + ∑ l : Fin 1024, (∑ p : Fin 2049, x0 (ix2 (0 : Fin 2) p) * x1 (ix2 p l)) * (∑ p : Fin 2049, x0 (ix2 (1 : Fin 2) p) * x1 (ix2 p l)) := by
  unfold acc2
  rw [← corner_emb, View.read_writes_cons_emb]
  simp only [View.ld_unit_zero (S := S2x2049) hzero2, View.ld_unit_zero (S := S2049x1024) hzero2]
  refine (k2_pay2_apply x0 x1 _).trans ?_
  rfl

/-- Every other entry of the accumulator is untouched by a tile. -/
theorem acc2_apply_ne (x0 : Vec Ideal S2x2049 .f32) (x1 : Vec Ideal S2049x1024 .f32) (s : Vec Ideal S8x128 .f32)
    (r : Fin 8) (q : Fin 128) (h : (r, q) ≠ (0, 0)) : acc2 x0 x1 s (ix2 r q) = s (ix2 r q) := by
  unfold acc2
  rw [View.read_writes_apply_of_forall_not_mem, hscM2.read_unread]
  intro p hp
  obtain rfl := List.mem_singleton.mp hp
  intro hm
  rw [Rect.mem_set_unit] at hm
  have h0 := (hm 0).2
  have h1 := (hm 1).2
  apply h
  have hr : r.val = 0 := by
    have : (r : Nat) < 0 + 1 := h0
    omega
  have hq : q.val = 0 := by
    have : (q : Nat) < 0 + 1 := h1
    omega
  exact Prod.ext (Fin.ext hr) (Fin.ext hq)

/-- The cleared accumulator is zero everywhere. -/
theorem zero2_apply (r : Fin 8) (q : Fin 128) : zero2 (F := Ideal) (ix2 r q) = 0 := by
  unfold zero2
  rw [View.canon_unit_zero hzero2]
  unfold k2_pay1
  rw [shapeCast_self]
  exact Ideal.ofBits_zero_f32

end Cert.KernelIdeal.HandValue

end
-- ==== Proof.R2Array.lean ====
/- Region 2 (the tiled sum over the first 8192 columns of the big array), from blocks to the output array, over
   the extended reals. The grid has 2 · 4 points, point t = 4 h + k being tile k of half h. At every point the
   first window's block is the whole two-row matrix M, and the second window's block is tile t of the big array
   Z: its columns 1024 t … 1024 t + 1023 (all inside the array, so nothing of the staging buffer's old contents
   is left). The accumulator's corner entry starts a half at zero and gains, per tile, the sum over the tile's
   columns j of (∑_p M_{0 p} Z_{p j}) · (∑_p M_{1 p} Z_{p j}). The output array has two blocks of eight rows;
   block h is written once, after the last tile of half h, with a copy of the accumulator. Hence its entries
   (0, 0) and (8, 0) are the two halves' four tile sums added up in order, starting from zero. -/
import proofs.«147252_j55800215109664_2_alg».proof.Proof.R2
import proofs.«147252_j55800215109664_2_alg».proof.Proof.R2Value
import proofs.«147252_j55800215109664_2_alg».proof.Proof.R01Array
import proofs.«147252_j55800215109664_2_alg».proof.Proof.Spec

set_option maxHeartbeats 400000

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat Window)

variable (V : (c : Dev nD) → (b : Ref sig .tc) → Buf (Elt Ideal) ((c : Thread nD τ).loc b))

/-! ## The grid's eight points and the three index maps -/

/-- The grid has eight points. -/
theorem hN2 (t : Fin cfg2.N) : t.val < 8 := lt_of_lt_of_eq t.isLt (show cfg2.N = 8 from N_2)

/-- Window 0's index map is constantly (0, 0); -/
theorem tr2_0 (i : grid2.Coords) : cc2_transform_0 i = ![0, 0] := rfl

/-- window 1's block index at point t is (0, t); -/
theorem idx2_1 : ∀ t : Fin cfg2.N, win2_1.index t 0 = 0 ∧ win2_1.index t 1 = t.val :=
  (by decide +kernel : ∀ t : Fin grid2.N, win2_1.index t 0 = 0 ∧ win2_1.index t 1 = t.val)

/-- window 2's is (t / 4, 0): the half. -/
theorem idx2_2 : ∀ t : Fin cfg2.N, win2_2.index t 0 = t.val / 4 ∧ win2_2.index t 1 = 0 :=
  (by decide +kernel : ∀ t : Fin grid2.N, win2_2.index t 0 = t.val / 4 ∧ win2_2.index t 1 = 0)

/-- So window 0's block starts at offset zero on both axes. -/
theorem hz2_0 (t : Fin cfg2.N) : (fun a => win2_0.index t a * main_v5_0.ty.shape.size a) = fun _ => 0 :=
  funext fun a => by
    show cc2_transform_0 (grid2.coords t) a * S2x2049.size a = 0
    rw [tr2_0]
    match a with
    | ⟨0, _⟩ => rfl
    | ⟨1, _⟩ => rfl

/-! ## (a) The blocks -/

/-- Window 0's block, at every point, is its whole array. -/
theorem iblk2_0_eq (c : Dev nD) (t : Fin cfg2.N) : (iblk2 V c 0 t : Vec Ideal S2x2049 .f32) = V c main_v5_0 := by
  unfold iblk2
  exact Memref.read_access_unit_zero (Elt Ideal) main_v5_0 (hz2_0 t) (fun a => by rw [congrFun (hz2_0 t) a]; simp) (V c main_v5_0)

/-- Window 1's staged block at point t, entry (p, l), is the array's entry (p, 1024 t + l). -/
theorem zfull_apply (c : Dev nD) (t : Fin cfg2.N) (p : Fin 2049) (l : Fin 1024) (k : S2049x8193.Idx)
    (hk0 : (k 0).val = p.val) (hk1 : (k 1).val = 1024 * t.val + l.val) :
    zfull V c t (ix2 p l) = (V c main_arg0 : S2049x8193.Idx → Elt Ideal .f32) k := by
  obtain ⟨hi0, hi1⟩ := idx2_1 t
  have hm : (cfg2.win 1).moved (cfg2.grid.coords t) (ix2 p l) = true :=
    ((cfg2.win 1).moved_iff _ _).mpr fun a => by
      have := ((ix2 p l : S2049x1024.Idx) a).isLt; unfold Window.xsize; rw [clip2_1 t a]; exact this
  unfold zfull Window.fill
  rw [dif_pos hm]
  unfold iblk2
  rw [View.read_apply]
  show V c main_arg0 _ = V c main_arg0 k
  congr 1
  funext a; apply Fin.ext
  match a with
  | ⟨0, _⟩ => show win2_1.index t 0 * 2049 + 1 * p.val = (k 0).val; rw [hi0, hk0]; omega
  | ⟨1, _⟩ => show win2_1.index t 1 * 1024 + 1 * l.val = (k 1).val; rw [hi1, hk1]; omega

/-- Tile `n` of the big array: its columns 1024 n … 1024 n + 1023, all rows. -/
def ztile (Za : Vec Ideal S2049x8193 .f32) (n : ℕ) (hn : n < 8) : Vec Ideal S2049x1024 .f32 :=
  fun j => Za (ix2 (⟨(j 0).val, (j 0).isLt⟩ : Fin 2049)
    (⟨1024 * n + (j 1).val, by have : (j 1).val < 1024 := (j 1).isLt; omega⟩ : Fin 8193))

/-- The staged block of window 1 at point `t` is tile `t` of the array. -/
theorem zfull_eq (c : Dev nD) (t : Fin cfg2.N) (Za : Vec Ideal S2049x8193 .f32) (hZ : V c main_arg0 = Za) :
    zfull V c t = ztile Za t.val (hN2 t) := by
  funext j
  obtain ⟨p, l, rfl⟩ : ∃ (p : Fin 2049) (l : Fin 1024), j = ix2 p l := ⟨j 0, j 1, eq_ix2 j⟩
  subst hZ
  unfold ztile
  exact zfull_apply V c t p l _ rfl rfl

/-! ## (b) The accumulator's corner, point by point -/

/-- The sum one tile adds to the corner: over the tile's 1024 columns, the product of the two rows' dot products
    with the column. -/
def tileAt (Mm : Vec Ideal S2x2049 .f32) (Za : Vec Ideal S2049x8193 .f32) (n : ℕ) (hn : n < 8) : EReal :=
  ∑ l : Fin 1024, (∑ p : Fin 2049, Mm (ix2 (0 : Fin 2) p) * ztile Za n hn (ix2 p l))
      * (∑ p : Fin 2049, Mm (ix2 (1 : Fin 2) p) * ztile Za n hn (ix2 p l))

/-- The same sum, the tile named by its half `h` and its place `k` in the half. -/
def T (Mm : Vec Ideal S2x2049 .f32) (Za : Vec Ideal S2049x8193 .f32) (h : Fin 2) (k : Fin 4) : EReal :=
  ∑ l : Fin 1024, (∑ p : Fin 2049, Mm (ix2 (0 : Fin 2) p) * Za (ix2 p (Cert.Spec.col h k l)))
      * (∑ p : Fin 2049, Mm (ix2 (1 : Fin 2) p) * Za (ix2 p (Cert.Spec.col h k l)))

/-- Column l of tile 4 h + k is column 4096 h + 1024 k + l of the array. -/
theorem ztile_col (Za : Vec Ideal S2049x8193 .f32) (h : Fin 2) (k : Fin 4) (hn : 4 * h.val + k.val < 8) (p : Fin 2049) (l : Fin 1024) :
    ztile Za (4 * h.val + k.val) hn (ix2 p l) = Za (ix2 p (Cert.Spec.col h k l)) := by
  unfold ztile
  refine congrArg Za ?_
  funext a; apply Fin.ext
  match a with
  | ⟨0, _⟩ => rfl
  | ⟨1, _⟩ => show 1024 * (4 * h.val + k.val) + l.val = h.val * 4096 + k.val * 1024 + l.val; omega

/-- So the two ways of writing a tile's sum agree. -/
theorem tileAt_eq_T (Mm : Vec Ideal S2x2049 .f32) (Za : Vec Ideal S2049x8193 .f32) (h : Fin 2) (k : Fin 4) (hn : 4 * h.val + k.val < 8) :
    tileAt Mm Za (4 * h.val + k.val) hn = T Mm Za h k := by
  unfold tileAt T
  refine Finset.sum_congr rfl fun l _ => ?_
  refine congrArg₂ (fun a b : EReal => a * b) (Finset.sum_congr rfl fun p _ => ?_) (Finset.sum_congr rfl fun p _ => ?_)
  · rw [ztile_col]
  · rw [ztile_col]

section Corner
variable (c : Dev nD) (Mm : Vec Ideal S2x2049 .f32) (Za : Vec Ideal S2049x8193 .f32)
  (hM : V c main_v5_0 = Mm) (hZ : V c main_arg0 = Za)
include hM hZ

/-- One tile's step on the accumulator, with the blocks named. -/
theorem acc2_blocks (t : Fin cfg2.N) (s : Vec Ideal S8x128 .f32) :
    acc2 (iblk2 V c 0 t) (zfull V c t) s = acc2 Mm (ztile Za t.val (hN2 t)) s := by
  have e0 : (iblk2 V c 0 t : Vec Ideal S2x2049 .f32) = Mm := (iblk2_0_eq V c t).trans hM
  exact congrArg₂ (fun a b => acc2 a b s) e0 (zfull_eq V c t Za hZ)

/-- At the first tile of a half the corner starts from zero. -/
theorem corner_first (t : Fin cfg2.N) (h : t.val % 4 = 0) :
    scAt V c t.val t.isLt (ix2 (0 : Fin 8) (0 : Fin 128)) = 0 + tileAt Mm Za t.val (hN2 t) := by
  rw [scAt_first V c t h, acc2_blocks V c Mm Za hM hZ t, acc2_apply_00, zero2_apply]
  rfl

/-- At every other tile it adds to what the tile before left. -/
theorem corner_succ (n : ℕ) (hn : n + 1 < cfg2.N) (h : ¬(n + 1) % 4 = 0) :
    scAt V c (n + 1) hn (ix2 (0 : Fin 8) (0 : Fin 128))
      = scAt V c n (Nat.lt_of_succ_lt hn) (ix2 (0 : Fin 8) (0 : Fin 128)) + tileAt Mm Za (n + 1) (hN2 ⟨n + 1, hn⟩) := by
  have e : scAt V c (n + 1) hn
      = acc2 (iblk2 V c 0 ⟨n + 1, hn⟩) (zfull V c ⟨n + 1, hn⟩) (scAt V c n (Nat.lt_of_succ_lt hn)) := if_neg h
  rw [e, acc2_blocks V c Mm Za hM hZ ⟨n + 1, hn⟩, acc2_apply_00]
  rfl

/-- After the four tiles of the half that starts at point `b`. -/
theorem corner_run (b : ℕ) (hb : b % 4 = 0) (h3 : b + 3 < cfg2.N) :
    scAt V c (b + 3) h3 (ix2 (0 : Fin 8) (0 : Fin 128))
      = (((0 + tileAt Mm Za b (by have : b + 3 < 8 := hN2 ⟨b + 3, h3⟩; omega))
          + tileAt Mm Za (b + 1) (by have : b + 3 < 8 := hN2 ⟨b + 3, h3⟩; omega))
          + tileAt Mm Za (b + 2) (by have : b + 3 < 8 := hN2 ⟨b + 3, h3⟩; omega))
          + tileAt Mm Za (b + 3) (hN2 ⟨b + 3, h3⟩) := by
  have h0 : b < cfg2.N := by omega
  have e0 := corner_first V c Mm Za hM hZ ⟨b, h0⟩ hb
  have e1 := corner_succ V c Mm Za hM hZ b (by omega) (by omega)
  have e2 := corner_succ V c Mm Za hM hZ (b + 1) (by omega) (by omega)
  have e3 := corner_succ V c Mm Za hM hZ (b + 2) h3 (by omega)
  rw [e3, e2, e1]
  exact congrArg (fun x : EReal => ((x + _) + _) + _) e0

end Corner

/-! ## (c) The output array after the region -/

/-- The two points that write the output back write disjoint blocks (rows 0–7 and rows 8–15). -/
theorem disj2 : ∀ t t' : Fin cfg2.N, (cfg2.win 2).flush t = true → (cfg2.win 2).flush t' = true → t ≠ t' →
    Disjoint ((cfg2.win 2).blk t).view.set ((cfg2.win 2).blk t').view.set := by
  intro t t' hf hf' hne
  have h3 := (flush2_2 t).mp hf
  have h3' := (flush2_2 t').mp hf'
  show Disjoint ((View.whole main_v6).slice (win2_2.rect t)).set ((View.whole main_v6).slice (win2_2.rect t')).set
  rw [View.set_slice_whole, View.set_slice_whole]
  refine Rect.unit_disjoint (0 : Fin 2) ?_
  show win2_2.index t 0 * 8 + 8 ≤ win2_2.index t' 0 * 8 ∨ win2_2.index t' 0 * 8 + 8 ≤ win2_2.index t 0 * 8
  rw [(idx2_2 t).1, (idx2_2 t').1]
  have := hN2 t
  have := hN2 t'
  have : t.val ≠ t'.val := fun e => hne (Fin.ext e)
  omega

/-- An entry of the block a writing point `t` covers holds, after the region, the accumulator after `t`. -/
theorem arr2_emb (c : Dev nD) (t : Fin cfg2.N) (hf : (cfg2.win 2).flush t = true) (y : S8x128.Idx) :
    (dat2 V c).arrAt 2 cfg2.N (((cfg2.win 2).blk t).view.emb y) = scAt V c t.val t.isLt y := by
  refine ((dat2 V c).arrAt_emb_eq_flushed 2 disj2 t hf y).trans ?_
  show (cfg2.win 2).cut (grid2.coords t) ((dat2 V c).after 2 t) y = _
  rw [after2_2]
  rfl

section Halves
variable (c : Dev nD) (Mm : Vec Ideal S2x2049 .f32) (Za : Vec Ideal S2049x8193 .f32)
  (hM : V c main_v5_0 = Mm) (hZ : V c main_arg0 = Za)
include hM hZ

/-- Entry (0, 0) of the output array: the first half's four tile sums, added up in order from zero. -/
theorem P_half0 :
    asVec S16x128 ((dat2 V c).arrAt 2 cfg2.N) (ix2 (0 : Fin 16) (0 : Fin 128))
      = ((((0 : EReal) + T Mm Za 0 0) + T Mm Za 0 1) + T Mm Za 0 2) + T Mm Za 0 3 := by
  have hemb : ((cfg2.win 2).blk t2_3).view.emb (ix2 (0 : Fin 8) (0 : Fin 128)) = ix2 (0 : Fin 16) (0 : Fin 128) := by
    funext a; apply Fin.ext
    match a with
    | ⟨0, _⟩ => show win2_2.index t2_3 0 * 8 + 1 * 0 = 0; rw [(idx2_2 t2_3).1]; rfl
    | ⟨1, _⟩ => show win2_2.index t2_3 1 * 128 + 1 * 0 = 0; rw [(idx2_2 t2_3).2]
  have e := arr2_emb V c t2_3 ((flush2_2 t2_3).mpr rfl) (ix2 (0 : Fin 8) (0 : Fin 128))
  rw [hemb] at e
  refine e.trans ?_
  refine (corner_run V c Mm Za hM hZ 0 rfl t2_3.isLt).trans ?_
  rw [← tileAt_eq_T Mm Za 0 0 (by decide), ← tileAt_eq_T Mm Za 0 1 (by decide), ← tileAt_eq_T Mm Za 0 2 (by decide),
    ← tileAt_eq_T Mm Za 0 3 (by decide)]
  rfl

/-- Entry (8, 0) of the output array: the second half's four tile sums, added up in order from zero. -/
theorem P_half1 :
    asVec S16x128 ((dat2 V c).arrAt 2 cfg2.N) (ix2 (8 : Fin 16) (0 : Fin 128))
      = ((((0 : EReal) + T Mm Za 1 0) + T Mm Za 1 1) + T Mm Za 1 2) + T Mm Za 1 3 := by
  have hemb : ((cfg2.win 2).blk t2_7).view.emb (ix2 (0 : Fin 8) (0 : Fin 128)) = ix2 (8 : Fin 16) (0 : Fin 128) := by
    funext a; apply Fin.ext
    match a with
    | ⟨0, _⟩ => show win2_2.index t2_7 0 * 8 + 1 * 0 = 8; rw [(idx2_2 t2_7).1]; rfl
    | ⟨1, _⟩ => show win2_2.index t2_7 1 * 128 + 1 * 0 = 0; rw [(idx2_2 t2_7).2]
  have e := arr2_emb V c t2_7 ((flush2_2 t2_7).mpr rfl) (ix2 (0 : Fin 8) (0 : Fin 128))
  rw [hemb] at e
  refine e.trans ?_
  refine (corner_run V c Mm Za hM hZ 4 rfl t2_7.isLt).trans ?_
  rw [← tileAt_eq_T Mm Za 1 0 (by decide), ← tileAt_eq_T Mm Za 1 1 (by decide), ← tileAt_eq_T Mm Za 1 2 (by decide),
    ← tileAt_eq_T Mm Za 1 3 (by decide)]
  rfl

end Halves

end Cert.KernelIdeal.HandValue

end
-- ==== Proof.KernelResult.lean ====
/-
  The kernel's result is the specification's number.

  Region 2 is entered with the two-row matrix region 1 wrote, whose rows are `kz` and the last row `v` of `V`, and with
  `Z`.  For each of the two halves it adds, onto zero and one tile after another, the four tiles' sums of
  `(∑ p, kz p · Z[p,j]) · (∑ p, v p · Z[p,j])` over the 1024 columns `j` of the tile, and leaves the two totals at the
  entries (0,0) and (8,0) of its output.  A tile's sum is the specification's `tile`, and four tiles added onto zero are
  the specification's `half`; with the last operations of the program this gives the specification's number.
-/
import proofs.«147252_j55800215109664_2_alg».proof.Proof.KernelValue
import proofs.«147252_j55800215109664_2_alg».proof.Proof.R2Array

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx

open Cert.Spec in
/-- One tile over typed arrays: a two-row matrix whose rows are `kz` and `vl`, against the tile's columns of `Z`. -/
theorem tile_of (Z : Vec Ideal SZ .f32) (V K Q : Vec Ideal SP .f32) (Mm : Vec Ideal S2x2049 .f32)
    (Za : Vec Ideal S2049x8193 .f32) (h0 : ∀ p, Mm (ix2 (0 : Fin 2) p) = kz Z K Q p)
    (h1 : ∀ p, Mm (ix2 (1 : Fin 2) p) = vl V p) (hZ : Za = Z) (h : Fin 2) (k : Fin 4) :
    (∑ l : Fin 1024, (∑ p : Fin 2049, Mm (ix2 (0 : Fin 2) p) * Za (ix2 p (col h k l)))
        * (∑ p : Fin 2049, Mm (ix2 (1 : Fin 2) p) * Za (ix2 p (col h k l))))
      = tile Z V K Q h k := by
  subst hZ
  unfold tile mz0 mz1
  refine Finset.sum_congr rfl fun l _ => congrArg₂ (fun a b : EReal => a * b) ?_ ?_
  · exact Finset.sum_congr rfl fun p _ => by rw [h0]
  · exact Finset.sum_congr rfl fun p _ => by rw [h1]

variable (m : (ℓ : Loc nD τ sig) → Buf (Elt Ideal) ℓ) (ρ : Dev nD → PrngReg)

/-- A tile of region 2, at the contents it is entered with, is the specification's tile. -/
theorem tile_eq (c : Dev nD) (h : Fin 2) (k : Fin 4) :
    T (V3 m ρ c main_v5_0) (V3 m ρ c main_arg0) h k
      = Cert.Spec.tile (m ((c : Thread nD τ).loc main_arg0)) (m ((c : Thread nD τ).loc main_arg1))
          (m ((c : Thread nD τ).loc main_arg2)) (m ((c : Thread nD τ).loc main_arg3)) h k := by
  unfold T
  exact tile_of _ _ _ _ (V3 m ρ c main_v5_0) (V3 m ρ c main_arg0) (fun p => M_row0 m ρ c p)
    (fun p => M_row1 m ρ c p) ((V3_main_arg0 m ρ c).trans (V1_main_arg0 m ρ c)) h k

/-- The entry (0,0) of region 2's output is the first half's sum. -/
theorem P_half0_eq (c : Dev nD) :
    (dat2 (V3 m ρ) c).arrAt 2 cfg2.N (ix2 (0 : Fin 16) (0 : Fin 128))
      = Cert.Spec.half (m ((c : Thread nD τ).loc main_arg0)) (m ((c : Thread nD τ).loc main_arg1))
          (m ((c : Thread nD τ).loc main_arg2)) (m ((c : Thread nD τ).loc main_arg3)) 0 := by
  refine (P_half0 (V3 m ρ) c (V3 m ρ c main_v5_0) (V3 m ρ c main_arg0) rfl rfl).trans ?_
  refine Eq.trans ?_ (half_eq_fold _ _ _ _ 0)
  exact congrArg₂ (fun a b : EReal => a + b) (congrArg₂ (fun a b : EReal => a + b)
    (congrArg₂ (fun a b : EReal => a + b) (congrArg (fun a : EReal => 0 + a) (tile_eq m ρ c 0 0)) (tile_eq m ρ c 0 1))
    (tile_eq m ρ c 0 2)) (tile_eq m ρ c 0 3)

/-- The entry (8,0) of region 2's output is the second half's sum. -/
theorem P_half1_eq (c : Dev nD) :
    (dat2 (V3 m ρ) c).arrAt 2 cfg2.N (ix2 (8 : Fin 16) (0 : Fin 128))
      = Cert.Spec.half (m ((c : Thread nD τ).loc main_arg0)) (m ((c : Thread nD τ).loc main_arg1))
          (m ((c : Thread nD τ).loc main_arg2)) (m ((c : Thread nD τ).loc main_arg3)) 1 := by
  refine (P_half1 (V3 m ρ) c (V3 m ρ c main_v5_0) (V3 m ρ c main_arg0) rfl rfl).trans ?_
  refine Eq.trans ?_ (half_eq_fold _ _ _ _ 1)
  exact congrArg₂ (fun a b : EReal => a + b) (congrArg₂ (fun a b : EReal => a + b)
    (congrArg₂ (fun a b : EReal => a + b) (congrArg (fun a : EReal => 0 + a) (tile_eq m ρ c 1 0)) (tile_eq m ρ c 1 1))
    (tile_eq m ρ c 1 2)) (tile_eq m ρ c 1 3)

/-- The result buffer holds the specification's number. -/
theorem kernel_value' (c : Dev nD) :
    W5 m ρ c (Proc.devRef .tc main_v14)
      = fun _ => Cert.Spec.result (m ((c : Thread nD τ).loc main_arg0)) (m ((c : Thread nD τ).loc main_arg1))
          (m ((c : Thread nD τ).loc main_arg2)) (m ((c : Thread nD τ).loc main_arg3)) :=
  kernel_value m ρ c (P_half0_eq m ρ c) (P_half1_eq m ρ c)

end Cert.KernelIdeal.HandValue

end
-- ==== Proof.Reals.lean ====
/-
  Arrays of real numbers, and how the finiteness test reads at one entry.

  An entry of an array of extended reals is a real number when it is neither infinity.  The finiteness test compares
  the absolute value `max x (-x)` of an entry with the constant whose word is `0x7F800000`, which is `+∞`: the
  comparison holds exactly when `x` is a real number, since `max ⊥ ⊤ = max ⊤ ⊥ = ⊤` is not below `⊤`.
-/
import Idealize.ShloMosaic.PureOps.Ideal

noncomputable section

namespace Cert.RefSide

open Idealize.ShloMosaic

/-- Every entry of the array is a real number (neither infinity). -/
def IsReal {S : Shape} (x : Vec Ideal S .f32) : Prop := ∀ i, ∃ r : ℝ, x i = (r : EReal)

/-- The word `0x7F800000` (exponent field all ones, significand field zero, sign clear) is `+∞`. -/
theorem inf_word : Ideal.ofBits .f32 0x7F800000#32 = ⊤ := by simp [Ideal.ofBits, Ideal.ieee]

/-- An extended real whose absolute value is below `+∞` is a real number. -/
theorem real_of_abs_lt (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

end Cert.RefSide

end
-- ==== Proof.RefAlgebra.lean ====
/-
  The law that joins the two arrangements of one number.

  Let `z` be a matrix with rows `p` and columns `j`, with a distinguished column `j₀`; let `v` be a row vector and
  `k`, `q` two matrices with rows `i` and columns `p`.  One arrangement forms, for every column `j`,
  `(∑ p, v p · z p j) · ((∑ i, (∑ a, k i a · z a j) · (∑ b, q i b · z b j₀)) / d)` and sums over `j`: the quotient is
  taken column by column.  The other first folds `q` against the column `j₀`, then `k` against that vector, then
  `z`'s column `j` against the result, sums the products with `∑ p, v p · z p j` over `j`, and divides the total once.

  In the extended reals a factor moves across a sum only when no term is infinite, so the law is stated for entries
  that are real numbers.  There it is an identity of the commutative ring `ℝ`: exchange the sums over `i` and over
  the row index of `z`, and pull the common factor `1 / d` out of the sum over `j`.
-/
import Idealize.ShloMosaic.PureOps.Ideal

noncomputable section

namespace Cert.RefSide

open Idealize.ShloMosaic

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law in `ℝ`: the inner sums exchanged, the factor `1 / d` pulled out of the outer sum. -/
theorem real_law {P I J : Type} [Fintype P] [Fintype I] [Fintype J]
    (z : P → J → ℝ) (v : P → ℝ) (k q : I → P → ℝ) (j₀ : J) (d : ℝ) :
    ∑ j, (∑ p, v p * z p j) * ((∑ i, (∑ a, k i a * z a j) * (∑ b, q i b * z b j₀)) * (1 / d))
      = (∑ j, (∑ p, (∑ i, (∑ b, z b j₀ * q i b) * k i p) * z p j) * (∑ p, v p * z p j)) * (1 / d) := by
  have hC : ∀ i, ∑ b, z b j₀ * q i b = ∑ b, q i b * z b j₀ :=
    fun i => Finset.sum_congr rfl fun b _ => mul_comm _ _
  have hB : ∀ j, ∑ p, (∑ i, (∑ b, z b j₀ * q i b) * k i p) * z p j
      = ∑ i, (∑ a, k i a * z a j) * (∑ b, q i b * z b j₀) := fun j => by
    simp only [hC]
    calc ∑ p, (∑ i, (∑ b, q i b * z b j₀) * k i p) * z p j
        = ∑ p, ∑ i, (∑ b, q i b * z b j₀) * k i p * z p j :=
          Finset.sum_congr rfl fun p _ => Finset.sum_mul _ _ _
      _ = ∑ i, ∑ p, (∑ b, q i b * z b j₀) * k i p * z p j := Finset.sum_comm
      _ = ∑ i, (∑ a, k i a * z a j) * (∑ b, q i b * z b j₀) :=
          Finset.sum_congr rfl fun i _ => by
            rw [Finset.sum_mul]
            exact Finset.sum_congr rfl fun a _ => by ring
  rw [Finset.sum_mul]
  refine Finset.sum_congr rfl fun j _ => ?_
  rw [hB j]
  ring

/-- The law on the extended reals, for real entries and a nonzero real divisor. -/
theorem ereal_law {P I J : Type} [Fintype P] [Fintype I] [Fintype J]
    (z : P → J → EReal) (v : P → EReal) (k q : I → P → EReal) (j₀ : J) {d : ℝ} (hd : d ≠ 0)
    (hz : ∀ p j, ∃ r : ℝ, z p j = (r : EReal)) (hv : ∀ p, ∃ r : ℝ, v p = (r : EReal))
    (hk : ∀ i p, ∃ r : ℝ, k i p = (r : EReal)) (hq : ∀ i p, ∃ r : ℝ, q i p = (r : EReal)) :
    ∑ j, (∑ p, v p * z p j) * Ideal.div (∑ i, (∑ a, k i a * z a j) * (∑ b, q i b * z b j₀)) (d : EReal)
      = Ideal.div (∑ j, (∑ p, (∑ i, (∑ b, z b j₀ * q i b) * k i p) * z p j) * (∑ p, v p * z p j)) (d : EReal) := by
  choose z' hz' using hz
  choose v' hv' using hv
  choose k' hk' using hk
  choose q' hq' using hq
  simp only [hz', hv', hk', hq', Ideal.div_coe hd, ← EReal.coe_mul, ← coe_sum]
  exact congrArg _ (real_law z' v' k' q' j₀ d)

end Cert.RefSide

end
-- ==== Proof.LibBlockSums.lean ====
/-
  Two laws of finite sums in an additive commutative monoid (no finiteness of the values is needed, so they
  hold in the extended reals as they stand): a sum over n·b indices is the sum over the n blocks of the sums
  within each block, and an accumulator that adds one term per step holds the partial sum.
-/
import Idealize.ShloMosaic.PureOps.Ideal
import Mathlib.Algebra.BigOperators.Fin
import Mathlib.Logic.Equiv.Fin.Basic

open scoped BigOperators

namespace Cert.BlockSums

/-- The `j`-th index of block `t`, among `n` blocks of `b` indices each, is below `n * b`. -/
theorem blk_lt {n b : ℕ} (t : Fin n) (j : Fin b) : t.val * b + j.val < n * b :=
  calc t.val * b + j.val < t.val * b + b := Nat.add_lt_add_left j.isLt _
    _ = (t.val + 1) * b := (Nat.succ_mul _ _).symm
    _ ≤ n * b := Nat.mul_le_mul_right b t.isLt

/-- a sum over n·b indices is the sum over n blocks of the sums over each block's b indices -/
theorem sum_blocks {M : Type*} [AddCommMonoid M] (n b : ℕ) (f : Fin (n * b) → M) :
    ∑ i : Fin (n * b), f i = ∑ t : Fin n, ∑ j : Fin b, f ⟨t.val * b + j.val, blk_lt t j⟩ := by
  rw [← Equiv.sum_comp (finProdFinEquiv (m := n) (n := b)) f, Fintype.sum_prod_type]
  refine Finset.sum_congr rfl fun t _ => Finset.sum_congr rfl fun j _ => ?_
  refine congrArg f (Fin.ext ?_)
  show j.val + b * t.val = t.val * b + j.val
  rw [Nat.mul_comm, Nat.add_comm]

/-- 4096 indices are 8 blocks of 512. -/
theorem sum_blocks_4096 {M : Type*} [AddCommMonoid M] (f : Fin 4096 → M) :
    ∑ i : Fin 4096, f i = ∑ t : Fin 8, ∑ j : Fin 512, f ⟨t.val * 512 + j.val, by
      have := t.isLt; have := j.isLt; omega⟩ :=
  sum_blocks 8 512 f

/-- 16384 indices are 16 blocks of 1024. -/
theorem sum_blocks_16384 {M : Type*} [AddCommMonoid M] (f : Fin 16384 → M) :
    ∑ k : Fin 16384, f k = ∑ t : Fin 16, ∑ j : Fin 1024, f ⟨t.val * 1024 + j.val, by
      have := t.isLt; have := j.isLt; omega⟩ :=
  sum_blocks 16 1024 f

/-- an accumulator that starts at zero-plus-first-block and adds one block per step holds the sum of the blocks so far -/
theorem acc_eq_sum {M : Type*} [AddCommMonoid M] (p : ℕ → M) (acc : ℕ → M) (h0 : acc 0 = 0 + p 0)
    (hs : ∀ n, acc (n + 1) = acc n + p (n + 1)) (n : ℕ) :
    acc n = ∑ k ∈ Finset.range (n + 1), p k := by
  induction n with
  | zero => rw [h0, zero_add, Finset.sum_range_one]
  | succ n ih => rw [Finset.sum_range_succ _ (n + 1), hs, ih]

/-- after the last step the accumulator holds the sum of all the blocks -/
theorem acc_last {M : Type*} [AddCommMonoid M] (N : ℕ) (p : ℕ → M) (acc : ℕ → M) (h0 : acc 0 = 0 + p 0)
    (hs : ∀ n, acc (n + 1) = acc n + p (n + 1)) :
    acc N = ∑ t : Fin (N + 1), p t.val := by
  rw [acc_eq_sum p acc h0 hs N, Finset.sum_range]

end Cert.BlockSums
-- ==== Proof.ColumnSplit.lean ====
/-
  The 8193 columns, cut as both programs cut them.

  The first 8192 columns are two halves of four tiles of 1024 columns each, column `l` of tile `k` of half `c` being
  `4096 c + 1024 k + l`; the last column, 8192, stands by itself.  A sum over all the columns is therefore the sum of
  the two halves' tile sums plus the last column's term.  Only the commutative monoid structure of the values is
  used, so this holds in the extended reals with no finiteness.
-/
import proofs.«147252_j55800215109664_2_alg».proof.Proof.Spec
import proofs.«147252_j55800215109664_2_alg».proof.Proof.LibBlockSums

namespace Cert.RefSide

open Cert.Spec

/-- A sum over the first 8192 columns is the sum over the halves, the tiles of a half, and the columns of a tile. -/
theorem sum_tiles {M : Type*} [AddCommMonoid M] (f : Fin 8193 → M) :
    ∑ i : Fin 8192, f i.castSucc = ∑ c : Fin 2, ∑ k : Fin 4, ∑ l : Fin 1024, f (col c k l) := by
  refine (Cert.BlockSums.sum_blocks 2 4096 (fun i : Fin 8192 => f i.castSucc)).trans ?_
  refine Finset.sum_congr rfl fun c _ => ?_
  refine (Cert.BlockSums.sum_blocks 4 1024
    (fun j : Fin 4096 => f (Fin.castSucc ⟨c.val * 4096 + j.val, Cert.BlockSums.blk_lt c j⟩))).trans ?_
  refine Finset.sum_congr rfl fun k _ => Finset.sum_congr rfl fun l _ => congrArg f (Fin.ext ?_)
  show c.val * 4096 + (k.val * 1024 + l.val) = c.val * 4096 + k.val * 1024 + l.val
  omega

/-- A sum over all 8193 columns: the two halves' tile sums, and the last column's term. -/
theorem sum_columns {M : Type*} [AddCommMonoid M] (f : Fin 8193 → M) :
    ∑ j : Fin 8193, f j
      = ((∑ k : Fin 4, ∑ l : Fin 1024, f (col 0 k l)) + (∑ k : Fin 4, ∑ l : Fin 1024, f (col 1 k l)))
        + f (8192 : Fin 8193) := by
  rw [Fin.sum_univ_castSucc (n := 8192), sum_tiles, Fin.sum_univ_two]
  rfl

end Cert.RefSide
-- ==== Proof.RefRead.lean ====
/-
  The reference, read entry by entry.

  The reference forms `VZ = V · Z`, `KZ = K · Z`, `QZ = Q · Z` (each 2049 × 8193), the 8193 × 8193 matrix
  `KZᵀ · QZ` divided entrywise by 8192, the product of `VZ` with that matrix, and returns its entry in the last row
  (2048) and last column (8192).  Written out, that entry is
  `∑ j, (∑ p, V[2048,p] · Z[p,j]) · ((∑ i, (∑ a, K[i,a] · Z[a,j]) · (∑ b, Q[i,b] · Z[b,8192])) / 8192)`,
  the sum over the 8193 columns `j` of `Z`.  Each step below reads one operation of the reference at an index given
  by its coordinates; no algebra is done here, the sums stay as the operations form them.
-/
import proofs.«147252_j55800215109664_2_alg».proof.Proof.Spec
import proofs.«147252_j55800215109664_2_alg».proof.Proof.Gen.ReferenceIdeal.Read

noncomputable section

namespace Cert.RefSide

open Cert.ReferenceIdeal Cert.ReferenceIdeal.Gen Cert.ReferenceIdeal.Read Idealize.ShloMosaic Idealize.ShloMosaic.ValueIdx

variable (Z : Vec Ideal Cert.Spec.SZ .f32) (V K Q : Vec Ideal Cert.Spec.SP .f32)

/-! ## The index maps of the matrix products, at coordinates -/

theorem lidx_v0 (r : Fin 2049) (j : Fin 8193) (p : Fin 2049) : lidx_main_v0 (ix2 r j) p = ix2 r p :=
  funext fun a => match a with | ⟨0, _⟩ => rfl | ⟨1, _⟩ => rfl
theorem ridx_v0 (r : Fin 2049) (j : Fin 8193) (p : Fin 2049) : ridx_main_v0 (ix2 r j) p = ix2 p j :=
  funext fun a => match a with | ⟨0, _⟩ => rfl | ⟨1, _⟩ => rfl
theorem lidx_v1 (r : Fin 2049) (j : Fin 8193) (p : Fin 2049) : lidx_main_v1 (ix2 r j) p = ix2 r p :=
  funext fun a => match a with | ⟨0, _⟩ => rfl | ⟨1, _⟩ => rfl
theorem ridx_v1 (r : Fin 2049) (j : Fin 8193) (p : Fin 2049) : ridx_main_v1 (ix2 r j) p = ix2 p j :=
  funext fun a => match a with | ⟨0, _⟩ => rfl | ⟨1, _⟩ => rfl
theorem lidx_v2 (r : Fin 2049) (j : Fin 8193) (p : Fin 2049) : lidx_main_v2 (ix2 r j) p = ix2 r p :=
  funext fun a => match a with | ⟨0, _⟩ => rfl | ⟨1, _⟩ => rfl
theorem ridx_v2 (r : Fin 2049) (j : Fin 8193) (p : Fin 2049) : ridx_main_v2 (ix2 r j) p = ix2 p j :=
  funext fun a => match a with | ⟨0, _⟩ => rfl | ⟨1, _⟩ => rfl
theorem idx_v3 (j : Fin 8193) (i : Fin 2049) : idx_main_v3 (ix2 j i) = ix2 i j :=
  funext fun a => match a with | ⟨0, _⟩ => rfl | ⟨1, _⟩ => rfl
theorem lidx_v4 (j j' : Fin 8193) (i : Fin 2049) : lidx_main_v4 (ix2 j j') i = ix2 j i :=
  funext fun a => match a with | ⟨0, _⟩ => rfl | ⟨1, _⟩ => rfl
theorem ridx_v4 (j j' : Fin 8193) (i : Fin 2049) : ridx_main_v4 (ix2 j j') i = ix2 i j' :=
  funext fun a => match a with | ⟨0, _⟩ => rfl | ⟨1, _⟩ => rfl
theorem lidx_v7 (r : Fin 2049) (j' j : Fin 8193) : lidx_main_v7 (ix2 r j') j = ix2 r j :=
  funext fun a => match a with | ⟨0, _⟩ => rfl | ⟨1, _⟩ => rfl
theorem ridx_v7 (r : Fin 2049) (j' j : Fin 8193) : ridx_main_v7 (ix2 r j') j = ix2 j j' :=
  funext fun a => match a with | ⟨0, _⟩ => rfl | ⟨1, _⟩ => rfl
/-- The slice `[2048:2049, 8192:8193]` has one entry, the last row's last column. -/
theorem idx_v8 (i : S1x1.Idx) : idx_main_v8 i = ix2 (2048 : Fin 2049) (8192 : Fin 8193) := by
  have h0 : (i 0).val < 1 := (i 0).isLt
  have h1 : (i 1).val < 1 := (i 1).isLt
  funext a
  match a with
  | ⟨0, _⟩ => exact Fin.ext (by show 2048 + (i 0).val = 2048; omega)
  | ⟨1, _⟩ => exact Fin.ext (by show 8192 + (i 1).val = 8192; omega)

/-! ## The operations, at coordinates -/

/-- `V · Z` at row `r`, column `j`. -/
theorem v0_at (r : Fin 2049) (j : Fin 8193) :
    val_main_v0 (F := Ideal) Z V (ix2 r j) = ∑ p : Fin 2049, (V (ix2 r p) * Z (ix2 p j) : EReal) := by
  rw [val_main_v0_apply]
  exact Finset.sum_congr rfl fun p _ => by rw [lidx_v0, ridx_v0]

/-- `K · Z` at row `i`, column `j`. -/
theorem v1_at (i : Fin 2049) (j : Fin 8193) :
    val_main_v1 (F := Ideal) Z K (ix2 i j) = ∑ a : Fin 2049, (K (ix2 i a) * Z (ix2 a j) : EReal) := by
  rw [val_main_v1_apply]
  exact Finset.sum_congr rfl fun p _ => by rw [lidx_v1, ridx_v1]

/-- `Q · Z` at row `i`, column `j`. -/
theorem v2_at (i : Fin 2049) (j : Fin 8193) :
    val_main_v2 (F := Ideal) Z Q (ix2 i j) = ∑ b : Fin 2049, (Q (ix2 i b) * Z (ix2 b j) : EReal) := by
  rw [val_main_v2_apply]
  exact Finset.sum_congr rfl fun p _ => by rw [lidx_v2, ridx_v2]

/-- `(K · Z)ᵀ · (Q · Z)` at row `j`, column `j'`. -/
theorem v4_at (j j' : Fin 8193) :
    val_main_v4 (F := Ideal) Z K Q (ix2 j j')
      = ∑ i : Fin 2049, ((∑ a : Fin 2049, (K (ix2 i a) * Z (ix2 a j) : EReal))
          * (∑ b : Fin 2049, (Q (ix2 i b) * Z (ix2 b j') : EReal)) : EReal) := by
  rw [val_main_v4_apply]
  exact Finset.sum_congr rfl fun i _ => by
    rw [lidx_v4, ridx_v4, val_main_v3_apply, idx_v3, v1_at, v2_at]

/-- That matrix divided by the constant whose word is `0x46000000`, at row `j`, column `j'`. -/
theorem v6_at (j j' : Fin 8193) :
    val_main_v6 (F := Ideal) Z K Q (ix2 j j')
      = Ideal.div (∑ i : Fin 2049, ((∑ a : Fin 2049, (K (ix2 i a) * Z (ix2 a j) : EReal))
          * (∑ b : Fin 2049, (Q (ix2 i b) * Z (ix2 b j') : EReal)) : EReal)) (Ideal.ofBits .f32 0x46000000#32) := by
  rw [val_main_v6_apply, val_main_v5_apply, val_main_cst_apply, v4_at, Ideal.hostDivf_def, Ideal.ofBits_def]

/-- `(V · Z)` times the divided matrix, at row `r`, column `j'`. -/
theorem v7_at (r : Fin 2049) (j' : Fin 8193) :
    val_main_v7 (F := Ideal) Z V K Q (ix2 r j')
      = ∑ j : Fin 8193, ((∑ p : Fin 2049, (V (ix2 r p) * Z (ix2 p j) : EReal))
          * Ideal.div (∑ i : Fin 2049, ((∑ a : Fin 2049, (K (ix2 i a) * Z (ix2 a j) : EReal))
              * (∑ b : Fin 2049, (Q (ix2 i b) * Z (ix2 b j') : EReal)) : EReal)) (Ideal.ofBits .f32 0x46000000#32) : EReal) := by
  rw [val_main_v7_apply]
  exact Finset.sum_congr rfl fun j _ => by rw [lidx_v7, ridx_v7, v0_at, v6_at]

/-- The number the reference returns: the entry of the last row and last column. -/
def refValue : EReal :=
  ∑ j : Fin 8193, ((∑ p : Fin 2049, (V (ix2 (2048 : Fin 2049) p) * Z (ix2 p j) : EReal))
    * Ideal.div (∑ i : Fin 2049, ((∑ a : Fin 2049, (K (ix2 i a) * Z (ix2 a j) : EReal))
        * (∑ b : Fin 2049, (Q (ix2 i b) * Z (ix2 b (8192 : Fin 8193)) : EReal)) : EReal)) (Ideal.ofBits .f32 0x46000000#32) : EReal)

/-- The reference's rank-0 result holds `refValue` at its one index. -/
theorem ref_read : val_main_v9 (F := Ideal) Z V K Q = fun _ => refValue Z V K Q := by
  funext i
  have hk : (S1x1.rowMajor (ix2 (0 : Fin 1) (0 : Fin 1))).val = (S_.rowMajor i).val := by
    rw [Shape.rowMajor_val_two]
    exact (Shape.rowMajorPi_zero _ _).symm
  unfold val_main_v9
  rw [shapeCast_apply _ shapeCasts_S1x1_S_ i (ix2 (0 : Fin 1) (0 : Fin 1)) hk, val_main_v8_apply, idx_v8, v7_at]
  rfl

end Cert.RefSide

end
-- ==== Proof.RefIsSpec.lean ====
/-
  The reference returns the specification's number.

  The reference's entry is `∑ j, (∑ p, V[2048,p] · Z[p,j]) · ((∑ i, (∑ a, K[i,a] · Z[a,j]) · (∑ b, Q[i,b] · Z[b,8192])) / 8192)`
  over the 8193 columns `j` of `Z`.  The specification folds `Q` against the last column of `Z` first, then `K`
  against that vector, then each column of `Z` against the result, cuts the columns into 2 · 4 tiles of 1024 and the
  last column, and divides the total once.  The two agree when every entry of the four arrays is a real number:
  then the quotient by the nonzero real 8192 is a product with `1 / 8192`, which moves out of the sum over `j`, and the
  sums over `i` and over the rows of `Z` exchange.  Cutting the sum over the columns into tiles needs no finiteness.
-/
import proofs.«147252_j55800215109664_2_alg».proof.Proof.Spec
import proofs.«147252_j55800215109664_2_alg».proof.Proof.Reals
import proofs.«147252_j55800215109664_2_alg».proof.Proof.RefAlgebra
import proofs.«147252_j55800215109664_2_alg».proof.Proof.ColumnSplit
import proofs.«147252_j55800215109664_2_alg».proof.Proof.RefRead

noncomputable section

namespace Cert.RefSide

open Idealize.ShloMosaic Idealize.ShloMosaic.ValueIdx Cert.Spec

/-- The word `0x46000000` is the real number 8192 = 2¹³ (exponent field 140, significand field 0). -/
theorem divisor_eq : Ideal.ofBits .f32 0x46000000#32 = ((8192 : ℝ) : EReal) := by
  simp [Ideal.ofBits, Ideal.ieee, -EReal.coe_mul]
  norm_num

/-- The reference's number is the specification's, for real entries. -/
theorem refValue_eq_result (Z : Vec Ideal SZ .f32) (V K Q : Vec Ideal SP .f32)
    (hZ : IsReal Z) (hV : IsReal V) (hK : IsReal K) (hQ : IsReal Q) :
    refValue Z V K Q = result Z V K Q := by
  unfold refValue result half tile lastTerm mz0 mz1 kz qz zl vl
  rw [divisor_eq]
  refine (ereal_law (fun p j => Z (ix2 p j)) (fun p => V (ix2 (2048 : Fin 2049) p)) (fun i p => K (ix2 i p))
    (fun i p => Q (ix2 i p)) (8192 : Fin 8193) (d := 8192) (by norm_num)
    (fun p j => hZ _) (fun p => hV _) (fun i p => hK _) (fun i p => hQ _)).trans ?_
  refine congrArg (fun x => Ideal.div x ((8192 : ℝ) : EReal)) ?_
  exact sum_columns (fun j : Fin 8193 =>
    ((∑ p : Fin 2049, (∑ i : Fin 2049, (∑ b : Fin 2049, Z (ix2 b (8192 : Fin 8193)) * Q (ix2 i b)) * K (ix2 i p)) * Z (ix2 p j))
      * (∑ p : Fin 2049, V (ix2 (2048 : Fin 2049) p) * Z (ix2 p j)) : EReal))

/-- The reference's rank-0 result is the specification's number at its one index, for real entries. -/
theorem ref_eq_result (Z : Vec Ideal SZ .f32) (V K Q : Vec Ideal SP .f32)
    (hZ : IsReal Z) (hV : IsReal V) (hK : IsReal K) (hQ : IsReal Q) :
    Cert.ReferenceIdeal.Read.val_main_v9 (F := Ideal) Z V K Q = fun _ => result Z V K Q := by
  rw [ref_read, refValue_eq_result Z V K Q hZ hV hK hQ]

end Cert.RefSide

end
-- ==== Proof.FiniteInputs.lean ====
/-
  From the finiteness precondition to "every entry is a real number".

  The precondition is the conjunction, over the four argument arrays, of "every entry's absolute value is below
  `+∞`": for each array an elementwise comparison of `|x|` with the constant `+∞`, reduced by `and` over both axes to
  one bit, and the four bits joined by `and`.  The result being 1 gives each of the four bits, each bit gives its
  array's comparison at every index, and a comparison `|x| < +∞` that holds says `x` is a real number.
-/
import proofs.«147252_j55800215109664_2_alg».proof.Defs
import proofs.«147252_j55800215109664_2_alg».proof.Proof.Gen.Pre_finite_inputs
import proofs.«147252_j55800215109664_2_alg».proof.Proof.Reals
import Idealize.ShloMosaic.Lib.ReduceAll
import Idealize.ShloMosaic.Lib.ValueIdx

noncomputable section

namespace Cert.RefSide

open Idealize.ShloMosaic Idealize.SL.Sem

/-- The scalar shape has one index. -/
instance scalarIdxSubsingleton : Subsingleton Cert.Pre_finite_inputs.S_.Idx := ⟨fun _ _ => funext fun d => d.elim0⟩

/-- One entry of an array's test: the comparison of `|x i|` with `+∞` holds, so `x i` is a real number. -/
theorem entry_real {S : Shape} (hb : Cert.Pre_finite_inputs.S_.BroadcastsInDim S (![] : Fin 0 → Fin S.rank))
    (x : FVec Ideal S .f32) (i : S.Idx)
    (h : cmpf .olt (Host.absf x)
      (broadcastInDim S ![] hb (constant (F := Ideal) Cert.Pre_finite_inputs.S_ .f32 0x7F800000#32)) i = 1#1) :
    ∃ r : ℝ, x i = (r : EReal) :=
  real_of_abs_lt (x i) h

/-- The test, as a function of the four arrays, being all ones makes every entry of each a real number. -/
theorem real_of_test [Cert.Pre_finite_inputs.Facts]
    (x0 : FVec Ideal Cert.Pre_finite_inputs.S2049x8193 .f32) (x1 x2 x3 : FVec Ideal Cert.Pre_finite_inputs.S2049x2049 .f32)
    (h : Cert.Pre_finite_inputs.fn (F := Ideal) x0 x1 x2 x3 = fun _ => 1#1) :
    IsReal x0 ∧ IsReal x1 ∧ IsReal x2 ∧ IsReal x3 := by
  have h0 := congrFun h ValueIdx.ix0
  dsimp only [Cert.Pre_finite_inputs.fn, Cert.Pre_finite_inputs.fn_part1, andi] at h0
  obtain ⟨h13, h17⟩ := IntOp.andi_eq_one.1 h0
  obtain ⟨h8, h12⟩ := IntOp.andi_eq_one.1 h13
  obtain ⟨h3, h7⟩ := IntOp.andi_eq_one.1 h8
  exact ⟨fun i => entry_real _ x0 i (Host.reduce_andi_all _ _ _ _ _ h3 i),
    fun i => entry_real _ x1 i (Host.reduce_andi_all _ _ _ _ _ h7 i),
    fun i => entry_real _ x2 i (Host.reduce_andi_all _ _ _ _ _ h12 i),
    fun i => entry_real _ x3 i (Host.reduce_andi_all _ _ _ _ _ h17 i)⟩

/-- Under the kernel's precondition each of the four argument arrays, on every device, holds real numbers. -/
theorem real_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    IsReal (m ((c.tc : Thread Cert.KernelIdeal.nD Cert.KernelIdeal.τ).loc Cert.KernelIdeal.main_arg0))
    ∧ IsReal (m ((c.tc : Thread Cert.KernelIdeal.nD Cert.KernelIdeal.τ).loc Cert.KernelIdeal.main_arg1))
    ∧ IsReal (m ((c.tc : Thread Cert.KernelIdeal.nD Cert.KernelIdeal.τ).loc Cert.KernelIdeal.main_arg2))
    ∧ IsReal (m ((c.tc : Thread Cert.KernelIdeal.nD Cert.KernelIdeal.τ).loc Cert.KernelIdeal.main_arg3)) :=
  real_of_test _ _ _ _ (h c)

end Cert.RefSide

end
-- ==== Proof.RefOfPre.lean ====
/-
  Under the precondition, the reference applied to the kernel's argument arrays returns the specification's number.

  The precondition makes every entry of the four arrays a real number, and for real entries the reference's entry is
  the specification's: the two facts composed, at the arrays a device holds.
-/
import proofs.«147252_j55800215109664_2_alg».proof.Proof.RefIsSpec
import proofs.«147252_j55800215109664_2_alg».proof.Proof.FiniteInputs

noncomputable section

namespace Cert.RefSide

open Idealize.ShloMosaic Idealize.SL.Sem

theorem ref_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.ReferenceIdeal.Read.val_main_v9 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
      = fun _ => Cert.Spec.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) := by
  obtain ⟨h0, h1, h2, h3⟩ := real_of_pre m h c
  exact ref_eq_result _ _ _ _ h0 h1 h2 h3

end Cert.RefSide

end
-- ==== Proof.RefImports.lean ====
/-
  The reference is a straight-line host program: its run (every result at the operations' composed term of the
  arguments) and that term read at an index, one operation at a time.
-/
import proofs.«147252_j55800215109664_2_alg».proof.Proof.Gen.ReferenceIdeal.Run
import proofs.«147252_j55800215109664_2_alg».proof.Proof.Gen.ReferenceIdeal.Read
-- ==== Proof.lean ====
/-
  The certificate's claim, assembled.

  THE MATHEMATICS. With `Z` of shape [2049, 8193] and `V, K, Q` of shape [2049, 2049], the reference returns the last
  entry of `VZ · ((KZ)ᵀ · QZ / 8192)`. Picking out the last row and the last column turns this into vector
  contractions: with `z` the last column of `Z`, `v` the last row of `V`, `qz = Q z` and `kz = qzᵀ K`,
      result = ( Σ_j (kz · Z[:, j]) · (v · Z[:, j]) ) / 8192,      j over all 8193 columns,
  which is what the kernel computes: the first 8192 columns in 2 · 4 tiles of 1024 columns, each half accumulated in a
  scratch accumulator over its four tiles, and the last column from the vectors already at hand. Over the extended
  reals the two sides agree when every input entry is a real number (moving the division by 8192 across the outer sum,
  and exchanging the two inner sums, are laws of the reals): this is where the precondition is used.

  THE THREE FRAMES. The program runs a stretch of host operations, three kernel regions (`Q z`; `kz`, the stacked
  rows `[kz; v]` and the last column's term; the tiled reduction) and a closing stretch. Each region's body
  obligation is proved on its own staging buffers; the reduction's invariant carries the accumulator from grid point
  to grid point, its output block is written at a half's last tile only. The run of the five segments gives every
  unscoped buffer's final contents; read at the arguments it is the frame, read at the result buffer the value. The
  word-level program is the same text, and its frame the same proof. The reference is a straight-line host program.

  The idealization rewrote nothing, so there is nothing to preserve.
-/
import proofs.«147252_j55800215109664_2_alg».proof.Defs
import proofs.«147252_j55800215109664_2_alg».proof.Proof.Gen.Kernel
import proofs.«147252_j55800215109664_2_alg».proof.Proof.Gen.KernelIdeal
import proofs.«147252_j55800215109664_2_alg».proof.Proof.Gen.ReferenceIdeal
import proofs.«147252_j55800215109664_2_alg».proof.Proof.Gen.Pre_finite_inputs
import proofs.«147252_j55800215109664_2_alg».proof.Proof.RunK
import proofs.«147252_j55800215109664_2_alg».proof.Proof.Run
import proofs.«147252_j55800215109664_2_alg».proof.Proof.KernelResult
import proofs.«147252_j55800215109664_2_alg».proof.Proof.RefOfPre
import proofs.«147252_j55800215109664_2_alg».proof.Proof.RefImports

noncomputable section

namespace Cert.Proof

open Idealize.ShloMosaic Idealize.ShloMosaic.TcCoe Idealize.SL.Sem

/-- The word-level program runs and leaves its arguments unchanged. -/
theorem frame_kernel : Cert.frame_Kernel := fun m ρ _ => Cert.Kernel.Hand.frame m ρ

/-- So does the idealized program. -/
theorem frame_kernelIdeal : Cert.frame_KernelIdeal := fun m ρ _ => Cert.KernelIdeal.Hand.frame m ρ

/-- The reference is a host program: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the one number `Cert.Spec.result` of the argument arrays: the kernel's run read
    at its result buffer, the reference's run read through the law of the reals, the arguments real by the
    precondition. -/
theorem algebraic : Cert.algebraic_KernelIdeal_ReferenceIdeal := by
  intro m ρ m' ρ' hpre hagree
  refine ⟨fun c _ => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono (fun r h c =>
      ⟨(h c _ (Cert.KernelIdeal.Hand.mem_uc Cert.KernelIdeal.main_v14 (by decide))).trans (Cert.KernelIdeal.HandValue.kernel_value' m ρ c),
       (h c _ (Cert.KernelIdeal.Hand.mem_uc Cert.KernelIdeal.main_arg0 (by decide))).trans (Cert.KernelIdeal.Hand.W5_main_arg0 m ρ c),
       (h c _ (Cert.KernelIdeal.Hand.mem_uc Cert.KernelIdeal.main_arg1 (by decide))).trans (Cert.KernelIdeal.Hand.W5_main_arg1 m ρ c),
       (h c _ (Cert.KernelIdeal.Hand.mem_uc Cert.KernelIdeal.main_arg2 (by decide))).trans (Cert.KernelIdeal.Hand.W5_main_arg2 m ρ c),
       (h c _ (Cert.KernelIdeal.Hand.mem_uc Cert.KernelIdeal.main_arg3 (by decide))).trans (Cert.KernelIdeal.Hand.W5_main_arg3 m ρ c)⟩)
      (Cert.KernelIdeal.Hand.run_all m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    exact Cert.RefSide.ref_of_pre m hpre c

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
